-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S64x256 : Shape := ⟨2, ![64, 256]⟩
abbrev S256 : Shape := ⟨1, ![256]⟩
abbrev S256x32 : Shape := ⟨2, ![256, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S64x128 : S_.BroadcastsInDim S64x128 (![] : Fin 0 → Fin S64x128.rank)
  reducesTo_S64x128_S_d0_1 : S64x128.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg2 : IVec S1600000 32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_c_34 : IVec S_ 32 := constantI S_ 32 4294867296#32
  let main_v89 : IVec S1600000 32 := broadcastInDim S1600000 ![] bcast_S_S1600000 main_c_34
  let main_v90 : IVec S1600000 1 := cmpi .sge main_arg2 main_v89
  let main_c_35 : IVec S_ 32 := constantI S_ 32 100000#32
  let main_v91 : IVec S1600000 32 := broadcastInDim S1600000 ![] bcast_S_S1600000 main_c_35
  let main_v92 : IVec S1600000 1 := cmpi .slt main_arg2 main_v91
  let main_v93 : IVec S1600000 1 := andi main_v90 main_v92
  let main_c_36 : IVec S_ 1 := constantI S_ 1 1#1
  let main_v94 : IVec S_ 1 := (fun x v => Host.reduce IntOp.andi x v reducesTo_S1600000_S_d0 h_S_) main_v93 main_c_36
  let main_v95 : IVec S_ 1 := andi main_v88 main_v94
  main_v95

def fn_part4 {F : FTy → Type} [FloatOps F] (main_arg2 : IVec S1600000 32) (main_arg16 : FVec F S64x256 .f32) (main_arg17 : FVec F S256 .f32) (main_arg18 : FVec F S256x32 .f32) (main_arg19 : FVec F S32 .f32) (main_v63 : IVec S_ 1) (main_v67 : IVec S_ 1) : IVec S_ 1 :=
  let main_v68 : IVec S_ 1 := andi main_v63 main_v67
  let main_v69 : FVec F S64x256 .f32 := Host.absf main_arg16
  let main_cst_26 : FVec F S_ .f32 := constant S_ .f32 0x7F800000#32
  let main_v70 : FVec F S64x256 .f32 := broadcastInDim S64x256 ![] bcast_S_S64x256 main_cst_26
  let main_v71 : IVec S64x256 1 := cmpf .olt main_v69 main_v70
  let main_c_27 : IVec S_ 1 := constantI S_ 1 1#1
  let main_v72 : IVec S_ 1 := (fun x v => Host.reduce IntOp.andi x v reducesTo_S64x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x32 .f32 := Host.absf main_arg18
  let main_cst_30 : FVec F S_ .f32 := constant S_ .f32 0x7F800000#32
  let main_v80 : FVec F S256x32 .f32 := broadcastInDim S256x32 ![] bcast_S_S256x32 main_cst_30
  let main_v81 : IVec S256x32 1 := cmpf .olt main_v79 main_v80
  let main_c_31 : IVec S_ 1 := constantI S_ 1 1#1
  let main_v82 : IVec S_ 1 := (fun x v => Host.reduce IntOp.andi x v reducesTo_S256x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_arg2 main_v83 main_v84 main_cst_32

def fn_part3 {F : FTy → Type} [FloatOps F] (main_arg2 : IVec S1600000 32) (main_arg13 : FVec F S128x32 .f32) (main_arg14 : FVec F S128x32 .f32) (main_arg15 : FVec F S32 .f32) (main_arg16 : FVec F S64x256 .f32) (main_arg17 : FVec F S256 .f32) (main_arg18 : FVec F S256x32 .f32) (main_arg19 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x32 .f32 := Host.absf main_arg13
  let main_cst_20 : FVec F S_ .f32 := constant S_ .f32 0x7F800000#32
  let main_v55 : FVec F S128x32 .f32 := broadcastInDim S128x32 ![] bcast_S_S128x32 main_cst_20
  let main_v56 : IVec S128x32 1 := cmpf .olt main_v54 main_v55
  let main_c_21 : IVec S_ 1 := constantI S_ 1 1#1
  let main_v57 : IVec S_ 1 := (fun x v => Host.reduce IntOp.andi x v reducesTo_S128x32_S_d0_1 h_S_) main_v56 main_c_21
  let main_v58 : IVec S_ 1 := andi main_v53 main_v57
  let main_v59 : FVec F S128x32 .f32 := Host.absf main_arg14
  let main_cst_22 : FVec F S_ .f32 := constant S_ .f32 0x7F800000#32
  let main_v60 : FVec F S128x32 .f32 := broadcastInDim S128x32 ![] bcast_S_S128x32 main_cst_22
  let main_v61 : IVec S128x32 1 := cmpf .olt main_v59 main_v60
  let main_c_23 : IVec S_ 1 := constantI S_ 1 1#1
  let main_v62 : IVec S_ 1 := (fun x v => Host.reduce IntOp.andi x v reducesTo_S128x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg16 main_arg17 main_arg18 main_arg19 main_v63 main_v67

def fn_part2 {F : FTy → Type} [FloatOps F] (main_arg2 : IVec S1600000 32) (main_arg9 : FVec F S32 .f32) (main_arg10 : FVec F S64x128 .f32) (main_arg11 : FVec F S64x128 .f32) (main_arg12 : FVec F S128 .f32) (main_arg13 : FVec F S128x32 .f32) (main_arg14 : FVec F S128x32 .f32) (main_arg15 : FVec F S32 .f32) (main_arg16 : FVec F S64x256 .f32) (main_arg17 : FVec F S256 .f32) (main_arg18 : FVec F S256x32 .f32) (main_arg19 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_arg15 main_arg16 main_arg17 main_arg18 main_arg19 main_v48 main_v49 main_v50

def fn_part1 {F : FTy → Type} [FloatOps F] (main_arg2 : IVec S1600000 32) (main_arg6 : FVec F S128 .f32) (main_arg7 : FVec F S128x32 .f32) (main_arg8 : FVec F S128x32 .f32) (main_arg9 : FVec F S32 .f32) (main_arg10 : FVec F S64x128 .f32) (main_arg11 : FVec F S64x128 .f32) (main_arg12 : FVec F S128 .f32) (main_arg13 : FVec F S128x32 .f32) (main_arg14 : FVec F S128x32 .f32) (main_arg15 : FVec F S32 .f32) (main_arg16 : FVec F S64x256 .f32) (main_arg17 : FVec F S256 .f32) (main_arg18 : FVec F S256x32 .f32) (main_arg19 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S128x32 .f32 := Host.absf main_arg8
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg2 main_arg9 main_arg10 main_arg11 main_arg12 main_arg13 main_arg14 main_arg15 main_arg16 main_arg17 main_arg18 main_arg19 main_v33

def fn {F : FTy → Type} [FloatOps F] (main_arg0 : FVec F S100000x128 .f32) (main_arg1 : FVec F S100000x64 .f32) (main_arg2 : IVec S1600000 32) (main_arg3 : IVec S1600000 32) (main_arg4 : FVec F S128x128 .f32) (main_arg5 : FVec F S128x128 .f32) (main_arg6 : FVec F S128 .f32) (main_arg7 : FVec F S128x32 .f32) (main_arg8 : FVec F S128x32 .f32) (main_arg9 : FVec F S32 .f32) (main_arg10 : FVec F S64x128 .f32) (main_arg11 : FVec F S64x128 .f32) (main_arg12 : FVec F S128 .f32) (main_arg13 : FVec F S128x32 .f32) (main_arg14 : FVec F S128x32 .f32) (main_arg15 : FVec F S32 .f32) (main_arg16 : FVec F S64x256 .f32) (main_arg17 : FVec F S256 .f32) (main_arg18 : FVec F S256x32 .f32) (main_arg19 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S64x256 : Shape := ⟨2, ![64, 256]⟩
abbrev S256 : Shape := ⟨1, ![256]⟩
abbrev S256x32 : Shape := ⟨2, ![256, 32]⟩
abbrev S_ : Shape := ⟨0, ![]⟩
abbrev S100000 : Shape := ⟨1, ![100000]⟩
abbrev S1600000x1 : Shape := ⟨2, ![1600000, 1]⟩
abbrev S32x256 : Shape := ⟨2, ![32, 256]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S1x128 : Shape := ⟨2, ![1, 128]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1600000x64 : Shape := ⟨2, ![1600000, 64]⟩
abbrev S5000x64 : Shape := ⟨2, ![5000, 64]⟩
abbrev S1x32 : Shape := ⟨2, ![1, 32]⟩
abbrev S1x256 : Shape := ⟨2, ![1, 256]⟩
abbrev S2000x128 : Shape := ⟨2, ![2000, 128]⟩
abbrev S2000x32 : Shape := ⟨2, ![2000, 32]⟩
abbrev S2000x256 : Shape := ⟨2, ![2000, 256]⟩

abbrev nBuf : Space → Nat
  | .hbm => 176
  | .vmem => 43
  | .smem => 0
  | _ => 0

abbrev hbmTy0_0 (i : Nat) : BufTy := match i % 128 with
  | 0 => ⟨S100000x128, .f32⟩
  | 1 => ⟨S100000x64, .f32⟩
  | 2 => ⟨S1600000, .i32⟩
  | 3 => ⟨S1600000, .i32⟩
  | 4 => ⟨S128x128, .f32⟩
  | 5 => ⟨S128x128, .f32⟩
  | 6 => ⟨S128, .f32⟩
  | 7 => ⟨S128x32, .f32⟩
  | 8 => ⟨S128x32, .f32⟩
  | 9 => ⟨S32, .f32⟩
  | 10 => ⟨S64x128, .f32⟩
  | 11 => ⟨S64x128, .f32⟩
  | 12 => ⟨S128, .f32⟩
  | 13 => ⟨S128x32, .f32⟩
  | 14 => ⟨S128x32, .f32⟩
  | 15 => ⟨S32, .f32⟩
  | 16 => ⟨S64x256, .f32⟩
  | 17 => ⟨S256, .f32⟩
  | 18 => ⟨S256x32, .f32⟩
  | 19 => ⟨S32, .f32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .f32⟩
  | 32 => ⟨S128x128, .bf16⟩
  | 33 => ⟨S128x128, .bf16⟩
  | 34 => ⟨S128x32, .bf16⟩
  | 35 => ⟨S128x32, .bf16⟩
  | 36 => ⟨S64x128, .bf16⟩
  | 37 => ⟨S64x128, .bf16⟩
  | 38 => ⟨S128x32, .bf16⟩
  | 39 => ⟨S128x32, .bf16⟩
  | 40 => ⟨S32x256, .f32⟩
  | 41 => ⟨S32x256, .f32⟩
  | 42 => ⟨S32x256, .bf16⟩
  | 43 => ⟨S32x256, .bf16⟩
  | 44 => ⟨S256x32, .bf16⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1, .i32⟩
  | 54 => ⟨S_, .i32⟩
  | 55 => ⟨S1600000x1, .i32⟩
  | 56 => ⟨S1600000x1, .i1⟩
  | 57 => ⟨S1x1, .i32⟩
  | 58 => ⟨S1600000x1, .i32⟩
  | 59 => ⟨S1600000x1, .i1⟩
  | 60 => ⟨S1600000x1, .i1⟩
  | 61 => ⟨S_, .i1⟩
  | 62 => ⟨S1600000, .i1⟩
  | 63 => ⟨S1600000x128, .f32⟩
  | 64 => ⟨S1600000x128, .i1⟩
  | 65 => ⟨S_, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000x1, .f32⟩
  | 73 => ⟨S100000x128, .f32⟩
  | 74 => ⟨S100000x128, .f32⟩
  | 75 => ⟨S1x128, .f32⟩
  | 76 => ⟨S100000x128, .f32⟩
  | 77 => ⟨S100000x32, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1, .i32⟩
  | 87 => ⟨S_, .i32⟩
  | 88 => ⟨S1600000x1, .i32⟩
  | 89 => ⟨S1600000x1, .i1⟩
  | 90 => ⟨S1x1, .i32⟩
  | 91 => ⟨S1600000x1, .i32⟩
  | 92 => ⟨S1600000x1, .i1⟩
  | 93 => ⟨S1600000x1, .i1⟩
  | 94 => ⟨S_, .i1⟩
  | 95 => ⟨S1600000, .i1⟩
  | 96 => ⟨S1600000x32, .f32⟩
  | 97 => ⟨S1600000x32, .i1⟩
  | 98 => ⟨S_, .f32⟩
  | 99 => ⟨S1600000x32, .f32⟩
  | 100 => ⟨S1600000x32, .f32⟩
  | 101 => ⟨S_, .f32⟩
  | 102 => ⟨S100000x32, .f32⟩
  | 103 => ⟨S1600000x1, .i32⟩
  | 104 => ⟨S100000x32, .f32⟩
  | 105 => ⟨S100000x1, .f32⟩
  | 106 => ⟨S100000x32, .f32⟩
  | 107 => ⟨S100000x32, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1, .i32⟩
  | 117 => ⟨S_, .i32⟩
  | 118 => ⟨S1600000x1, .i32⟩
  | 119 => ⟨S1600000x1, .i1⟩
  | 120 => ⟨S1x1, .i32⟩
  | 121 => ⟨S1600000x1, .i32⟩
  | 122 => ⟨S1600000x1, .i1⟩
  | 123 => ⟨S1600000x1, .i1⟩
  | 124 => ⟨S_, .i1⟩
  | 125 => ⟨S1600000, .i1⟩
  | 126 => ⟨S1600000x64, .f32⟩
  | 127 => ⟨S1600000x64, .i1⟩
  | _ => ⟨S100000x128, .f32⟩

abbrev hbmTy0_1 (i : Nat) : BufTy := match i % 128 with
  | 0 => ⟨S_, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S100000x1, .f32⟩
  | 8 => ⟨S100000x64, .f32⟩
  | 9 => ⟨S100000x64, .f32⟩
  | 10 => ⟨S1x128, .f32⟩
  | 11 => ⟨S100000x128, .f32⟩
  | 12 => ⟨S100000x32, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1, .i32⟩
  | 22 => ⟨S_, .i32⟩
  | 23 => ⟨S1600000x1, .i32⟩
  | 24 => ⟨S1600000x1, .i1⟩
  | 25 => ⟨S1x1, .i32⟩
  | 26 => ⟨S1600000x1, .i32⟩
  | 27 => ⟨S1600000x1, .i1⟩
  | 28 => ⟨S1600000x1, .i1⟩
  | 29 => ⟨S_, .i1⟩
  | 30 => ⟨S1600000, .i1⟩
  | 31 => ⟨S1600000x32, .f32⟩
  | 32 => ⟨S1600000x32, .i1⟩
  | 33 => ⟨S_, .f32⟩
  | 34 => ⟨S1600000x32, .f32⟩
  | 35 => ⟨S1600000x32, .f32⟩
  | 36 => ⟨S_, .f32⟩
  | 37 => ⟨S100000x32, .f32⟩
  | 38 => ⟨S1600000x1, .i32⟩
  | 39 => ⟨S100000x32, .f32⟩
  | 40 => ⟨S100000x1, .f32⟩
  | 41 => ⟨S100000x32, .f32⟩
  | 42 => ⟨S100000x32, .f32⟩
  | 43 => ⟨S1x32, .f32⟩
  | 44 => ⟨S1x32, .f32⟩
  | 45 => ⟨S1x256, .f32⟩
  | 46 => ⟨S1x32, .f32⟩
  | 47 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x32, .bf16⟩
  | .local _ .vmem, ⟨8, _⟩ => ⟨S5000x128, .f32⟩
  | .local _ .vmem, ⟨9, _⟩ => ⟨S5000x128, .f32⟩
  | .local _ .vmem, ⟨10, _⟩ => ⟨S5000x32, .f32⟩
  | .local _ .vmem, ⟨11, _⟩ => ⟨S5000x32, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x128, .bf16⟩
  | .local _ .vmem, ⟨17, _⟩ => ⟨S64x128, .bf16⟩
  | .local _ .vmem, ⟨18, _⟩ => ⟨S1x128, .f32⟩
  | .local _ .vmem, ⟨19, _⟩ => ⟨S128x32, .bf16⟩
  | .local _ .vmem, ⟨20, _⟩ => ⟨S5000x128, .f32⟩
  | .local _ .vmem, ⟨21, _⟩ => ⟨S5000x128, .f32⟩
  | .local _ .vmem, ⟨22, _⟩ => ⟨S5000x32, .f32⟩
  | .local _ .vmem, ⟨23, _⟩ => ⟨S5000x32, .f32⟩
  | .local _ .vmem, ⟨24, _⟩ => ⟨S2000x128, .f32⟩
  | .local _ .vmem, ⟨25, _⟩ => ⟨S2000x128, .f32⟩
  | .local _ .vmem, ⟨26, _⟩ => ⟨S2000x32, .f32⟩
  | .local _ .vmem, ⟨27, _⟩ => ⟨S2000x32, .f32⟩
  | .local _ .vmem, ⟨28, _⟩ => ⟨S2000x128, .f32⟩
  | .local _ .vmem, ⟨29, _⟩ => ⟨S2000x128, .f32⟩
  | .local _ .vmem, ⟨30, _⟩ => ⟨S2000x32, .f32⟩
  | .local _ .vmem, ⟨31, _⟩ => ⟨S2000x32, .f32⟩
  | .local _ .vmem, ⟨32, _⟩ => ⟨S128x32, .bf16⟩
  | .local _ .vmem, ⟨33, _⟩ => ⟨S1x32, .f32⟩
  | .local _ .vmem, ⟨34, _⟩ => ⟨S128x32, .bf16⟩
  | .local _ .vmem, ⟨35, _⟩ => ⟨S1x32, .f32⟩
  | .local _ .vmem, ⟨36, _⟩ => ⟨S32x256, .bf16⟩
  | .local _ .vmem, ⟨37, _⟩ => ⟨S32x256, .bf16⟩
  | .local _ .vmem, ⟨38, _⟩ => ⟨S1x256, .f32⟩
  | .local _ .vmem, ⟨39, _⟩ => ⟨S256x32, .bf16⟩
  | .local _ .vmem, ⟨40, _⟩ => ⟨S1x32, .f32⟩
  | .local _ .vmem, ⟨41, _⟩ => ⟨S2000x32, .f32⟩
  | .local _ .vmem, ⟨42, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v21 : Ref sig .tc := ⟨.hbm, 67, rfl⟩
abbrev main_cst_3 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29_0 : Ref sig .tc := ⟨.hbm, 76, rfl⟩
abbrev main_v29_1 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v30 : Ref sig .tc := ⟨.hbm, 100, rfl⟩
abbrev main_cst_4 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_c_1 : Ref sig .tc := ⟨.hbm, 116, rfl⟩
abbrev main_call2_c_2 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_c_3 : Ref sig .tc := ⟨.hbm, 124, rfl⟩
abbrev main_call2_v12 : Ref sig .tc := ⟨.hbm, 125, rfl⟩
abbrev main_call2_v13 : Ref sig .tc := ⟨.hbm, 126, rfl⟩
abbrev main_call2_v14 : Ref sig .tc := ⟨.hbm, 127, rfl⟩
abbrev main_call2_cst : Ref sig .tc := ⟨.hbm, 128, rfl⟩
abbrev main_call2_v15 : Ref sig .tc := ⟨.hbm, 129, rfl⟩
abbrev main_v37 : Ref sig .tc := ⟨.hbm, 130, rfl⟩
abbrev main_cst_5 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45_0 : Ref sig .tc := ⟨.hbm, 139, rfl⟩
abbrev main_v45_1 : Ref sig .tc := ⟨.hbm, 140, rfl⟩
abbrev main_call3_c : Ref sig .tc := ⟨.hbm, 141, rfl⟩
abbrev main_call3_v0 : Ref sig .tc := ⟨.hbm, 142, rfl⟩
abbrev main_call3_v1 : Ref sig .tc := ⟨.hbm, 143, rfl⟩
abbrev main_call3_c_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_c_1 : Ref sig .tc := ⟨.hbm, 149, rfl⟩
abbrev main_call3_c_2 : Ref sig .tc := ⟨.hbm, 150, rfl⟩
abbrev main_call3_v6 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_c_3 : Ref sig .tc := ⟨.hbm, 157, rfl⟩
abbrev main_call3_v12 : Ref sig .tc := ⟨.hbm, 158, rfl⟩
abbrev main_call3_v13 : Ref sig .tc := ⟨.hbm, 159, rfl⟩
abbrev main_call3_v14 : Ref sig .tc := ⟨.hbm, 160, rfl⟩
abbrev main_call3_cst : Ref sig .tc := ⟨.hbm, 161, rfl⟩
abbrev main_call3_v15 : Ref sig .tc := ⟨.hbm, 162, rfl⟩
abbrev main_v46 : Ref sig .tc := ⟨.hbm, 163, rfl⟩
abbrev main_cst_6 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg12_0 : Ref sig .tc := ⟨.vmem, 40, rfl⟩
abbrev cc2_stg13_0 : Ref sig .tc := ⟨.vmem, 41, rfl⟩
abbrev cc2_stg13_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem11_0 : DmaSem sig := 39
abbrev cc2_sem12_0 : DmaSem sig := 40
abbrev cc2_sem13_0 : DmaSem sig := 41
abbrev cc2_sem13_1 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x32 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x32 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x256 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S32x256 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256x32 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x32 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x32 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  slices_S64x256_S32x256_0_0 : S64x256.Slices ![0, 0] S32x256
  slices_S64x256_S32x256_32_0 : S64x256.Slices ![32, 0] S32x256
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S5000x32_S5000x32_0_0 : ∀ a, (![0, 0] : Fin 2 → Nat) a + S5000x32.size a ≤ S5000x32.size a
  h_S5000x32 : 0 < S5000x32.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S32_S1x32 : S32.ShapeCasts S1x32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S2000x128_S128x32_S2000x32_1_0_0_1_n_n_wf : DotDims.WF S2000x128 S128x32 S2000x32 [1] [0] [0] [1] [] []
  dot_S2000x32_S32x256_S2000x256_1_0_0_1_n_n_wf : DotDims.WF S2000x32 S32x256 S2000x256 [1] [0] [0] [1] [] []
  dot_S2000x256_S256x32_S2000x32_1_0_0_1_n_n_wf : DotDims.WF S2000x256 S256x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .bf16 = 32 ∨ (Rect.block (s := S128x32) S128x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x32.size a ≤ S100000x32.size a
  hwx0_7 : ∀ i : grid0.Coords, EltTy.bits .f32 = 32 ∨ (Rect.block (s := S100000x32) S5000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .bf16 = 32 ∨ (Rect.block (s := S128x32) S128x32.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x32.size a ≤ S100000x32.size a
  hwx1_7 : ∀ i : grid1.Coords, EltTy.bits .f32 = 32 ∨ (Rect.block (s := S100000x32) S5000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x32.size a ≤ S128x32.size a
  hwx2_4 : ∀ i : grid2.Coords, EltTy.bits .bf16 = 32 ∨ (Rect.block (s := S128x32) S128x32.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x32.size a ≤ S128x32.size a
  hwx2_6 : ∀ i : grid2.Coords, EltTy.bits .bf16 = 32 ∨ (Rect.block (s := S128x32) S128x32.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x256.size a ≤ S32x256.size a
  hwx2_8 : ∀ i : grid2.Coords, EltTy.bits .bf16 = 32 ∨ (Rect.block (s := S32x256) S32x256.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S32x256.size a ≤ S32x256.size a
  hwx2_9 : ∀ i : grid2.Coords, EltTy.bits .bf16 = 32 ∨ (Rect.block (s := S32x256) S32x256.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x256.size a ≤ S1x256.size a
  hwx2_10 : ∀ i : grid2.Coords, EltTy.bits .f32 = 32 ∨ (Rect.block (s := S1x256) S1x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256x32.size a ≤ S256x32.size a
  hwx2_11 : ∀ i : grid2.Coords, EltTy.bits .bf16 = 32 ∨ (Rect.block (s := S256x32) S256x32.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x32.size a ≤ S1x32.size a
  hwx2_12 : ∀ i : grid2.Coords, EltTy.bits .f32 = 32 ∨ (Rect.block (s := S1x32) S1x32.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x32.size a ≤ S100000x32.size a
  hwx2_13 : ∀ i : grid2.Coords, EltTy.bits .f32 = 32 ∨ (Rect.block (s := S100000x32) S2000x32.size (cc2_transform_13 i) (hinb2_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S5000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v45_1) S5000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v29_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S2000x32.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S128x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v18) S32x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v19) S32x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v55) S1x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v20) S256x32.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v56) S1x32.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v57) S2000x32.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x128 : Shape := ⟨2, ![100000, 128]⟩
abbrev S100000x64 : Shape := ⟨2, ![100000, 64]⟩
abbrev S1600000 : Shape := ⟨1, ![1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S64x128 : Shape := ⟨2, ![64, 128]⟩
abbrev S64x256 : Shape := ⟨2, ![64, 256]⟩
abbrev S256 : Shape := ⟨1, ![256]⟩
abbrev S256x32 : Shape := ⟨2, ![256, 32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x32 : Shape := ⟨2, ![100000, 32]⟩
abbrev S1x32 : Shape := ⟨2, ![1, 32]⟩
abbrev S1600000x64 : Shape := ⟨2, ![1600000, 64]⟩
abbrev S100000x256 : Shape := ⟨2, ![100000, 256]⟩
abbrev S1x256 : Shape := ⟨2, ![1, 256]⟩

abbrev nBuf : Space → Nat
  | .hbm => 218
  | .vmem => 0
  | .smem => 0
  | _ => 0

abbrev hbmTy0_0 (i : Nat) : BufTy := match i % 128 with
  | 0 => ⟨S100000x128, .f32⟩
  | 1 => ⟨S100000x64, .f32⟩
  | 2 => ⟨S1600000, .i32⟩
  | 3 => ⟨S1600000, .i32⟩
  | 4 => ⟨S128x128, .f32⟩
  | 5 => ⟨S128x128, .f32⟩
  | 6 => ⟨S128, .f32⟩
  | 7 => ⟨S128x32, .f32⟩
  | 8 => ⟨S128x32, .f32⟩
  | 9 => ⟨S32, .f32⟩
  | 10 => ⟨S64x128, .f32⟩
  | 11 => ⟨S64x128, .f32⟩
  | 12 => ⟨S128, .f32⟩
  | 13 => ⟨S128x32, .f32⟩
  | 14 => ⟨S128x32, .f32⟩
  | 15 => ⟨S32, .f32⟩
  | 16 => ⟨S64x256, .f32⟩
  | 17 => ⟨S256, .f32⟩
  | 18 => ⟨S256x32, .f32⟩
  | 19 => ⟨S32, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1, .i32⟩
  | 29 => ⟨S_, .i32⟩
  | 30 => ⟨S1600000x1, .i32⟩
  | 31 => ⟨S1600000x1, .i1⟩
  | 32 => ⟨S1x1, .i32⟩
  | 33 => ⟨S1600000x1, .i32⟩
  | 34 => ⟨S1600000x1, .i1⟩
  | 35 => ⟨S1600000x1, .i1⟩
  | 36 => ⟨S_, .i1⟩
  | 37 => ⟨S1600000, .i1⟩
  | 38 => ⟨S1600000x128, .f32⟩
  | 39 => ⟨S1600000x128, .i1⟩
  | 40 => ⟨S_, .f32⟩
  | 41 => ⟨S1600000x128, .f32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S_, .f32⟩
  | 48 => ⟨S1600000, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x128, .f32⟩
  | 58 => ⟨S100000x128, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1, .i32⟩
  | 77 => ⟨S_, .i32⟩
  | 78 => ⟨S1600000x1, .i32⟩
  | 79 => ⟨S1600000x1, .i1⟩
  | 80 => ⟨S1x1, .i32⟩
  | 81 => ⟨S1600000x1, .i32⟩
  | 82 => ⟨S1600000x1, .i1⟩
  | 83 => ⟨S1600000x1, .i1⟩
  | 84 => ⟨S_, .i1⟩
  | 85 => ⟨S1600000, .i1⟩
  | 86 => ⟨S1600000x128, .f32⟩
  | 87 => ⟨S1600000x128, .i1⟩
  | 88 => ⟨S_, .f32⟩
  | 89 => ⟨S1600000x128, .f32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S_, .f32⟩
  | 96 => ⟨S1600000, .f32⟩
  | 97 => ⟨S_, .f32⟩
  | 98 => ⟨S100000, .f32⟩
  | 99 => ⟨S1600000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S100000x32, .f32⟩
  | 108 => ⟨S100000x32, .f32⟩
  | 109 => ⟨S100000x32, .f32⟩
  | 110 => ⟨S1x32, .f32⟩
  | 111 => ⟨S100000x32, .f32⟩
  | 112 => ⟨S100000x32, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1, .i32⟩
  | 122 => ⟨S_, .i32⟩
  | 123 => ⟨S1600000x1, .i32⟩
  | 124 => ⟨S1600000x1, .i1⟩
  | 125 => ⟨S1x1, .i32⟩
  | 126 => ⟨S1600000x1, .i32⟩
  | 127 => ⟨S1600000x1, .i1⟩
  | _ => ⟨S100000x128, .f32⟩

abbrev hbmTy0_1 (i : Nat) : BufTy := match i % 128 with
  | 0 => ⟨S1600000x1, .i1⟩
  | 1 => ⟨S_, .i1⟩
  | 2 => ⟨S1600000, .i1⟩
  | 3 => ⟨S1600000x64, .f32⟩
  | 4 => ⟨S1600000x64, .i1⟩
  | 5 => ⟨S_, .f32⟩
  | 6 => ⟨S1600000x64, .f32⟩
  | 7 => ⟨S1600000x64, .f32⟩
  | 8 => ⟨S_, .f32⟩
  | 9 => ⟨S100000x64, .f32⟩
  | 10 => ⟨S1600000x1, .i32⟩
  | 11 => ⟨S100000x64, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x64, .f32⟩
  | 23 => ⟨S100000x64, .f32⟩
  | 24 => ⟨S100000x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1, .i32⟩
  | 42 => ⟨S_, .i32⟩
  | 43 => ⟨S1600000x1, .i32⟩
  | 44 => ⟨S1600000x1, .i1⟩
  | 45 => ⟨S1x1, .i32⟩
  | 46 => ⟨S1600000x1, .i32⟩
  | 47 => ⟨S1600000x1, .i1⟩
  | 48 => ⟨S1600000x1, .i1⟩
  | 49 => ⟨S_, .i1⟩
  | 50 => ⟨S1600000, .i1⟩
  | 51 => ⟨S1600000x128, .f32⟩
  | 52 => ⟨S1600000x128, .i1⟩
  | 53 => ⟨S_, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S_, .f32⟩
  | 61 => ⟨S1600000, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S100000x128, .f32⟩
  | 71 => ⟨S100000x128, .f32⟩
  | 72 => ⟨S100000x32, .f32⟩
  | 73 => ⟨S100000x32, .f32⟩
  | 74 => ⟨S100000x32, .f32⟩
  | 75 => ⟨S1x32, .f32⟩
  | 76 => ⟨S100000x32, .f32⟩
  | 77 => ⟨S100000x32, .f32⟩
  | 78 => ⟨S100000x64, .f32⟩
  | 79 => ⟨S100000x256, .f32⟩
  | 80 => ⟨S1x256, .f32⟩
  | 81 => ⟨S100000x256, .f32⟩
  | 82 => ⟨S100000x256, .f32⟩
  | 83 => ⟨S_, .f32⟩
  | 84 => ⟨S100000x256, .f32⟩
  | 85 => ⟨S100000x256, .f32⟩
  | 86 => ⟨S100000x32, .f32⟩
  | 87 => ⟨S1x32, .f32⟩
  | 88 => ⟨S100000x32, .f32⟩
  | 89 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_cst : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_cst_0 : Ref sig .tc := ⟨.hbm, 47, rfl⟩
abbrev main_v4 : Ref sig .tc := ⟨.hbm, 48, rfl⟩
abbrev main_cst_1 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst_2 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call1_cst : Ref sig .tc := ⟨.hbm, 65, rfl⟩
abbrev main_call1_v0 : Ref sig .tc := ⟨.hbm, 66, rfl⟩
abbrev main_v19 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v20 : Ref sig .tc := ⟨.hbm, 90, rfl⟩
abbrev main_cst_3 : Ref sig .tc := ⟨.hbm, 91, rfl⟩
abbrev main_v21 : Ref sig .tc := ⟨.hbm, 92, rfl⟩
abbrev main_v22 : Ref sig .tc := ⟨.hbm, 93, rfl⟩
abbrev main_v23 : Ref sig .tc := ⟨.hbm, 94, rfl⟩
abbrev main_cst_4 : Ref sig .tc := ⟨.hbm, 95, rfl⟩
abbrev main_v24 : Ref sig .tc := ⟨.hbm, 96, rfl⟩
abbrev main_cst_5 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_cst_6 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v39 : Ref sig .tc := ⟨.hbm, 135, rfl⟩
abbrev main_cst_7 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_cst_8 : Ref sig .tc := ⟨.hbm, 140, rfl⟩
abbrev main_v43 : Ref sig .tc := ⟨.hbm, 141, rfl⟩
abbrev main_cst_9 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_cst_10 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_call4_cst : Ref sig .tc := ⟨.hbm, 158, rfl⟩
abbrev main_call4_v0 : Ref sig .tc := ⟨.hbm, 159, rfl⟩
abbrev main_v58 : Ref sig .tc := ⟨.hbm, 160, rfl⟩
abbrev main_call5_c : Ref sig .tc := ⟨.hbm, 161, rfl⟩
abbrev main_call5_v0 : Ref sig .tc := ⟨.hbm, 162, rfl⟩
abbrev main_call5_v1 : Ref sig .tc := ⟨.hbm, 163, rfl⟩
abbrev main_call5_c_0 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_call5_v5 : Ref sig .tc := ⟨.hbm, 168, rfl⟩
abbrev main_call5_c_1 : Ref sig .tc := ⟨.hbm, 169, rfl⟩
abbrev main_call5_c_2 : Ref sig .tc := ⟨.hbm, 170, rfl⟩
abbrev main_call5_v6 : Ref sig .tc := ⟨.hbm, 171, rfl⟩
abbrev main_call5_v7 : Ref sig .tc := ⟨.hbm, 172, rfl⟩
abbrev main_call5_v8 : Ref sig .tc := ⟨.hbm, 173, rfl⟩
abbrev main_call5_v9 : Ref sig .tc := ⟨.hbm, 174, rfl⟩
abbrev main_call5_v10 : Ref sig .tc := ⟨.hbm, 175, rfl⟩
abbrev main_call5_v11 : Ref sig .tc := ⟨.hbm, 176, rfl⟩
abbrev main_call5_c_3 : Ref sig .tc := ⟨.hbm, 177, rfl⟩
abbrev main_call5_v12 : Ref sig .tc := ⟨.hbm, 178, rfl⟩
abbrev main_call5_v13 : Ref sig .tc := ⟨.hbm, 179, rfl⟩
abbrev main_call5_v14 : Ref sig .tc := ⟨.hbm, 180, rfl⟩
abbrev main_call5_cst : Ref sig .tc := ⟨.hbm, 181, rfl⟩
abbrev main_call5_v15 : Ref sig .tc := ⟨.hbm, 182, rfl⟩
abbrev main_v59 : Ref sig .tc := ⟨.hbm, 183, rfl⟩
abbrev main_cst_11 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_cst_12 : Ref sig .tc := ⟨.hbm, 188, rfl⟩
abbrev main_v63 : Ref sig .tc := ⟨.hbm, 189, rfl⟩
abbrev main_cst_13 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_cst_14 : Ref sig .tc := ⟨.hbm, 194, rfl⟩
abbrev main_v67 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_v71 : Ref sig .tc := ⟨.hbm, 199, rfl⟩
abbrev main_v72 : Ref sig .tc := ⟨.hbm, 200, rfl⟩
abbrev main_v73 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_v82 : Ref sig .tc := ⟨.hbm, 210, rfl⟩
abbrev main_call6_cst : Ref sig .tc := ⟨.hbm, 211, rfl⟩
abbrev main_call6_v0 : Ref sig .tc := ⟨.hbm, 212, rfl⟩
abbrev main_v83 : Ref sig .tc := ⟨.hbm, 213, rfl⟩
abbrev main_v84 : Ref sig .tc := ⟨.hbm, 214, rfl⟩
abbrev main_v85 : Ref sig .tc := ⟨.hbm, 215, rfl⟩
abbrev main_v86 : Ref sig .tc := ⟨.hbm, 216, rfl⟩
abbrev main_v87 : Ref sig .tc := ⟨.hbm, 217, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  concatenates_S100000x32_S100000x32_S100000x64_d1 : Shape.Concatenates [S100000x32, S100000x32] S100000x64 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x64_S64x256_S100000x256_1_0_0_1_n_n_wf : DotDims.WF S100000x64 S64x256 S100000x256 [1] [0] [0] [1] [] []
  dot_S100000x256_S256x32_S100000x32_1_0_0_1_n_n_wf : DotDims.WF S100000x256 S256x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf

class Facts : Prop extends Facts₀ where

variable [Facts]
-- ==== Proof.RefSpec.lean ====
/-
  The reference network as one function of its twenty argument arrays, over the extended reals.

  Nodes are rows 0 … 99999, edges are positions 0 … 1599999 of the two index vectors.  An edge's source word is first
  wrapped (a negative word has the number of nodes added), then the source row is read; a word that still names no row
  reads the fill value.  The rows read are added into the row the edge's destination word names (a word naming no row
  lands nowhere), giving the neighbour sum; the clamped in-degree is the count of edges landing on a node, at least one.
  A layer is  X·Wself + (neighbour sum of X / clamped degree)·Wneigh + b.  Each branch applies a rectified layer and a
  plain layer; the two 32-wide results are joined side by side and passed through a rectified dense layer and a dense
  output layer.
-/
import proofs.«107267_j23845658427621_2_alg».proof.ReferenceIdeal
import Idealize.ShloMosaic.PureOps.Ideal

noncomputable section

namespace Cert.RefSpec

open Idealize.ShloMosaic Cert.ReferenceIdeal
open Cert.ReferenceIdeal.Facts₀ Cert.ReferenceIdeal.Facts

-- the program's stated side conditions on its shapes (a proposition: any two witnesses are equal)
variable [Cert.ReferenceIdeal.Facts]

/-- Float and integer arrays of a shape, as the buffers of the program hold them. -/
abbrev Fa (s : Shape) : Type := (⟨s, .f32⟩ : BufTy).Contents (Elt Ideal)
abbrev Ia (s : Shape) : Type := (⟨s, .i32⟩ : BufTy).Contents (Elt Ideal)
abbrev Ba (s : Shape) : Type := (⟨s, .i1⟩ : BufTy).Contents (Elt Ideal)

/-- The source words wrapped: a negative word has 100000 added; kept as a column. -/
def wrapped (src : Ia S1600000) : Ia S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge: does the wrapped word name a row, 0 ≤ word ≤ 99999. -/
def named (idx : Ia S1600000x1) : Ba S1600000 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The source rows of a 128-wide array, one per edge; the fill value where the word names no row. -/
def take128 (X : Fa S100000x128) (src : Ia S1600000) : Fa S1600000x128 :=
  select (broadcastInDim S1600000x128 ![0] bcast_S1600000_S1600000x128_0 (named (wrapped src)))
    (Host.gather gather_S100000x128_S1600000x1_S1600000x128_1_0_n_n_0_1_1128 X (wrapped src))
    (broadcastInDim S1600000x128 ![] bcast_S_S1600000x128 (constant (F := Ideal) S_ .f32 0x7FC00000#32))

/-- The same for a 64-wide array. -/
def take64 (X : Fa S100000x64) (src : Ia S1600000) : Fa S1600000x64 :=
  select (broadcastInDim S1600000x64 ![0] bcast_S1600000_S1600000x64_0 (named (wrapped src)))
    (Host.gather gather_S100000x64_S1600000x1_S1600000x64_1_0_n_n_0_1_164 X (wrapped src))
    (broadcastInDim S1600000x64 ![] bcast_S_S1600000x64 (constant (F := Ideal) S_ .f32 0x7FC00000#32))

/-- The destination words as a column. -/
def dstCol (dst : Ia S1600000) : Ia S1600000x1 :=
  broadcastInDim S1600000x1 ![0] bcast_S1600000_S1600000x1_0 dst

/-- Neighbour sums: per-edge rows added into the destination rows, from zero. -/
def agg128 (U : Fa S1600000x128) (dst : Ia S1600000) : Fa S100000x128 :=
  Host.scatterAdd (F := Ideal) scatter_S100000x128_S1600000x1_S1600000x128_1_0_0_1
    (broadcastInDim S100000x128 ![] bcast_S_S100000x128 (constant (F := Ideal) S_ .f32 0x00000000#32)) (dstCol dst) U

def agg64 (U : Fa S1600000x64) (dst : Ia S1600000) : Fa S100000x64 :=
  Host.scatterAdd (F := Ideal) scatter_S100000x64_S1600000x1_S1600000x64_1_0_0_1
    (broadcastInDim S100000x64 ![] bcast_S_S100000x64 (constant (F := Ideal) S_ .f32 0x00000000#32)) (dstCol dst) U

/-- The clamped in-degree: the count of edges landing on a node, at least one. -/
def degree (dst : Ia S1600000) : Fa S100000 :=
  maximumf
    (Host.scatterAdd (F := Ideal) scatter_S100000_S1600000x1_S1600000_n_0_0_1
      (broadcastInDim S100000 ![] bcast_S_S100000 (constant (F := Ideal) S_ .f32 0x00000000#32)) (dstCol dst)
      (broadcastInDim S1600000 ![] bcast_S_S1600000 (constant (F := Ideal) S_ .f32 0x3F800000#32)))
    (broadcastInDim S100000 ![] bcast_S_S100000 (constant (F := Ideal) S_ .f32 0x3F800000#32))

/-- Neighbour means: the neighbour sums of the source rows divided by the clamped degree. -/
def mean128 (X : Fa S100000x128) (src dst : Ia S1600000) : Fa S100000x128 :=
  Host.divf (F := Ideal) (φ := .f32) (agg128 (take128 X src) dst)
    (broadcastInDim S100000x128 ![0, 1] bcast_S100000x1_S100000x128_0_1
      (broadcastInDim S100000x1 ![0] bcast_S100000_S100000x1_0 (degree dst)))

def mean64 (X : Fa S100000x64) (src dst : Ia S1600000) : Fa S100000x64 :=
  Host.divf (F := Ideal) (φ := .f32) (agg64 (take64 X src) dst)
    (broadcastInDim S100000x64 ![0, 1] bcast_S100000x1_S100000x64_0_1
      (broadcastInDim S100000x1 ![0] bcast_S100000_S100000x1_0 (degree dst)))

/-- A bias vector laid along every row. -/
def bias128 (b : Fa S128) : Fa S100000x128 :=
  broadcastInDim S100000x128 ![0, 1] bcast_S1x128_S100000x128_0_1 (broadcastInDim S1x128 ![1] bcast_S128_S1x128_1 b)
def bias32 (b : Fa S32) : Fa S100000x32 :=
  broadcastInDim S100000x32 ![0, 1] bcast_S1x32_S100000x32_0_1 (broadcastInDim S1x32 ![1] bcast_S32_S1x32_1 b)
def bias256 (b : Fa S256) : Fa S100000x256 :=
  broadcastInDim S100000x256 ![0, 1] bcast_S1x256_S100000x256_0_1 (broadcastInDim S1x256 ![1] bcast_S256_S1x256_1 b)

/-- The rectifier: the maximum with zero. -/
def relu128 (Y : Fa S100000x128) : Fa S100000x128 :=
  maximumf Y (broadcastInDim S100000x128 ![] bcast_S_S100000x128 (constant (F := Ideal) S_ .f32 0x00000000#32))
def relu256 (Y : Fa S100000x256) : Fa S100000x256 :=
  maximumf Y (broadcastInDim S100000x256 ![] bcast_S_S100000x256 (constant (F := Ideal) S_ .f32 0x00000000#32))

/-- First layer of the 128-wide branch, rectified. -/
def hidden128 (X : Fa S100000x128) (src dst : Ia S1600000) (Ws Wn : Fa S128x128) (b : Fa S128) : Fa S100000x128 :=
  relu128 (addf (addf (Host.dotGeneral (F := Ideal) (φ₁ := .f32) (φ₂ := .f32) dot_S100000x128_S128x128_S100000x128_1_0_0_1_n_n none X Ws)
    (Host.dotGeneral (F := Ideal) (φ₁ := .f32) (φ₂ := .f32) dot_S100000x128_S128x128_S100000x128_1_0_0_1_n_n none (mean128 X src dst) Wn)) (bias128 b))

/-- First layer of the 64-wide branch, rectified. -/
def hidden64 (X : Fa S100000x64) (src dst : Ia S1600000) (Ws Wn : Fa S64x128) (b : Fa S128) : Fa S100000x128 :=
  relu128 (addf (addf (Host.dotGeneral (F := Ideal) (φ₁ := .f32) (φ₂ := .f32) dot_S100000x64_S64x128_S100000x128_1_0_0_1_n_n none X Ws)
    (Host.dotGeneral (F := Ideal) (φ₁ := .f32) (φ₂ := .f32) dot_S100000x64_S64x128_S100000x128_1_0_0_1_n_n none (mean64 X src dst) Wn)) (bias128 b))

/-- Second layer of either branch, 128 → 32, not rectified. -/
def second (H : Fa S100000x128) (src dst : Ia S1600000) (Ws Wn : Fa S128x32) (b : Fa S32) : Fa S100000x32 :=
  addf (addf (Host.dotGeneral (F := Ideal) (φ₁ := .f32) (φ₂ := .f32) dot_S100000x128_S128x32_S100000x32_1_0_0_1_n_n none H Ws)
    (Host.dotGeneral (F := Ideal) (φ₁ := .f32) (φ₂ := .f32) dot_S100000x128_S128x32_S100000x32_1_0_0_1_n_n none (mean128 H src dst) Wn)) (bias32 b)

/-- The head: the two 32-wide results joined, a rectified dense layer, a dense output layer. -/
def head (Yo Ys : Fa S100000x32) (Wm1 : Fa S64x256) (bm1 : Fa S256) (Wm2 : Fa S256x32) (bm2 : Fa S32) : Fa S100000x32 :=
  addf (Host.dotGeneral (F := Ideal) (φ₁ := .f32) (φ₂ := .f32) dot_S100000x256_S256x32_S100000x32_1_0_0_1_n_n none
      (relu256 (addf (Host.dotGeneral (F := Ideal) (φ₁ := .f32) (φ₂ := .f32) dot_S100000x64_S64x256_S100000x256_1_0_0_1_n_n none
          (concatenate S100000x64 1 [⟨S100000x32, Yo⟩, ⟨S100000x32, Ys⟩] concatenates_S100000x32_S100000x32_S100000x64_d1) Wm1)
        (bias256 bm1))) Wm2) (bias32 bm2)

/-- The whole reference network. -/
def net (ori : Fa S100000x128) (struc : Fa S100000x64) (src dst : Ia S1600000)
    (W1os W1on : Fa S128x128) (b1o : Fa S128) (W2os W2on : Fa S128x32) (b2o : Fa S32)
    (W1ss W1sn : Fa S64x128) (b1s : Fa S128) (W2ss W2sn : Fa S128x32) (b2s : Fa S32)
    (Wm1 : Fa S64x256) (bm1 : Fa S256) (Wm2 : Fa S256x32) (bm2 : Fa S32) : Fa S100000x32 :=
  head (second (hidden128 ori src dst W1os W1on b1o) src dst W2os W2on b2o)
    (second (hidden64 struc src dst W1ss W1sn b1s) src dst W2ss W2sn b2s) Wm1 bm1 Wm2 bm2

end Cert.RefSpec

end
-- ==== Proof.Assemble.lean ====
/-
  The five claims from the two runs.

  Given that every weakly fair execution of the idealized kernel program, under the precondition, ends with its result
  buffer at the network applied to its twenty argument arrays and the arguments unchanged, and that every weakly fair
  execution of the idealized reference program ends likewise, the certificate's claim follows: the three frames (the
  word-level and idealized kernel programs' are generated; the reference's is its run with the result forgotten), the
  empty list of sanctioned rewrites, and the equality of the two results from memories that agree on the arguments
  (both are the network applied to the same twenty arrays).
-/
import proofs.«107267_j23845658427621_2_alg».proof.Defs
import proofs.«107267_j23845658427621_2_alg».proof.Proof.RefSpec
import proofs.«107267_j23845658427621_2_alg».proof.Proof.Gen.Kernel
import proofs.«107267_j23845658427621_2_alg».proof.Proof.Gen.Kernel.Frame
import proofs.«107267_j23845658427621_2_alg».proof.Proof.Gen.KernelIdeal
import proofs.«107267_j23845658427621_2_alg».proof.Proof.Gen.KernelIdeal.Frame
import proofs.«107267_j23845658427621_2_alg».proof.Proof.Gen.ReferenceIdeal
import proofs.«107267_j23845658427621_2_alg».proof.Proof.Gen.Pre_finite_inputs
import Idealize.ShloMosaic.Adequacy
import Idealize.ShloMosaic.Init

noncomputable section

namespace Cert.Assemble

open Idealize.ShloMosaic Idealize.SL.Sem

theorem claim_of
    (hK : ∀ (m : (ℓ : Loc Cert.KernelIdeal.nD Cert.KernelIdeal.τ Cert.KernelIdeal.sig) → Buf (Elt Ideal) ℓ) (ρ : Dev Cert.KernelIdeal.nD → PrngReg), Cert.Pre_KernelIdeal m →
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v57) = Cert.RefSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)))
    (hR : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v87) = Cert.RefSpec.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))) :
    Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (hR m ρ),
    trivial,
    fun m ρ m' ρ' hpre hagree =>
      ⟨fun c => Cert.RefSpec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
        hK m ρ hpre,
        (θ_run Cert.ReferenceIdeal.defs _ _).mono
          (fun _ h c => ⟨by rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2], (h c).2⟩)
          (hR m' ρ')⟩⟩

end Cert.Assemble

end
-- ==== Proof.LibKept.lean ====
/-
  A line of host operations changes only the buffers it writes.

  If every buffer an operation of the line writes is in a given list, a buffer outside the list holds after the line
  what it held before.  The list is checked once per line (each operation writes one literal buffer), after which
  "this buffer is not written by that line" is a membership test on literals — however many buffers are walked back
  through however many lines.
-/
import Idealize.ShloMosaic.Lib.StableHlo.Run

namespace Cert.LibKept

open Idealize.ShloMosaic

/-- A line all of whose written buffers are in a list leaves every buffer outside the list as it was. -/
theorem kept {sig : RefSig} {τ : Topo} {Val : EltTy → Type} (ops : List (HloOp τ sig Val)) (L : List (Ref sig .tc))
    (hL : ∀ op ∈ ops, ∀ x ∈ op.writes, ∃ y ∈ L, x = Proc.devRef .tc y)
    (V : Valuation τ sig Val) (b : Ref sig .tc) (hb : b ∉ L) :
    StableHlo.after ops V (Proc.devRef .tc b) = V (Proc.devRef .tc b) :=
  StableHlo.after_of_forall_not_mem ops V fun op hop hmem => by
    obtain ⟨y, hy, e⟩ := hL op hop _ hmem
    by_cases hby : b = y
    · exact hb (hby ▸ hy)
    · exact StableHlo.devRef_ne_of_ne hby e

end Cert.LibKept

/-- Decides "every buffer a literal line of host operations writes is in the list": the line's name is unfolded, each
    operation's written set is its one result buffer, and that buffer is found in the list. -/
macro "writes_in" ops:ident : tactic => `(tactic|
  (refine List.forall_iff_forall_mem.mp ?_
   simp only [$ops:ident, List.Forall, Idealize.ShloMosaic.StableHlo.nullary_writes, Idealize.ShloMosaic.StableHlo.unary_writes,
     Idealize.ShloMosaic.StableHlo.binary_writes, Idealize.ShloMosaic.StableHlo.ternary_writes,
     Idealize.ShloMosaic.StableHlo.quaternary_writes, Idealize.ShloMosaic.StableHlo.reshape_writes,
     Idealize.ShloMosaic.StableHlo.binaryIndexed_writes, Finset.mem_singleton]
   repeat' apply And.intro
   all_goals (intro x hx; exact ⟨_, by decide, hx⟩)))
-- ==== Proof.KerHost.lean ====
/-
  The host stretches of the kernel program, read.

  Between the three launches the program runs stretches of host operations: the in-degree count and its clamped
  reciprocal, the weight matrices in the narrower format, the bias vectors as rows, and, before each launch, the neighbour
  sum of the rows a gather reads, scaled by the reciprocal.  A stretch changes only the buffers it writes; every other
  buffer keeps what it held.  So each launch's operands can be read off the fold of the stretches as the
  specification's functions of the launch memory and of the earlier launches' output arrays.
-/
import proofs.«107267_j23845658427621_2_alg».proof.Proof.Gen.KernelIdeal.Frame
import proofs.«107267_j23845658427621_2_alg».proof.Proof.Gen.ReferenceIdeal
import proofs.«107267_j23845658427621_2_alg».proof.Proof.RefSpec
import Idealize.ShloMosaic.Lib.StableHlo.Run
import proofs.«107267_j23845658427621_2_alg».proof.Proof.LibKept

set_option maxRecDepth 16384

noncomputable section

namespace Cert.KerHost

open Idealize.ShloMosaic Idealize.ShloMosaic.TcCoe
open Idealize.SL Idealize.SL.Sem
open Cert.KernelIdeal Cert.KernelIdeal.Gen Cert.LibKept

variable [Cert.KernelIdeal.Facts]

section Frames
variable {F : FTy → Type} [FloatOps F]

/-! ## The buffers each stretch writes -/
def L0 : List (Ref sig .tc) := [main_cst, main_v0, main_cst_0, main_v1, main_v2, main_v3, main_cst_1, main_v4, main_v5, main_cst_2, main_v6, main_v7, main_v8, main_v9, main_v10, main_v11, main_v12, main_v13, main_v14, main_v15, main_v16, main_v17, main_v18, main_v19, main_v20]
theorem writes0 : ∀ op ∈ (hostOps0 : List (HloOp τ sig (Elt F))), ∀ x ∈ op.writes, ∃ y ∈ L0, x = Proc.devRef .tc y := by
  writes_in hostOps0
def L0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v21]
theorem writes0_1 : ∀ op ∈ (hostOps0_1 : List (HloOp τ sig (Elt F))), ∀ x ∈ op.writes, ∃ y ∈ L0_1, x = Proc.devRef .tc y := by
  writes_in hostOps0_1
def L0_2 : List (Ref sig .tc) := [main_cst_3, main_v22, main_v23, main_v24, main_v25, main_v26, main_v27, main_v28]
theorem writes0_2 : ∀ op ∈ (hostOps0_2 : List (HloOp τ sig (Elt F))), ∀ x ∈ op.writes, ∃ y ∈ L0_2, x = Proc.devRef .tc y := by
  writes_in hostOps0_2
def L1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v30]
theorem writes1 : ∀ op ∈ (hostOps1 : List (HloOp τ sig (Elt F))), ∀ x ∈ op.writes, ∃ y ∈ L1, x = Proc.devRef .tc y := by
  writes_in hostOps1
def L1_1 : List (Ref sig .tc) := [main_cst_4, main_v31, main_v32, main_v33, main_v34, main_v35, main_v36]
theorem writes1_1 : ∀ op ∈ (hostOps1_1 : List (HloOp τ sig (Elt F))), ∀ x ∈ op.writes, ∃ y ∈ L1_1, x = Proc.devRef .tc y := by
  writes_in hostOps1_1
def L1_2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]
theorem writes1_2 : ∀ op ∈ (hostOps1_2 : List (HloOp τ sig (Elt F))), ∀ x ∈ op.writes, ∃ y ∈ L1_2, x = Proc.devRef .tc y := by
  writes_in hostOps1_2
def L1_3 : List (Ref sig .tc) := [main_cst_5, main_v38, main_v39, main_v40, main_v41, main_v42, main_v43, main_v44]
theorem writes1_3 : ∀ op ∈ (hostOps1_3 : List (HloOp τ sig (Elt F))), ∀ x ∈ op.writes, ∃ y ∈ L1_3, x = Proc.devRef .tc y := by
  writes_in hostOps1_3
def L2 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v46]
theorem writes2 : ∀ op ∈ (hostOps2 : List (HloOp τ sig (Elt F))), ∀ x ∈ op.writes, ∃ y ∈ L2, x = Proc.devRef .tc y := by
  writes_in hostOps2
def L2_1 : List (Ref sig .tc) := [main_cst_6, main_v47, main_v48, main_v49, main_v50, main_v51, main_v52, main_v53, main_v54, main_v55, main_v56]
theorem writes2_1 : ∀ op ∈ (hostOps2_1 : List (HloOp τ sig (Elt F))), ∀ x ∈ op.writes, ∃ y ∈ L2_1, x = Proc.devRef .tc y := by
  writes_in hostOps2_1

variable (m : (ℓ : Loc nD τ sig) → Buf (Elt F) ℓ) (ρ : Dev nD → PrngReg) (c : Dev nD)

/-- From the first stretch's end to the first launch's entry, a buffer neither later stretch writes is unchanged. -/
theorem W3_eq_W1 (b : Ref sig .tc) (h1 : b ∉ L0_1) (h2 : b ∉ L0_2) :
    W3 m ρ c (Proc.devRef .tc b) = W1 m ρ c (Proc.devRef .tc b) :=
  (kept hostOps0_2 L0_2 writes0_2 _ b h2).trans (kept hostOps0_1 L0_1 writes0_1 _ b h1)

/-- The launch memory at a buffer no stretch before the first launch writes. -/
theorem W3_eq_W0 (b : Ref sig .tc) (h0 : b ∉ L0) (h1 : b ∉ L0_1) (h2 : b ∉ L0_2) :
    W3 m ρ c (Proc.devRef .tc b) = W0 m ρ c (Proc.devRef .tc b) :=
  (W3_eq_W1 m ρ c b h1 h2).trans (kept hostOps0 L0 writes0 _ b h0)

/-- Across the first launch and the four stretches after it, a buffer none of them writes is unchanged. -/
theorem W8_eq_W3 (b : Ref sig .tc) (hr : ∀ w, Pipeline.arrRef spec0 w ≠ b) (h1 : b ∉ L1) (h2 : b ∉ L1_1) (h3 : b ∉ L1_2)
    (h4 : b ∉ L1_3) : W8 m ρ c (Proc.devRef .tc b) = W3 m ρ c (Proc.devRef .tc b) :=
  (kept hostOps1_3 L1_3 writes1_3 _ b h4).trans ((kept hostOps1_2 L1_2 writes1_2 _ b h3).trans
    ((kept hostOps1_1 L1_1 writes1_1 _ b h2).trans ((kept hostOps1 L1 writes1 _ b h1).trans (W4_of_ne m ρ c b hr))))

/-- Across the second launch and the two stretches after it, a buffer none of them writes is unchanged. -/
theorem W11_eq_W8 (b : Ref sig .tc) (hr : ∀ w, Pipeline.arrRef spec1 w ≠ b) (h1 : b ∉ L2) (h2 : b ∉ L2_1) :
    W11 m ρ c (Proc.devRef .tc b) = W8 m ρ c (Proc.devRef .tc b) :=
  (kept hostOps2_1 L2_1 writes2_1 _ b h2).trans ((kept hostOps2 L2 writes2 _ b h1).trans (W9_of_ne m ρ c b hr))

end Frames

end Cert.KerHost

end
-- ==== Proof.KerRead.lean ====
/-
  The launches' operands, read off the host stretches.

  Each stretch is read at the buffers a launch takes, as a function of the contents the stretch starts from: the
  reciprocal of the clamped in-degree, the weight matrices in the narrower format, the bias vectors as rows, the rows a
  gather reads along the edges, and their sums into the destination rows scaled by the reciprocal.  Composed with
  "a stretch changes only the buffers it writes", this gives every operand of the three launches as the specification's
  function of the launch memory and of the earlier launches' output arrays.
-/
import proofs.«107267_j23845658427621_2_alg».proof.Proof.KerHost

set_option maxRecDepth 16384

noncomputable section

namespace Cert.KerRead

open Idealize.ShloMosaic Idealize.ShloMosaic.TcCoe Idealize.ShloMosaic.StableHlo
open Idealize.SL Idealize.SL.Sem
open Cert.KernelIdeal Cert.KernelIdeal.Gen Cert.KerHost

variable [Cert.KernelIdeal.Facts] [Cert.ReferenceIdeal.Facts]

/-- Reads a literal stretch at one buffer: each operation's result at its own buffer is its function's value, at any
    other buffer what was there; a called function's operations carry values to and from their buffers' types by
    the identity. -/
macro "read_stretch" : tactic =>
  `(tactic| (simp (disch := decide) only [after_cons, after_nil, cast_eq,
      nullary_result', unary_result', binary_result', ternary_result', quaternary_result', reshape_result',
      nullary_result_ne', unary_result_ne', binary_result_ne', ternary_result_ne', quaternary_result_ne', reshape_result_ne']))

abbrev Fa (s : Shape) : Type := Cert.RefSpec.Fa s
abbrev Ia (s : Shape) : Type := Cert.RefSpec.Ia s

/-! ## The specification's pieces the kernel program adds -/

/-- The reciprocal of the clamped in-degree, per node. -/
def recip (dst : Ia S1600000) : Fa S100000 :=
  Host.divf (F := Ideal) (φ := .f32)
    (broadcastInDim Cert.ReferenceIdeal.S100000 ![] Cert.ReferenceIdeal.Gen.bcast_S_S100000 (constant (F := Ideal) Cert.ReferenceIdeal.S_ .f32 0x3F800000#32))
    (Cert.RefSpec.degree dst)

/-- A per-node factor laid along every column of a 128-, 64- or 32-wide array. -/
def cols128 (r : Fa S100000) : Fa S100000x128 :=
  broadcastInDim Cert.ReferenceIdeal.S100000x128 ![0, 1] Cert.ReferenceIdeal.Gen.bcast_S100000x1_S100000x128_0_1
    (broadcastInDim Cert.ReferenceIdeal.S100000x1 ![0] Cert.ReferenceIdeal.Gen.bcast_S100000_S100000x1_0 r)
def cols64 (r : Fa S100000) : Fa S100000x64 :=
  broadcastInDim Cert.ReferenceIdeal.S100000x64 ![0, 1] Cert.ReferenceIdeal.Gen.bcast_S100000x1_S100000x64_0_1
    (broadcastInDim Cert.ReferenceIdeal.S100000x1 ![0] Cert.ReferenceIdeal.Gen.bcast_S100000_S100000x1_0 r)
def cols32 (r : Fa S100000) : Fa S100000x32 :=
  broadcastInDim S100000x32 ![0, 1] Gen.bcast_S100000x1_S100000x32_0_1
    (broadcastInDim Cert.ReferenceIdeal.S100000x1 ![0] Cert.ReferenceIdeal.Gen.bcast_S100000_S100000x1_0 r)

/-- The source rows of a 32-wide array, one per edge; the fill value where the word names no row. -/
def take32 (P : Fa S100000x32) (src : Ia S1600000) : Fa S1600000x32 :=
  select (broadcastInDim S1600000x32 ![0] Gen.bcast_S1600000_S1600000x32_0 (Cert.RefSpec.named (Cert.RefSpec.wrapped src)))
    (Host.gather gather_S100000x32_S1600000x1_S1600000x32_1_0_n_n_0_1_132 P (Cert.RefSpec.wrapped src))
    (broadcastInDim S1600000x32 ![] Gen.bcast_S_S1600000x32 (constant (F := Ideal) S_ .f32 0x7FC00000#32))

/-- Neighbour sums of 32-wide per-edge rows, from zero. -/
def agg32 (U : Fa S1600000x32) (dst : Ia S1600000) : Fa S100000x32 :=
  Host.scatterAdd (F := Ideal) scatter_S100000x32_S1600000x1_S1600000x32_1_0_0_1
    (broadcastInDim S100000x32 ![] Gen.bcast_S_S100000x32 (constant (F := Ideal) S_ .f32 0x00000000#32)) (Cert.RefSpec.dstCol dst) U

/-! ## The stretches, each read from the contents it starts from -/

section Stretches
variable (W : Valuation τ sig (Elt Ideal))

theorem read0_v7 : StableHlo.after hostOps0 W (Proc.devRef .tc main_v7) = recip (W (Proc.devRef .tc main_arg3)) := by
  read_stretch <;> rfl
theorem read0_v8 :
    StableHlo.after hostOps0 W (Proc.devRef .tc main_v8) = truncf (F := Ideal) .bf16 (W (Proc.devRef .tc main_arg4)) Gen.bitsLt_bf16_f32 := by
  read_stretch <;> rfl
theorem read0_v9 :
    StableHlo.after hostOps0 W (Proc.devRef .tc main_v9) = truncf (F := Ideal) .bf16 (W (Proc.devRef .tc main_arg5)) Gen.bitsLt_bf16_f32 := by
  read_stretch <;> rfl
theorem read0_v10 :
    StableHlo.after hostOps0 W (Proc.devRef .tc main_v10) = truncf (F := Ideal) .bf16 (W (Proc.devRef .tc main_arg8)) Gen.bitsLt_bf16_f32 := by
  read_stretch <;> rfl
theorem read0_v11 :
    StableHlo.after hostOps0 W (Proc.devRef .tc main_v11) = truncf (F := Ideal) .bf16 (W (Proc.devRef .tc main_arg7)) Gen.bitsLt_bf16_f32 := by
  read_stretch <;> rfl
theorem read0_v12 :
    StableHlo.after hostOps0 W (Proc.devRef .tc main_v12) = truncf (F := Ideal) .bf16 (W (Proc.devRef .tc main_arg10)) Gen.bitsLt_bf16_f32 := by
  read_stretch <;> rfl
theorem read0_v13 :
    StableHlo.after hostOps0 W (Proc.devRef .tc main_v13) = truncf (F := Ideal) .bf16 (W (Proc.devRef .tc main_arg11)) Gen.bitsLt_bf16_f32 := by
  read_stretch <;> rfl
theorem read0_v14 :
    StableHlo.after hostOps0 W (Proc.devRef .tc main_v14) = truncf (F := Ideal) .bf16 (W (Proc.devRef .tc main_arg14)) Gen.bitsLt_bf16_f32 := by
  read_stretch <;> rfl
theorem read0_v15 :
    StableHlo.after hostOps0 W (Proc.devRef .tc main_v15) = truncf (F := Ideal) .bf16 (W (Proc.devRef .tc main_arg13)) Gen.bitsLt_bf16_f32 := by
  read_stretch <;> rfl
theorem read0_v20 :
    StableHlo.after hostOps0 W (Proc.devRef .tc main_v20) = truncf (F := Ideal) .bf16 (W (Proc.devRef .tc main_arg18)) Gen.bitsLt_bf16_f32 := by
  read_stretch <;> rfl
theorem read0_v18 : StableHlo.after hostOps0 W (Proc.devRef .tc main_v18)
    = truncf (F := Ideal) .bf16 (extractStridedSlice S32x256 ![0, 0] (W (Proc.devRef .tc main_arg16)) Gen.slices_S64x256_S32x256_0_0) Gen.bitsLt_bf16_f32 := by
  read_stretch <;> rfl
theorem read0_v19 : StableHlo.after hostOps0 W (Proc.devRef .tc main_v19)
    = truncf (F := Ideal) .bf16 (extractStridedSlice S32x256 ![32, 0] (W (Proc.devRef .tc main_arg16)) Gen.slices_S64x256_S32x256_32_0) Gen.bitsLt_bf16_f32 := by
  read_stretch <;> rfl

theorem read0_1_v21 : StableHlo.after hostOps0_1 W (Proc.devRef .tc main_v21)
    = Cert.RefSpec.take128 (W (Proc.devRef .tc main_arg0)) (W (Proc.devRef .tc main_arg2)) := by
  read_stretch <;> rfl
theorem read0_2_v27 : StableHlo.after hostOps0_2 W (Proc.devRef .tc main_v27)
    = mulf (F := Ideal) (φ := .f32) (Cert.RefSpec.agg128 (W (Proc.devRef .tc main_v21)) (W (Proc.devRef .tc main_arg3))) (cols128 (W (Proc.devRef .tc main_v7))) := by
  read_stretch <;> rfl
theorem read0_2_v28 : StableHlo.after hostOps0_2 W (Proc.devRef .tc main_v28)
    = shapeCast S1x128 (W (Proc.devRef .tc main_arg6)) Gen.shapeCasts_S128_S1x128 := by
  read_stretch <;> rfl

theorem read1_v30 : StableHlo.after hostOps1 W (Proc.devRef .tc main_v30)
    = take32 (W (Proc.devRef .tc main_v29_1)) (W (Proc.devRef .tc main_arg2)) := by
  read_stretch <;> rfl
theorem read1_1_v36 : StableHlo.after hostOps1_1 W (Proc.devRef .tc main_v36)
    = mulf (F := Ideal) (φ := .f32) (agg32 (W (Proc.devRef .tc main_v30)) (W (Proc.devRef .tc main_arg3))) (cols32 (W (Proc.devRef .tc main_v7))) := by
  read_stretch <;> rfl
theorem read1_2_v37 : StableHlo.after hostOps1_2 W (Proc.devRef .tc main_v37)
    = Cert.RefSpec.take64 (W (Proc.devRef .tc main_arg1)) (W (Proc.devRef .tc main_arg2)) := by
  read_stretch <;> rfl
theorem read1_3_v43 : StableHlo.after hostOps1_3 W (Proc.devRef .tc main_v43)
    = mulf (F := Ideal) (φ := .f32) (Cert.RefSpec.agg64 (W (Proc.devRef .tc main_v37)) (W (Proc.devRef .tc main_arg3))) (cols64 (W (Proc.devRef .tc main_v7))) := by
  read_stretch <;> rfl
theorem read1_3_v44 : StableHlo.after hostOps1_3 W (Proc.devRef .tc main_v44)
    = shapeCast S1x128 (W (Proc.devRef .tc main_arg12)) Gen.shapeCasts_S128_S1x128 := by
  read_stretch <;> rfl

theorem read2_v46 : StableHlo.after hostOps2 W (Proc.devRef .tc main_v46)
    = take32 (W (Proc.devRef .tc main_v45_1)) (W (Proc.devRef .tc main_arg2)) := by
  read_stretch <;> rfl
theorem read2_1_v52 : StableHlo.after hostOps2_1 W (Proc.devRef .tc main_v52)
    = mulf (F := Ideal) (φ := .f32) (agg32 (W (Proc.devRef .tc main_v46)) (W (Proc.devRef .tc main_arg3))) (cols32 (W (Proc.devRef .tc main_v7))) := by
  read_stretch <;> rfl
theorem read2_1_v53 : StableHlo.after hostOps2_1 W (Proc.devRef .tc main_v53)
    = shapeCast S1x32 (W (Proc.devRef .tc main_arg9)) Gen.shapeCasts_S32_S1x32 := by
  read_stretch <;> rfl
theorem read2_1_v54 : StableHlo.after hostOps2_1 W (Proc.devRef .tc main_v54)
    = shapeCast S1x32 (W (Proc.devRef .tc main_arg15)) Gen.shapeCasts_S32_S1x32 := by
  read_stretch <;> rfl
theorem read2_1_v55 : StableHlo.after hostOps2_1 W (Proc.devRef .tc main_v55)
    = shapeCast S1x256 (W (Proc.devRef .tc main_arg17)) Gen.shapeCasts_S256_S1x256 := by
  read_stretch <;> rfl
theorem read2_1_v56 : StableHlo.after hostOps2_1 W (Proc.devRef .tc main_v56)
    = shapeCast S1x32 (W (Proc.devRef .tc main_arg19)) Gen.shapeCasts_S32_S1x32 := by
  read_stretch <;> rfl

end Stretches

end Cert.KerRead

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.LibColumnBroadcast.lean ====
/-
  One column broadcast over many: a reusable fact about array layouts, independent of any program.
-/
import Idealize.ShloMosaic.Lib.Pipeline.Value
import Idealize.ShloMosaic.Lib.ValueIdx

namespace LibColumnBroadcast

open Idealize.ShloMosaic Idealize.ShloMosaic.ValueIdx

/-- An `[a, 1]` array (one value per row, kept as a column) broadcast to `[a, b]` reads, at `(p, c)`, the column's value
    in row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumnBroadcast
-- ==== Proof.LibRecip.lean ====
/-
  Multiplying by a reciprocal against dividing, over the extended reals.

  A program that carries `1 / d` and multiplies agrees with one that divides by `d` as soon as `d` is not zero: off
  zero a quotient `a / d` is `a · d⁻¹`, and `1 / d` is `1 · d⁻¹ = d⁻¹`, at the infinities too (`(±∞)⁻¹ = 0`).  A
  divisor that is a maximum with one (a clamped count) is at least one, hence not zero.  No finiteness is needed.
-/
import Idealize.ShloMosaic.PureOps.Ideal

noncomputable section

namespace Cert.LibRecip

open Idealize.ShloMosaic

/-- The single-precision pattern of one denotes the number one. -/
theorem one_f32 : Ideal.ofBits .f32 0x3F800000#32 = 1 := by
  simp [Ideal.ofBits, Ideal.ieee, -EReal.coe_mul]; norm_num

/-- Multiplying by the reciprocal of a nonzero extended real is dividing by it. -/
theorem mul_recip_of_ne_zero (a d : EReal) (hne : d ≠ 0) : a * Ideal.div 1 d = Ideal.div a d := by
  rw [Ideal.div, if_neg hne, Ideal.div, if_neg hne, one_mul]

/-- Multiplying by the reciprocal of a number that is at least one is dividing by it, on every extended real. -/
theorem mul_recip (a d : EReal) (hd : 1 ≤ d) : a * Ideal.div 1 d = Ideal.div a d :=
  mul_recip_of_ne_zero a d fun h => by rw [h] at hd; exact absurd hd (by norm_num)

end Cert.LibRecip

end
-- ==== Proof.LibRowBlock.lean ====
/-
  A block of consecutive rows of an array, and the row-local operations of a dense network read through it.

  For an array with M rows, `rows o h f` is its rows o, …, o + B - 1 as an array with B rows.  Every operation
  of a dense layer acts on each row by itself, so it commutes with taking a block of rows: entrywise arithmetic
  trivially; a matrix product against a fixed right factor because entry (r, c) of x·W is ∑ k, x (r, k) · W (k, c)
  and reads row r of x only — the host's general product of the whole array and the matrix unit's product (into a
  zero accumulator) of the block are then the same sums; a bias laid along every row and a scalar spread over the
  array because they do not depend on the row at all.  A quotient by a per-row count that is at least one equals
  the product with the count's reciprocal kept as a column, at every extended real.  A product against a factor
  that is two arrays joined side by side splits into the two products with the two halves of the right factor.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«107267_j23845658427621_2_alg».proof.Proof.LibProduct
import proofs.«107267_j23845658427621_2_alg».proof.Proof.LibRowVector
import proofs.«107267_j23845658427621_2_alg».proof.Proof.LibColumnBroadcast
import proofs.«107267_j23845658427621_2_alg».proof.Proof.LibRecip

noncomputable section

namespace Cert.LibRowBlock

open Idealize.ShloMosaic Idealize.ShloMosaic.ValueIdx

variable {M B K N : ℕ}

/-- Rows o, …, o + B - 1 of an array with M rows. -/
def rows {α : Type} (o : ℕ) (h : o + B ≤ M) (f : (⟨2, ![M, N]⟩ : Shape).Idx → α) : (⟨2, ![B, N]⟩ : Shape).Idx → α :=
  fun y => f (ix2 (⟨o + (y 0).val, by have h0 : (y 0).val < B := (y 0).isLt; omega⟩ : Fin M) (y 1))

theorem rows_apply {α : Type} (o : ℕ) (h : o + B ≤ M) (f : (⟨2, ![M, N]⟩ : Shape).Idx → α) (p : Fin B) (q : Fin N) :
    rows o h f (ix2 p q) = f (ix2 (⟨o + p.val, by have := p.isLt; omega⟩ : Fin M) q) := rfl

/-- Two rank-2 arrays with equal entries are equal. -/
theorem arr_ext {α : Type} {a b : ℕ} {f g : (⟨2, ![a, b]⟩ : Shape).Idx → α}
    (h : ∀ (r : Fin a) (q : Fin b), f (ix2 r q) = g (ix2 r q)) : f = g := by
  funext i
  obtain ⟨r, q, rfl⟩ : ∃ (r : Fin a) (q : Fin b), i = ix2 r q := ⟨i 0, i 1, eq_ix2 i⟩
  exact h r q

/-! ## Entrywise arithmetic -/

theorem rows_addf {φ : FTy} (o : ℕ) (h : o + B ≤ M) (a b : FVec Ideal ⟨2, ![M, N]⟩ φ) :
    rows o h (addf a b) = addf (rows o h a) (rows o h b) := rfl

theorem rows_maximumf {φ : FTy} (o : ℕ) (h : o + B ≤ M) (a b : FVec Ideal ⟨2, ![M, N]⟩ φ) :
    rows o h (maximumf a b) = maximumf (rows o h a) (rows o h b) := rfl

/-! ## A matrix product against a fixed right factor -/

/-- The block of rows of the host's product x·W is the matrix unit's product of the block of x with W. -/
theorem rows_dotGeneral {φ₁ φ₂ : FTy} (o : ℕ) (h : o + B ≤ M)
    (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (d' : DotDims ⟨2, ![B, K]⟩ ⟨2, ![K, N]⟩ ⟨2, ![B, N]⟩)
    (k1 : d'.lhsContracting = [1]) (k2 : d'.rhsContracting = [0]) (k3 : d'.lhsNonContracting = [0])
    (k4 : d'.rhsNonContracting = [1]) (k5 : d'.lhsBatch = []) (k6 : d'.rhsBatch = [])
    (X : FVec Ideal ⟨2, ![M, K]⟩ φ₁) (W : FVec Ideal ⟨2, ![K, N]⟩ φ₂) :
    rows o h (Host.dotGeneral d none X W)
      = FloatOps.matmul d' none (rows o h X) W (constant ⟨2, ![B, N]⟩ .f32 0x00000000#32) := by
  refine arr_ext fun p q => ?_
  rw [rows_apply, LibProduct.dotGeneral_apply d h1 h2 h3 h4 h5 h6, LibProduct.matmul_zero_apply d' k1 k2 k3 k4 k5 k6]
  rfl

/-! ## A bias along every row, a scalar over the array -/

/-- The bias vector laid along every row of the whole array (the host's two broadcasts), read through a block of rows,
    is the vector cast to one row and repeated over the block (the vector unit's spelling). -/
theorem rows_bias {α : Type} (o : ℕ) (h : o + B ≤ M) (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (c1 : (⟨1, ![N]⟩ : Shape).ShapeCasts ⟨2, ![1, N]⟩) (c2 : (⟨2, ![1, N]⟩ : Shape).Broadcasts ⟨2, ![B, N]⟩) :
    rows o h (broadcastInDim ⟨2, ![M, N]⟩ ![0, 1] h2 (broadcastInDim ⟨2, ![1, N]⟩ ![1] h1 v))
      = broadcastTo ⟨2, ![B, N]⟩ (shapeCast ⟨2, ![1, N]⟩ v c1) c2 := by
  refine arr_ext fun p q => ?_
  rw [rows_apply, LibRowVector.inDimRow_apply, LibRowVector.castRow_apply]

/-- A scalar word spread over the whole array (the host's broadcast of a rank-0 constant), read through a block of
    rows, is the word spread over the block. -/
theorem rows_splat (o : ℕ) (h : o + B ≤ M) (z : BitVec FTy.f32.bits)
    (h0 : (⟨0, ![]⟩ : Shape).BroadcastsInDim ⟨2, ![M, N]⟩ ![]) :
    rows o h (broadcastInDim ⟨2, ![M, N]⟩ ![] h0 (constant (F := Ideal) ⟨0, ![]⟩ .f32 z))
      = broadcast ⟨2, ![B, N]⟩ (Scalar.ofBits (F := Ideal) .f32 z) := by
  refine arr_ext fun p q => ?_
  rw [rows_apply, LibRowVector.inDimScalar_apply, constant_apply]
  rfl

/-! ## A quotient by a per-row count against a product with its reciprocal -/

/-- A vector kept as a column, at (r, 0). -/
theorem column_apply {α : Type} (d : (⟨1, ![M]⟩ : Shape).Idx → α)
    (hc : (⟨1, ![M]⟩ : Shape).BroadcastsInDim ⟨2, ![M, 1]⟩ ![0]) (r : Fin M) (u : Fin 1) :
    broadcastInDim ⟨2, ![M, 1]⟩ ![0] hc d (ix2 r u) = d (ix1 r) :=
  broadcastInDim_apply ![0] hc d (ix2 r u) (ix1 r) (fun a => by
    match a with
    | ⟨0, _⟩ =>
      show r.val = if M = 1 then 0 else r.val
      split
      · have := r.isLt; omega
      · rfl)

/-- A column repeated along every row (the host's spelling), at (r, q). -/
theorem columnRows_apply {α : Type} (w : (⟨2, ![M, 1]⟩ : Shape).Idx → α)
    (hb : (⟨2, ![M, 1]⟩ : Shape).BroadcastsInDim ⟨2, ![M, N]⟩ ![0, 1]) (r : Fin M) (q : Fin N) :
    broadcastInDim ⟨2, ![M, N]⟩ ![0, 1] hb w (ix2 r q) = w (ix2 r (0 : Fin 1)) :=
  broadcastInDim_apply ![0, 1] hb w (ix2 r q) (ix2 r (0 : Fin 1)) (fun a => by
    match a with
    | ⟨0, _⟩ =>
      show r.val = if M = 1 then 0 else r.val
      split
      · have := r.isLt; omega
      · rfl
    | ⟨1, _⟩ => show 0 = if (1 : ℕ) = 1 then 0 else q.val; rw [if_pos rfl])

/-- THE NORMALIZATION.  Dividing every row of A by that row's count d r (the count kept as a column and repeated
    along the row) is, through a block of rows, multiplying the block of A by the block of the column of
    reciprocals one / d r — as soon as every count is at least one.  `one` is any word denoting the number one. -/
theorem rows_divide_count (o : ℕ) (h : o + B ≤ M) (A : FVec Ideal ⟨2, ![M, N]⟩ .f32)
    (d : FVec Ideal ⟨1, ![M]⟩ .f32) (hd : ∀ r : Fin M, 1 ≤ d (ix1 r))
    (ones : FVec Ideal ⟨1, ![M]⟩ .f32) (hones : ∀ r : Fin M, ones (ix1 r) = 1)
    (hc : (⟨1, ![M]⟩ : Shape).BroadcastsInDim ⟨2, ![M, 1]⟩ ![0])
    (hb : (⟨2, ![M, 1]⟩ : Shape).BroadcastsInDim ⟨2, ![M, N]⟩ ![0, 1])
    (hb' : (⟨2, ![B, 1]⟩ : Shape).Broadcasts ⟨2, ![B, N]⟩) :
    rows o h (Host.divf A (broadcastInDim ⟨2, ![M, N]⟩ ![0, 1] hb (broadcastInDim ⟨2, ![M, 1]⟩ ![0] hc d)))
      = mulf (rows o h A)
          (broadcastTo ⟨2, ![B, N]⟩ (rows o h (broadcastInDim ⟨2, ![M, 1]⟩ ![0] hc (Host.divf ones d))) hb') := by
  refine arr_ext fun p q => ?_
  rw [rows_apply, mulf_apply, LibColumnBroadcast.broadcastTo_a1_ab_apply, rows_apply, rows_apply, column_apply]
  show Ideal.div (A _) (broadcastInDim ⟨2, ![M, N]⟩ ![0, 1] hb (broadcastInDim ⟨2, ![M, 1]⟩ ![0] hc d) _) = A _ * Ideal.div (ones _) (d _)
  rw [columnRows_apply, column_apply, hones, LibRecip.mul_recip _ _ (hd _)]

end Cert.LibRowBlock

end
-- ==== Proof.Region0.lean ====
/-
  The first launch (the 128-wide branch's first layer), as whole arrays.

  The launch walks the 100000 rows in 20 blocks of 5000.  On a block it multiplies the rows' features and the rows'
  neighbour means by the two weight matrices (each product accumulated from zero), adds the products and the bias row,
  takes the maximum with zero, and writes the block of the hidden array; it multiplies that block by the next layer's
  neighbour weights and writes the block of the projected array.  Every step reads row r of its operands only, so the
  block of rows of the layer computed on the whole arrays is the layer computed on the block of rows; the 20 blocks
  tile the rows, so the two output arrays end holding the layer of the whole arrays.
-/
import proofs.«107267_j23845658427621_2_alg».proof.Proof.Gen.KernelIdeal.Frame
import proofs.«107267_j23845658427621_2_alg».proof.Proof.Gen.ReferenceIdeal
import proofs.«107267_j23845658427621_2_alg».proof.Proof.RefSpec
import proofs.«107267_j23845658427621_2_alg».proof.Proof.LibRowBlock
import Idealize.ShloMosaic.Lib.Pipeline.Value

set_option maxRecDepth 16384

noncomputable section

namespace Cert.Region0

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen Cert.LibRowBlock

variable [Cert.KernelIdeal.Facts] [Cert.ReferenceIdeal.Facts]

/-- Real-or-infinite arrays of a shape. -/
abbrev Ar (s : Shape) : Type := s.Idx → EReal

theorem hz : (![0, 0] : Fin 2 → Nat) = fun _ => 0 := funext fun a => by fin_cases a <;> rfl

/-- The rectified first layer on whole arrays, the neighbour means given: max (X·Ws + Nb·Wn + b, 0). -/
def hidden (X Nb : Ar S100000x128) (Ws Wn : Ar S128x128) (b : Ar S128) : Ar S100000x128 :=
  Cert.RefSpec.relu128 (addf (F := Ideal) (φ := .f32)
    (addf (F := Ideal) (φ := .f32)
      (Host.dotGeneral (F := Ideal) (φ₁ := .f32) (φ₂ := .f32) Cert.ReferenceIdeal.dot_S100000x128_S128x128_S100000x128_1_0_0_1_n_n none X Ws)
      (Host.dotGeneral (F := Ideal) (φ₁ := .f32) (φ₂ := .f32) Cert.ReferenceIdeal.dot_S100000x128_S128x128_S100000x128_1_0_0_1_n_n none Nb Wn))
    (Cert.RefSpec.bias128 b))

/-- The hidden array projected through the next layer's neighbour weights: H·W. -/
def projected (Hd : Ar S100000x128) (W : Ar S128x32) : Ar S100000x32 :=
  Host.dotGeneral (F := Ideal) (φ₁ := .f32) (φ₂ := .f32) Cert.ReferenceIdeal.dot_S100000x128_S128x32_S100000x32_1_0_0_1_n_n none Hd W

/-- On a block of rows the kernel's first stored value is the block of rows of the rectified layer. -/
theorem block_hidden (o : ℕ) (h : o + 5000 ≤ 100000) (X Nb : Ar S100000x128) (Ws Wn : Ar S128x128) (b : Ar S128) :
    k0_pay1 (F := Ideal) (rows o h X) (rows o h Nb) (truncf (F := Ideal) .bf16 Ws bitsLt_bf16_f32)
        (truncf (F := Ideal) .bf16 Wn bitsLt_bf16_f32) (shapeCast S1x128 b shapeCasts_S128_S1x128)
      = rows o h (hidden X Nb Ws Wn b) := by
  unfold hidden Cert.RefSpec.relu128 Cert.RefSpec.bias128
  rw [rows_maximumf, rows_addf, rows_addf,
    rows_dotGeneral o h _ rfl rfl rfl rfl rfl rfl dot_S5000x128_S128x128_S5000x128_1_0_0_1_n_n rfl rfl rfl rfl rfl rfl,
    rows_dotGeneral o h _ rfl rfl rfl rfl rfl rfl dot_S5000x128_S128x128_S5000x128_1_0_0_1_n_n rfl rfl rfl rfl rfl rfl,
    rows_bias o h b _ _ shapeCasts_S128_S1x128 broadcasts_S1x128_S5000x128, rows_splat o h]
  unfold k0_pay1
  simp only [shapeCast_self]
  rfl

/-- On a block of rows the kernel's second stored value is the block of rows of the projected hidden array. -/
theorem block_projected (o : ℕ) (h : o + 5000 ≤ 100000) (X Nb : Ar S100000x128) (Ws Wn : Ar S128x128) (b : Ar S128)
    (W2 : Ar S128x32) :
    k0_pay2 (F := Ideal) (rows o h X) (rows o h Nb) (truncf (F := Ideal) .bf16 Ws bitsLt_bf16_f32)
        (truncf (F := Ideal) .bf16 Wn bitsLt_bf16_f32) (shapeCast S1x128 b shapeCasts_S128_S1x128)
        (truncf (F := Ideal) .bf16 W2 bitsLt_bf16_f32)
      = rows o h (projected (hidden X Nb Ws Wn b) W2) := by
  unfold projected
  rw [rows_dotGeneral o h _ rfl rfl rfl rfl rfl rfl dot_S5000x128_S128x32_S5000x32_1_0_0_1_n_n rfl rfl rfl rfl rfl rfl,
    ← block_hidden o h X Nb Ws Wn b]
  unfold k0_pay2
  simp only [shapeCast_self]
  rfl

/-! ## From blocks to arrays -/

/-- The printed index maps over the 20 points: the row-blocked windows share the block row, every other coordinate
    is zero, and the block row is below 20. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0
    ∧ win0_7.index t (0 : Fin 2) = win0_6.index t (0 : Fin 2) ∧ win0_7.index t (1 : Fin 2) = 0
    ∧ win0_6.index t (0 : Fin 2) < 20 :=
  (by decide +kernel : ∀ t : Fin grid0.N, _)

/-- Every block row is some point's. -/
theorem idx_onto : ∀ q : Fin 20, ∃ t : Fin cfg0.N, win0_6.index t (0 : Fin 2) = q.val :=
  (by decide +kernel : ∀ q : Fin 20, ∃ t : Fin grid0.N, win0_6.index t (0 : Fin 2) = q.val)

variable (V : (c : Dev nD) → (b : Ref sig .tc) → Buf (Elt Ideal) ((c : Thread nD τ).loc b))

/-- The blocks the point reads: rows of the two row-blocked inputs, the four small operands whole. -/
theorem blocks (c : Dev nD) (t : Fin cfg0.N) (hle : 5000 * win0_6.index t (0 : Fin 2) + 5000 ≤ 100000) :
    iblk0 V c 0 t = rows (5000 * win0_6.index t (0 : Fin 2)) hle (V c main_arg0 : Ar S100000x128)
    ∧ iblk0 V c 1 t = rows (5000 * win0_6.index t (0 : Fin 2)) hle (V c main_v27 : Ar S100000x128)
    ∧ iblk0 V c 2 t = (V c main_v8 : Ar S128x128)
    ∧ iblk0 V c 3 t = (V c main_v9 : Ar S128x128)
    ∧ iblk0 V c 4 t = (V c main_v28 : Ar S1x128)
    ∧ iblk0 V c 5 t = (V c main_v10 : Ar S128x32) := by
  obtain ⟨e00, e01, e10, e11, e20, e21, e30, e31, e40, e41, e50, e51, e61, e70, e71, hq⟩ := idx_facts t
  refine ⟨funext fun y => ?_, funext fun y => ?_, funext fun y => ?_, funext fun y => ?_, funext fun y => ?_, funext fun y => ?_⟩
  · show V c main_arg0 (((cfg0.win 0).blk t).view.emb y) = V c main_arg0 _
    refine congrArg _ (funext fun a => Fin.ext ?_)
    match a with
    | ⟨0, _⟩ => show win0_0.index t (0 : Fin 2) * 5000 + 1 * (y 0).val = 5000 * win0_6.index t (0 : Fin 2) + (y 0).val; omega
    | ⟨1, _⟩ => show win0_0.index t (1 : Fin 2) * 128 + 1 * (y 1).val = (y 1).val; omega
  · show V c main_v27 (((cfg0.win 1).blk t).view.emb y) = V c main_v27 _
    refine congrArg _ (funext fun a => Fin.ext ?_)
    match a with
    | ⟨0, _⟩ => show win0_1.index t (0 : Fin 2) * 5000 + 1 * (y 0).val = 5000 * win0_6.index t (0 : Fin 2) + (y 0).val; omega
    | ⟨1, _⟩ => show win0_1.index t (1 : Fin 2) * 128 + 1 * (y 1).val = (y 1).val; omega
  · show V c main_v8 (((cfg0.win 2).blk t).view.emb y) = V c main_v8 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · show V c main_v9 (((cfg0.win 3).blk t).view.emb y) = V c main_v9 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · show V c main_v28 (((cfg0.win 4).blk t).view.emb y) = V c main_v28 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show V c main_v10 (((cfg0.win 5).blk t).view.emb y) = V c main_v10 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 32 + 1 * (y 1).val = (y 1).val; omega

variable (Ws Wn : Ar S128x128) (b : Ar S128) (W2 : Ar S128x32)

/-- What a point writes back into the hidden array is its block of rows of the rectified layer of the whole arrays. -/
theorem flushed_hidden (c : Dev nD) (t : Fin cfg0.N)
    (h2 : (V c main_v8 : Ar S128x128) = truncf (F := Ideal) .bf16 Ws Gen.bitsLt_bf16_f32)
    (h3 : (V c main_v9 : Ar S128x128) = truncf (F := Ideal) .bf16 Wn Gen.bitsLt_bf16_f32)
    (h4 : (V c main_v28 : Ar S1x128) = shapeCast S1x128 b Gen.shapeCasts_S128_S1x128) :
    (dat0 (F := Ideal) V c).flushed 6 t
      = ((cfg0.win 6).blk t).view.read (Elt Ideal) (hidden (V c main_arg0) (V c main_v27) Ws Wn b) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e61, e70, e71, hq⟩ := idx_facts t
  have hle : 5000 * win0_6.index t (0 : Fin 2) + 5000 ≤ 100000 := by omega
  obtain ⟨r0, r1, r2, r3, r4, r5⟩ := blocks V c t hle
  rw [r0, r1, r2, r3, r4, h2, h3, h4, block_hidden]
  refine funext fun (y : S5000x128.Idx) => ?_
  show hidden (V c main_arg0) (V c main_v27) Ws Wn b _ = hidden (V c main_arg0) (V c main_v27) Ws Wn b (((cfg0.win 6).blk t).view.emb y)
  refine congrArg _ (funext fun a => Fin.ext ?_)
  match a with
  | ⟨0, _⟩ => show 5000 * win0_6.index t (0 : Fin 2) + (y 0).val = win0_6.index t (0 : Fin 2) * 5000 + 1 * (y 0).val; omega
  | ⟨1, _⟩ => show (y 1).val = win0_6.index t (1 : Fin 2) * 128 + 1 * (y 1).val; omega

/-- What a point writes back into the projected array is its block of rows of the projected hidden array. -/
theorem flushed_projected (c : Dev nD) (t : Fin cfg0.N)
    (h2 : (V c main_v8 : Ar S128x128) = truncf (F := Ideal) .bf16 Ws Gen.bitsLt_bf16_f32)
    (h3 : (V c main_v9 : Ar S128x128) = truncf (F := Ideal) .bf16 Wn Gen.bitsLt_bf16_f32)
    (h4 : (V c main_v28 : Ar S1x128) = shapeCast S1x128 b Gen.shapeCasts_S128_S1x128)
    (h5 : (V c main_v10 : Ar S128x32) = truncf (F := Ideal) .bf16 W2 Gen.bitsLt_bf16_f32) :
    (dat0 (F := Ideal) V c).flushed 7 t
      = ((cfg0.win 7).blk t).view.read (Elt Ideal) (projected (hidden (V c main_arg0) (V c main_v27) Ws Wn b) W2) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz,
    View.ld_unit_zero (S := S128x32) hz]
  obtain ⟨e00, e01, e10, e11, e20, e21, e30, e31, e40, e41, e50, e51, e61, e70, e71, hq⟩ := idx_facts t
  have hle : 5000 * win0_6.index t (0 : Fin 2) + 5000 ≤ 100000 := by omega
  obtain ⟨r0, r1, r2, r3, r4, r5⟩ := blocks V c t hle
  rw [r0, r1, r2, r3, r4, r5, h2, h3, h4, h5, block_projected]
  refine funext fun (y : S5000x32.Idx) => ?_
  show projected (hidden (V c main_arg0) (V c main_v27) Ws Wn b) W2 _
    = projected (hidden (V c main_arg0) (V c main_v27) Ws Wn b) W2 (((cfg0.win 7).blk t).view.emb y)
  refine congrArg _ (funext fun a => Fin.ext ?_)
  match a with
  | ⟨0, _⟩ => show 5000 * win0_6.index t (0 : Fin 2) + (y 0).val = win0_7.index t (0 : Fin 2) * 5000 + 1 * (y 0).val; omega
  | ⟨1, _⟩ => show (y 1).val = win0_7.index t (1 : Fin 2) * 32 + 1 * (y 1).val; omega

/-- Every row of the hidden array is in some point's block. -/
theorem cover_hidden (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 5000, by omega⟩
  obtain ⟨e00, e01, e10, e11, e20, e21, e30, e31, e40, e41, e50, e51, e61, e70, e71, hq⟩ := idx_facts t
  have hq' : win0_6.index t (0 : Fin 2) = (i 0).val / 5000 := ht
  refine ⟨t, flush0_6 t, ?_⟩
  show i ∈ ((View.whole main_v29_0).slice (win0_6.rect t)).set
  rw [View.set_slice_whole, Rect.mem_set_unit]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- Every row of the projected array is in some point's block. -/
theorem cover_projected (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  obtain ⟨t, ht⟩ := idx_onto ⟨(i 0).val / 5000, by omega⟩
  obtain ⟨e00, e01, e10, e11, e20, e21, e30, e31, e40, e41, e50, e51, e61, e70, e71, hq⟩ := idx_facts t
  have hq' : win0_6.index t (0 : Fin 2) = (i 0).val / 5000 := ht
  refine ⟨t, flush0_7 t, ?_⟩
  show i ∈ ((View.whole main_v29_1).slice (win0_7.rect t)).set
  rw [View.set_slice_whole, Rect.mem_set_unit]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 32 ≤ (i 1).val ∧ (i 1).val < win0_7.index t (1 : Fin 2) * 32 + 32; omega

/-- THE HIDDEN ARRAY after the launch: the rectified layer of the arrays the launch was entered with. -/
theorem arr_hidden (c : Dev nD)
    (h2 : (V c main_v8 : Ar S128x128) = truncf (F := Ideal) .bf16 Ws Gen.bitsLt_bf16_f32)
    (h3 : (V c main_v9 : Ar S128x128) = truncf (F := Ideal) .bf16 Wn Gen.bitsLt_bf16_f32)
    (h4 : (V c main_v28 : Ar S1x128) = shapeCast S1x128 b Gen.shapeCasts_S128_S1x128) :
    (dat0 (F := Ideal) V c).arrAt 6 cfg0.N = hidden (V c main_arg0) (V c main_v27) Ws Wn b :=
  (dat0 (F := Ideal) V c).arrAt_eq_of_cover 6 _ (fun t _ => flushed_hidden V Ws Wn b c t h2 h3 h4) cover_hidden

/-- THE PROJECTED ARRAY after the launch: the hidden array times the next layer's neighbour weights. -/
theorem arr_projected (c : Dev nD)
    (h2 : (V c main_v8 : Ar S128x128) = truncf (F := Ideal) .bf16 Ws Gen.bitsLt_bf16_f32)
    (h3 : (V c main_v9 : Ar S128x128) = truncf (F := Ideal) .bf16 Wn Gen.bitsLt_bf16_f32)
    (h4 : (V c main_v28 : Ar S1x128) = shapeCast S1x128 b Gen.shapeCasts_S128_S1x128)
    (h5 : (V c main_v10 : Ar S128x32) = truncf (F := Ideal) .bf16 W2 Gen.bitsLt_bf16_f32) :
    (dat0 (F := Ideal) V c).arrAt 7 cfg0.N = projected (hidden (V c main_arg0) (V c main_v27) Ws Wn b) W2 :=
  (dat0 (F := Ideal) V c).arrAt_eq_of_cover 7 _ (fun t _ => flushed_projected V Ws Wn b W2 c t h2 h3 h4 h5) cover_projected

end Cert.Region0

end
-- ==== Proof.Region1.lean ====
/-
  The second launch (the 64-wide branch's first layer), as whole arrays.

  The launch walks the 100000 rows in 20 blocks of 5000.  On a block it multiplies the rows' features and the rows'
  neighbour means by the two weight matrices (each product accumulated from zero), adds the products and the bias row,
  takes the maximum with zero, and writes the block of the hidden array; it multiplies that block by the next layer's
  neighbour weights and writes the block of the projected array.  Every step reads row r of its operands only, so the
  block of rows of the layer computed on the whole arrays is the layer computed on the block of rows; the 20 blocks
  tile the rows, so the two output arrays end holding the layer of the whole arrays.
-/
import proofs.«107267_j23845658427621_2_alg».proof.Proof.Gen.KernelIdeal.Frame
import proofs.«107267_j23845658427621_2_alg».proof.Proof.Gen.ReferenceIdeal
import proofs.«107267_j23845658427621_2_alg».proof.Proof.RefSpec
import proofs.«107267_j23845658427621_2_alg».proof.Proof.LibRowBlock
import Idealize.ShloMosaic.Lib.Pipeline.Value

set_option maxRecDepth 16384

noncomputable section

namespace Cert.Region1

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen Cert.LibRowBlock

variable [Cert.KernelIdeal.Facts] [Cert.ReferenceIdeal.Facts]

/-- Real-or-infinite arrays of a shape. -/
abbrev Ar (s : Shape) : Type := s.Idx → EReal

theorem hz : (![0, 0] : Fin 2 → Nat) = fun _ => 0 := funext fun a => by fin_cases a <;> rfl

/-- The rectified first layer on whole arrays, the neighbour means given: max (X·Ws + Nb·Wn + b, 0). -/
def hidden (X Nb : Ar S100000x64) (Ws Wn : Ar S64x128) (b : Ar S128) : Ar S100000x128 :=
  Cert.RefSpec.relu128 (addf (F := Ideal) (φ := .f32)
    (addf (F := Ideal) (φ := .f32)
      (Host.dotGeneral (F := Ideal) (φ₁ := .f32) (φ₂ := .f32) Cert.ReferenceIdeal.dot_S100000x64_S64x128_S100000x128_1_0_0_1_n_n none X Ws)
      (Host.dotGeneral (F := Ideal) (φ₁ := .f32) (φ₂ := .f32) Cert.ReferenceIdeal.dot_S100000x64_S64x128_S100000x128_1_0_0_1_n_n none Nb Wn))
    (Cert.RefSpec.bias128 b))

/-- The hidden array projected through the next layer's neighbour weights: H·W. -/
def projected (Hd : Ar S100000x128) (W : Ar S128x32) : Ar S100000x32 :=
  Host.dotGeneral (F := Ideal) (φ₁ := .f32) (φ₂ := .f32) Cert.ReferenceIdeal.dot_S100000x128_S128x32_S100000x32_1_0_0_1_n_n none Hd W

/-- On a block of rows the kernel's first stored value is the block of rows of the rectified layer. -/
theorem block_hidden (o : ℕ) (h : o + 5000 ≤ 100000) (X Nb : Ar S100000x64) (Ws Wn : Ar S64x128) (b : Ar S128) :
    k1_pay1 (F := Ideal) (rows o h X) (rows o h Nb) (truncf (F := Ideal) .bf16 Ws bitsLt_bf16_f32)
        (truncf (F := Ideal) .bf16 Wn bitsLt_bf16_f32) (shapeCast S1x128 b shapeCasts_S128_S1x128)
      = rows o h (hidden X Nb Ws Wn b) := by
  unfold hidden Cert.RefSpec.relu128 Cert.RefSpec.bias128
  rw [rows_maximumf, rows_addf, rows_addf,
    rows_dotGeneral o h _ rfl rfl rfl rfl rfl rfl dot_S5000x64_S64x128_S5000x128_1_0_0_1_n_n rfl rfl rfl rfl rfl rfl,
    rows_dotGeneral o h _ rfl rfl rfl rfl rfl rfl dot_S5000x64_S64x128_S5000x128_1_0_0_1_n_n rfl rfl rfl rfl rfl rfl,
    rows_bias o h b _ _ shapeCasts_S128_S1x128 broadcasts_S1x128_S5000x128, rows_splat o h]
  unfold k1_pay1
  simp only [shapeCast_self]
  rfl

/-- On a block of rows the kernel's second stored value is the block of rows of the projected hidden array. -/
theorem block_projected (o : ℕ) (h : o + 5000 ≤ 100000) (X Nb : Ar S100000x64) (Ws Wn : Ar S64x128) (b : Ar S128)
    (W2 : Ar S128x32) :
    k1_pay2 (F := Ideal) (rows o h X) (rows o h Nb) (truncf (F := Ideal) .bf16 Ws bitsLt_bf16_f32)
        (truncf (F := Ideal) .bf16 Wn bitsLt_bf16_f32) (shapeCast S1x128 b shapeCasts_S128_S1x128)
        (truncf (F := Ideal) .bf16 W2 bitsLt_bf16_f32)
      = rows o h (projected (hidden X Nb Ws Wn b) W2) := by
  unfold projected
  rw [rows_dotGeneral o h _ rfl rfl rfl rfl rfl rfl dot_S5000x128_S128x32_S5000x32_1_0_0_1_n_n rfl rfl rfl rfl rfl rfl,
    ← block_hidden o h X Nb Ws Wn b]
  unfold k1_pay2
  simp only [shapeCast_self]
  rfl

/-! ## From blocks to arrays -/

/-- The printed index maps over the 20 points: the row-blocked windows share the block row, every other coordinate
    is zero, and the block row is below 20. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0
    ∧ win1_7.index t (0 : Fin 2) = win1_6.index t (0 : Fin 2) ∧ win1_7.index t (1 : Fin 2) = 0
    ∧ win1_6.index t (0 : Fin 2) < 20 :=
  (by decide +kernel : ∀ t : Fin grid1.N, _)

/-- Every block row is some point's. -/
theorem idx_onto : ∀ q : Fin 20, ∃ t : Fin cfg1.N, win1_6.index t (0 : Fin 2) = q.val :=
  (by decide +kernel : ∀ q : Fin 20, ∃ t : Fin grid1.N, win1_6.index t (0 : Fin 2) = q.val)

variable (V : (c : Dev nD) → (b : Ref sig .tc) → Buf (Elt Ideal) ((c : Thread nD τ).loc b))

/-- The blocks the point reads: rows of the two row-blocked inputs, the four small operands whole. -/
theorem blocks (c : Dev nD) (t : Fin cfg1.N) (hle : 5000 * win1_6.index t (0 : Fin 2) + 5000 ≤ 100000) :
    iblk1 V c 0 t = rows (5000 * win1_6.index t (0 : Fin 2)) hle (V c main_arg1 : Ar S100000x64)
    ∧ iblk1 V c 1 t = rows (5000 * win1_6.index t (0 : Fin 2)) hle (V c main_v43 : Ar S100000x64)
    ∧ iblk1 V c 2 t = (V c main_v12 : Ar S64x128)
    ∧ iblk1 V c 3 t = (V c main_v13 : Ar S64x128)
    ∧ iblk1 V c 4 t = (V c main_v44 : Ar S1x128)
    ∧ iblk1 V c 5 t = (V c main_v14 : Ar S128x32) := by
  obtain ⟨e00, e01, e10, e11, e20, e21, e30, e31, e40, e41, e50, e51, e61, e70, e71, hq⟩ := idx_facts t
  refine ⟨funext fun y => ?_, funext fun y => ?_, funext fun y => ?_, funext fun y => ?_, funext fun y => ?_, funext fun y => ?_⟩
  · show V c main_arg1 (((cfg1.win 0).blk t).view.emb y) = V c main_arg1 _
    refine congrArg _ (funext fun a => Fin.ext ?_)
    match a with
    | ⟨0, _⟩ => show win1_0.index t (0 : Fin 2) * 5000 + 1 * (y 0).val = 5000 * win1_6.index t (0 : Fin 2) + (y 0).val; omega
    | ⟨1, _⟩ => show win1_0.index t (1 : Fin 2) * 64 + 1 * (y 1).val = (y 1).val; omega
  · show V c main_v43 (((cfg1.win 1).blk t).view.emb y) = V c main_v43 _
    refine congrArg _ (funext fun a => Fin.ext ?_)
    match a with
    | ⟨0, _⟩ => show win1_1.index t (0 : Fin 2) * 5000 + 1 * (y 0).val = 5000 * win1_6.index t (0 : Fin 2) + (y 0).val; omega
    | ⟨1, _⟩ => show win1_1.index t (1 : Fin 2) * 64 + 1 * (y 1).val = (y 1).val; omega
  · show V c main_v12 (((cfg1.win 2).blk t).view.emb y) = V c main_v12 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 128 + 1 * (y 1).val = (y 1).val; omega
  · show V c main_v13 (((cfg1.win 3).blk t).view.emb y) = V c main_v13 y
    refine congrArg _ (funext fun a => Fin.ext ?_)
    match a with
    | ⟨0, _⟩ => show win1_3.index t (0 : Fin 2) * 64 + 1 * (y 0).val = (y 0).val; omega
    | ⟨1, _⟩ => show win1_3.index t (1 : Fin 2) * 128 + 1 * (y 1).val = (y 1).val; omega
  · show V c main_v44 (((cfg1.win 4).blk t).view.emb y) = V c main_v44 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show V c main_v14 (((cfg1.win 5).blk t).view.emb y) = V c main_v14 y
    refine congrArg _ (funext fun a => Fin.ext ?_)
    match a with
    | ⟨0, _⟩ => show win1_5.index t (0 : Fin 2) * 128 + 1 * (y 0).val = (y 0).val; omega
    | ⟨1, _⟩ => show win1_5.index t (1 : Fin 2) * 32 + 1 * (y 1).val = (y 1).val; omega

variable (Ws Wn : Ar S64x128) (b : Ar S128) (W2 : Ar S128x32)

/-- What a point writes back into the hidden array is its block of rows of the rectified layer of the whole arrays. -/
theorem flushed_hidden (c : Dev nD) (t : Fin cfg1.N)
    (h2 : (V c main_v12 : Ar S64x128) = truncf (F := Ideal) .bf16 Ws Gen.bitsLt_bf16_f32)
    (h3 : (V c main_v13 : Ar S64x128) = truncf (F := Ideal) .bf16 Wn Gen.bitsLt_bf16_f32)
    (h4 : (V c main_v44 : Ar S1x128) = shapeCast S1x128 b Gen.shapeCasts_S128_S1x128) :
    (dat1 (F := Ideal) V c).flushed 6 t
      = ((cfg1.win 6).blk t).view.read (Elt Ideal) (hidden (V c main_arg1) (V c main_v43) Ws Wn b) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x128) hz, View.ld_unit_zero (S := S1x128) hz]
  obtain ⟨e00, e01, e10, e11, e20, e21, e30, e31, e40, e41, e50, e51, e61, e70, e71, hq⟩ := idx_facts t
  have hle : 5000 * win1_6.index t (0 : Fin 2) + 5000 ≤ 100000 := by omega
  obtain ⟨r0, r1, r2, r3, r4, r5⟩ := blocks V c t hle
  rw [r0, r1, r2, r3, r4, h2, h3, h4, block_hidden]
  refine funext fun (y : S5000x128.Idx) => ?_
  show hidden (V c main_arg1) (V c main_v43) Ws Wn b _ = hidden (V c main_arg1) (V c main_v43) Ws Wn b (((cfg1.win 6).blk t).view.emb y)
  refine congrArg _ (funext fun a => Fin.ext ?_)
  match a with
  | ⟨0, _⟩ => show 5000 * win1_6.index t (0 : Fin 2) + (y 0).val = win1_6.index t (0 : Fin 2) * 5000 + 1 * (y 0).val; omega
  | ⟨1, _⟩ => show (y 1).val = win1_6.index t (1 : Fin 2) * 128 + 1 * (y 1).val; omega

/-- What a point writes back into the projected array is its block of rows of the projected hidden array. -/
theorem flushed_projected (c : Dev nD) (t : Fin cfg1.N)
    (h2 : (V c main_v12 : Ar S64x128) = truncf (F := Ideal) .bf16 Ws Gen.bitsLt_bf16_f32)
    (h3 : (V c main_v13 : Ar S64x128) = truncf (F := Ideal) .bf16 Wn Gen.bitsLt_bf16_f32)
    (h4 : (V c main_v44 : Ar S1x128) = shapeCast S1x128 b Gen.shapeCasts_S128_S1x128)
    (h5 : (V c main_v14 : Ar S128x32) = truncf (F := Ideal) .bf16 W2 Gen.bitsLt_bf16_f32) :
    (dat1 (F := Ideal) V c).flushed 7 t
      = ((cfg1.win 7).blk t).view.read (Elt Ideal) (projected (hidden (V c main_arg1) (V c main_v43) Ws Wn b) W2) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x128) hz, View.ld_unit_zero (S := S1x128) hz,
    View.ld_unit_zero (S := S128x32) hz]
  obtain ⟨e00, e01, e10, e11, e20, e21, e30, e31, e40, e41, e50, e51, e61, e70, e71, hq⟩ := idx_facts t
  have hle : 5000 * win1_6.index t (0 : Fin 2) + 5000 ≤ 100000 := by omega
  obtain ⟨r0, r1, r2, r3, r4, r5⟩ := blocks V c t hle
  rw [r0, r1, r2, r3, r4, r5, h2, h3, h4, h5, block_projected]
  refine funext fun (y : S5000x32.Idx) => ?_
  show projected (hidden (V c main_arg1) (V c main_v43) Ws Wn b) W2 _
    = projected (hidden (V c main_arg1) (V c main_v43) Ws Wn b) W2 (((cfg1.win 7).blk t).view.emb y)
  refine congrArg _ (funext fun a => Fin.ext ?_)
  match a with
  | ⟨0, _⟩ => show 5000 * win1_6.index t (0 : Fin 2) + (y 0).val = win1_7.index t (0 : Fin 2) * 5000 + 1 * (y 0).val; omega
  | ⟨1, _⟩ => show (y 1).val = win1_7.index t (1 : Fin 2) * 32 + 1 * (y 1).val; omega

/-- Every row of the hidden array is in some point's block. -/
theorem cover_hidden (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  obtain ⟨e00, e01, e10, e11, e20, e21, e30, e31, e40, e41, e50, e51, e61, e70, e71, hq⟩ := idx_facts t
  have hq' : win1_6.index t (0 : Fin 2) = (i 0).val / 5000 := ht
  refine ⟨t, flush1_6 t, ?_⟩
  show i ∈ ((View.whole main_v45_0).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- Every row of the projected array is in some point's block. -/
theorem cover_projected (i : S100000x32.Idx) :
    ∃ t : Fin cfg1.N, (cfg1.win 7).flush t = true ∧ i ∈ ((cfg1.win 7).blk t).view.set := by
  have hi0 : (i 0).val < 100000 := (i 0).isLt
  have hi1 : (i 1).val < 32 := (i 1).isLt
  obtain ⟨t, ht⟩ := idx_onto ⟨(i 0).val / 5000, by omega⟩
  obtain ⟨e00, e01, e10, e11, e20, e21, e30, e31, e40, e41, e50, e51, e61, e70, e71, hq⟩ := idx_facts t
  have hq' : win1_6.index t (0 : Fin 2) = (i 0).val / 5000 := ht
  refine ⟨t, flush1_7 t, ?_⟩
  show i ∈ ((View.whole main_v45_1).slice (win1_7.rect t)).set
  rw [View.set_slice_whole, Rect.mem_set_unit]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 32 ≤ (i 1).val ∧ (i 1).val < win1_7.index t (1 : Fin 2) * 32 + 32; omega

/-- THE HIDDEN ARRAY after the launch: the rectified layer of the arrays the launch was entered with. -/
theorem arr_hidden (c : Dev nD)
    (h2 : (V c main_v12 : Ar S64x128) = truncf (F := Ideal) .bf16 Ws Gen.bitsLt_bf16_f32)
    (h3 : (V c main_v13 : Ar S64x128) = truncf (F := Ideal) .bf16 Wn Gen.bitsLt_bf16_f32)
    (h4 : (V c main_v44 : Ar S1x128) = shapeCast S1x128 b Gen.shapeCasts_S128_S1x128) :
    (dat1 (F := Ideal) V c).arrAt 6 cfg1.N = hidden (V c main_arg1) (V c main_v43) Ws Wn b :=
  (dat1 (F := Ideal) V c).arrAt_eq_of_cover 6 _ (fun t _ => flushed_hidden V Ws Wn b c t h2 h3 h4) cover_hidden

/-- THE PROJECTED ARRAY after the launch: the hidden array times the next layer's neighbour weights. -/
theorem arr_projected (c : Dev nD)
    (h2 : (V c main_v12 : Ar S64x128) = truncf (F := Ideal) .bf16 Ws Gen.bitsLt_bf16_f32)
    (h3 : (V c main_v13 : Ar S64x128) = truncf (F := Ideal) .bf16 Wn Gen.bitsLt_bf16_f32)
    (h4 : (V c main_v44 : Ar S1x128) = shapeCast S1x128 b Gen.shapeCasts_S128_S1x128)
    (h5 : (V c main_v14 : Ar S128x32) = truncf (F := Ideal) .bf16 W2 Gen.bitsLt_bf16_f32) :
    (dat1 (F := Ideal) V c).arrAt 7 cfg1.N = projected (hidden (V c main_arg1) (V c main_v43) Ws Wn b) W2 :=
  (dat1 (F := Ideal) V c).arrAt_eq_of_cover 7 _ (fun t _ => flushed_projected V Ws Wn b W2 c t h2 h3 h4 h5) cover_projected

end Cert.Region1

end
-- ==== Proof.LibRowJoin.lean ====
/-
  A product against two arrays joined side by side, read through a block of rows.

  If z is the array whose row r is row r of A followed by row r of B, then entry (r, q) of z·W is
  ∑ k, A (r, k) · W (k, q) + ∑ k, B (r, k) · W (K₁ + k, q): the sum over the joined axis splits at the seam.  So the
  block of rows of the host's product z·W is the sum of the matrix unit's products of the blocks of A and of B with
  the upper and the lower rows of W.  Only associativity and commutativity of + are used, so this holds at every
  extended real.  The logistic function acts entry by entry, so it commutes with taking a block of rows.
-/
import proofs.«107267_j23845658427621_2_alg».proof.Proof.LibRowBlock

noncomputable section

namespace Cert.LibRowBlock

open Idealize.ShloMosaic Idealize.ShloMosaic.ValueIdx

variable {M B N : ℕ}

theorem rows_logistic {φ : FTy} (o : ℕ) (h : o + B ≤ M) (a : FVec Ideal ⟨2, ![M, N]⟩ φ) :
    rows o h (logistic a) = logistic (rows o h a) := rfl

theorem rows_dot_join {K K1 K2 : ℕ} (hK : K = K1 + K2) (o : ℕ) (h : o + B ≤ M)
    (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (d1 : DotDims ⟨2, ![B, K1]⟩ ⟨2, ![K1, N]⟩ ⟨2, ![B, N]⟩)
    (k1 : d1.lhsContracting = [1]) (k2 : d1.rhsContracting = [0]) (k3 : d1.lhsNonContracting = [0])
    (k4 : d1.rhsNonContracting = [1]) (k5 : d1.lhsBatch = []) (k6 : d1.rhsBatch = [])
    (d2 : DotDims ⟨2, ![B, K2]⟩ ⟨2, ![K2, N]⟩ ⟨2, ![B, N]⟩)
    (l1 : d2.lhsContracting = [1]) (l2 : d2.rhsContracting = [0]) (l3 : d2.lhsNonContracting = [0])
    (l4 : d2.rhsNonContracting = [1]) (l5 : d2.lhsBatch = []) (l6 : d2.rhsBatch = [])
    (A : FVec Ideal ⟨2, ![M, K1]⟩ .f32) (Bm : FVec Ideal ⟨2, ![M, K2]⟩ .f32) (W : FVec Ideal ⟨2, ![K, N]⟩ .f32)
    (hcat : Shape.Concatenates [(⟨2, ![M, K1]⟩ : Shape), ⟨2, ![M, K2]⟩] ⟨2, ![M, K]⟩ (1 : Fin 2))
    (hs1 : (⟨2, ![K, N]⟩ : Shape).Slices ![0, 0] ⟨2, ![K1, N]⟩) (hs2 : (⟨2, ![K, N]⟩ : Shape).Slices ![K1, 0] ⟨2, ![K2, N]⟩) :
    rows o h (Host.dotGeneral d none
        (concatenate ⟨2, ![M, K]⟩ (1 : Fin 2) [⟨⟨2, ![M, K1]⟩, A⟩, ⟨⟨2, ![M, K2]⟩, Bm⟩] hcat) W)
      = addf (FloatOps.matmul (φ₁ := .bf16) (φ₂ := .bf16) d1 none (rows o h A) (extractStridedSlice ⟨2, ![K1, N]⟩ ![0, 0] W hs1) (constant ⟨2, ![B, N]⟩ .f32 0x00000000#32))
          (FloatOps.matmul (φ₁ := .bf16) (φ₂ := .bf16) d2 none (rows o h Bm) (extractStridedSlice ⟨2, ![K2, N]⟩ ![K1, 0] W hs2) (constant ⟨2, ![B, N]⟩ .f32 0x00000000#32)) := by
  subst hK
  refine arr_ext fun p q => ?_
  rw [rows_apply, LibProduct.dotGeneral_apply d h1 h2 h3 h4 h5 h6, addf_apply,
    LibProduct.matmul_zero_apply d1 k1 k2 k3 k4 k5 k6, LibProduct.matmul_zero_apply d2 l1 l2 l3 l4 l5 l6, Fin.sum_univ_add]
  have hr : o + p.val < M := by have := p.isLt; omega
  congr 1
  · refine Finset.sum_congr rfl fun c _ => ?_
    have hl : concatenate ⟨2, ![M, K1 + K2]⟩ (1 : Fin 2) [⟨⟨2, ![M, K1]⟩, A⟩, ⟨⟨2, ![M, K2]⟩, Bm⟩] hcat (ix2 (⟨o + p.val, hr⟩ : Fin M) (Fin.castAdd K2 c))
        = A (ix2 (⟨o + p.val, hr⟩ : Fin M) c) :=
      concatenate_pair_apply_left (t := ⟨2, ![M, K1 + K2]⟩) (s₁ := ⟨2, ![M, K1]⟩) (s₂ := ⟨2, ![M, K2]⟩) (1 : Fin 2) A Bm hcat
        (ix2 (⟨o + p.val, hr⟩ : Fin M) (Fin.castAdd K2 c)) rfl (ix2 (⟨o + p.val, hr⟩ : Fin M) c) (fun b => by
          match b with
          | ⟨0, _⟩ => rfl
          | ⟨1, _⟩ => rfl)
    have hw : extractStridedSlice ⟨2, ![K1, N]⟩ ![0, 0] W hs1 (ix2 c q) = W (ix2 (Fin.castAdd K2 c) q) :=
      extractStridedSlice_apply ![0, 0] W hs1 (ix2 c q) (ix2 (Fin.castAdd K2 c) q) (fun a => by
        match a with
        | ⟨0, _⟩ => show c.val = 0 + c.val; omega
        | ⟨1, _⟩ => show q.val = 0 + q.val; omega)
    rw [hl, hw, rows_apply]
  · refine Finset.sum_congr rfl fun c _ => ?_
    have hl : concatenate ⟨2, ![M, K1 + K2]⟩ (1 : Fin 2) [⟨⟨2, ![M, K1]⟩, A⟩, ⟨⟨2, ![M, K2]⟩, Bm⟩] hcat (ix2 (⟨o + p.val, hr⟩ : Fin M) (Fin.natAdd K1 c))
        = Bm (ix2 (⟨o + p.val, hr⟩ : Fin M) c) :=
      concatenate_pair_apply_right (t := ⟨2, ![M, K1 + K2]⟩) (s₁ := ⟨2, ![M, K1]⟩) (s₂ := ⟨2, ![M, K2]⟩) (1 : Fin 2) A Bm hcat
        (ix2 (⟨o + p.val, hr⟩ : Fin M) (Fin.natAdd K1 c)) rfl rfl (ix2 (⟨o + p.val, hr⟩ : Fin M) c) (fun b => by
          match b with
          | ⟨0, _⟩ => exact fun _ => rfl
          | ⟨1, _⟩ => exact fun hne => absurd rfl hne) (by show c.val + K1 = K1 + c.val; omega)
    have hw : extractStridedSlice ⟨2, ![K2, N]⟩ ![K1, 0] W hs2 (ix2 c q) = W (ix2 (Fin.natAdd K1 c) q) :=
      extractStridedSlice_apply ![K1, 0] W hs2 (ix2 c q) (ix2 (Fin.natAdd K1 c) q) (fun a => by
        match a with
        | ⟨0, _⟩ => show K1 + c.val = K1 + c.val; rfl
        | ⟨1, _⟩ => show q.val = 0 + q.val; omega)
    rw [hl, hw, rows_apply]

end Cert.LibRowBlock

end
-- ==== Proof.Region2.lean ====
/-
  The third launch (both branches' second layers and the dense head), as whole arrays.

  The launch walks the 100000 rows in 50 blocks of 2000.  On a block, for each branch, it multiplies the rows' hidden
  features by the self weights (accumulated from zero), adds the rows' already aggregated neighbour term and the bias
  row; it multiplies the two 32-wide results by the upper and the lower 32 rows of the head's first weight matrix,
  adds the two products and the bias row, takes the maximum with zero, multiplies by the head's second weight matrix
  and adds the last bias row.  A product against two arrays joined side by side is the sum of the products with the
  two halves of the right factor, so on whole arrays this is the reference's head applied to the two second layers.
  Every step reads row r of its operands only, and the 50 blocks tile the rows.
-/
import proofs.«107267_j23845658427621_2_alg».proof.Proof.Gen.KernelIdeal.Frame
import proofs.«107267_j23845658427621_2_alg».proof.Proof.Gen.ReferenceIdeal
import proofs.«107267_j23845658427621_2_alg».proof.Proof.RefSpec
import proofs.«107267_j23845658427621_2_alg».proof.Proof.LibRowBlock
import proofs.«107267_j23845658427621_2_alg».proof.Proof.LibRowJoin
import Idealize.ShloMosaic.Lib.Pipeline.Value

set_option maxRecDepth 16384

noncomputable section

namespace Cert.Region2

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen Cert.LibRowBlock

variable [Cert.KernelIdeal.Facts] [Cert.ReferenceIdeal.Facts]

/-- Real-or-infinite arrays of a shape. -/
abbrev Ar (s : Shape) : Type := s.Idx → EReal

theorem hz : (![0, 0] : Fin 2 → Nat) = fun _ => 0 := funext fun a => by fin_cases a <;> rfl

/-- A branch's second layer on whole arrays, the aggregated neighbour term given: H·Ws + P + b. -/
def second (Hd : Ar S100000x128) (Pn : Ar S100000x32) (Ws : Ar S128x32) (b : Ar S32) : Ar S100000x32 :=
  addf (F := Ideal) (φ := .f32)
    (addf (F := Ideal) (φ := .f32)
      (Host.dotGeneral (F := Ideal) (φ₁ := .f32) (φ₂ := .f32) Cert.ReferenceIdeal.dot_S100000x128_S128x32_S100000x32_1_0_0_1_n_n none Hd Ws)
      Pn)
    (Cert.RefSpec.bias32 b)

/-- The whole launch on whole arrays: the reference's head of the two second layers. -/
def result (Ho : Ar S100000x128) (Po : Ar S100000x32) (Hs : Ar S100000x128) (Ps : Ar S100000x32)
    (W2o : Ar S128x32) (b2o : Ar S32) (W2s : Ar S128x32) (b2s : Ar S32)
    (Wm1 : Ar S64x256) (bm1 : Ar S256) (Wm2 : Ar S256x32) (bm2 : Ar S32) : Ar S100000x32 :=
  Cert.RefSpec.head (second Ho Po W2o b2o) (second Hs Ps W2s b2s) Wm1 bm1 Wm2 bm2

/-- On a block of rows the kernel's stored value is the block of rows of the whole-array result. -/
theorem block_result (o : ℕ) (h : o + 2000 ≤ 100000)
    (Ho : Ar S100000x128) (Po : Ar S100000x32) (Hs : Ar S100000x128) (Ps : Ar S100000x32)
    (W2o : Ar S128x32) (b2o : Ar S32) (W2s : Ar S128x32) (b2s : Ar S32)
    (Wm1 : Ar S64x256) (bm1 : Ar S256) (Wm2 : Ar S256x32) (bm2 : Ar S32) :
    k2_pay1 (F := Ideal)
        (k2_pay2 (F := Ideal) (rows o h Ho) (rows o h Hs) (truncf (F := Ideal) .bf16 W2o Gen.bitsLt_bf16_f32) (rows o h Po)
          (shapeCast S1x32 b2o Gen.shapeCasts_S32_S1x32) (truncf (F := Ideal) .bf16 W2s Gen.bitsLt_bf16_f32) (rows o h Ps)
          (shapeCast S1x32 b2s Gen.shapeCasts_S32_S1x32)
          (truncf (F := Ideal) .bf16 (extractStridedSlice S32x256 ![0, 0] Wm1 Gen.slices_S64x256_S32x256_0_0) Gen.bitsLt_bf16_f32)
          (truncf (F := Ideal) .bf16 (extractStridedSlice S32x256 ![32, 0] Wm1 Gen.slices_S64x256_S32x256_32_0) Gen.bitsLt_bf16_f32))
        (shapeCast S1x256 bm1 Gen.shapeCasts_S256_S1x256) (truncf (F := Ideal) .bf16 Wm2 Gen.bitsLt_bf16_f32)
        (shapeCast S1x32 bm2 Gen.shapeCasts_S32_S1x32)
      = rows o h (result Ho Po Hs Ps W2o b2o W2s b2s Wm1 bm1 Wm2 bm2) := by
  unfold result Cert.RefSpec.head second Cert.RefSpec.relu256 Cert.RefSpec.bias256 Cert.RefSpec.bias32
  rw [rows_addf,
    rows_dotGeneral o h _ rfl rfl rfl rfl rfl rfl dot_S2000x256_S256x32_S2000x32_1_0_0_1_n_n rfl rfl rfl rfl rfl rfl,
    rows_maximumf, rows_addf,
    rows_dot_join (K := 64) (K1 := 32) (K2 := 32) rfl o h _ rfl rfl rfl rfl rfl rfl
      dot_S2000x32_S32x256_S2000x256_1_0_0_1_n_n rfl rfl rfl rfl rfl rfl
      dot_S2000x32_S32x256_S2000x256_1_0_0_1_n_n rfl rfl rfl rfl rfl rfl _ _ _ _
      Gen.slices_S64x256_S32x256_0_0 Gen.slices_S64x256_S32x256_32_0,
    rows_addf, rows_addf, rows_addf, rows_addf,
    rows_dotGeneral o h _ rfl rfl rfl rfl rfl rfl dot_S2000x128_S128x32_S2000x32_1_0_0_1_n_n rfl rfl rfl rfl rfl rfl,
    rows_dotGeneral o h _ rfl rfl rfl rfl rfl rfl dot_S2000x128_S128x32_S2000x32_1_0_0_1_n_n rfl rfl rfl rfl rfl rfl,
    rows_bias o h b2o _ _ Gen.shapeCasts_S32_S1x32 Gen.broadcasts_S1x32_S2000x32,
    rows_bias o h b2s _ _ Gen.shapeCasts_S32_S1x32 Gen.broadcasts_S1x32_S2000x32,
    rows_bias o h bm1 _ _ Gen.shapeCasts_S256_S1x256 Gen.broadcasts_S1x256_S2000x256,
    rows_bias o h bm2 _ _ Gen.shapeCasts_S32_S1x32 Gen.broadcasts_S1x32_S2000x32, rows_splat o h]
  unfold k2_pay1 k2_pay2
  simp only [shapeCast_self]
  rfl

/-! ## From blocks to the array -/

/-- The printed index maps over the 50 points: the row-blocked windows share the block row, every other coordinate
    is zero, and the block row is below 50. -/
theorem idx_facts : ∀ t : Fin cfg2.N,
    win2_0.index t (0 : Fin 2) = win2_13.index t (0 : Fin 2)
    ∧ win2_0.index t (1 : Fin 2) = 0
    ∧ win2_1.index t (0 : Fin 2) = win2_13.index t (0 : Fin 2)
    ∧ win2_1.index t (1 : Fin 2) = 0
    ∧ win2_2.index t (0 : Fin 2) = win2_13.index t (0 : Fin 2)
    ∧ win2_2.index t (1 : Fin 2) = 0
    ∧ win2_3.index t (0 : Fin 2) = win2_13.index t (0 : Fin 2)
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (1 : Fin 2) = 0
    ∧ win2_13.index t (0 : Fin 2) < 50 :=
  (by decide +kernel : ∀ t : Fin grid2.N, _)

/-- Every block row is some point's. -/
theorem idx_onto : ∀ q : Fin 50, ∃ t : Fin cfg2.N, win2_13.index t (0 : Fin 2) = q.val :=
  (by decide +kernel : ∀ q : Fin 50, ∃ t : Fin grid2.N, win2_13.index t (0 : Fin 2) = q.val)

variable (V : (c : Dev nD) → (b : Ref sig .tc) → Buf (Elt Ideal) ((c : Thread nD τ).loc b))

/-- The blocks the point reads: rows of the four row-blocked inputs, the nine small operands whole. -/
theorem blocks (c : Dev nD) (t : Fin cfg2.N) (hle : 2000 * win2_13.index t (0 : Fin 2) + 2000 ≤ 100000) :
    iblk2 V c 0 t = rows (2000 * win2_13.index t (0 : Fin 2)) hle (V c main_v29_0 : Ar S100000x128)
    ∧ iblk2 V c 1 t = rows (2000 * win2_13.index t (0 : Fin 2)) hle (V c main_v36 : Ar S100000x32)
    ∧ iblk2 V c 2 t = rows (2000 * win2_13.index t (0 : Fin 2)) hle (V c main_v45_0 : Ar S100000x128)
    ∧ iblk2 V c 3 t = rows (2000 * win2_13.index t (0 : Fin 2)) hle (V c main_v52 : Ar S100000x32)
    ∧ iblk2 V c 4 t = (V c main_v11 : Ar S128x32)
    ∧ iblk2 V c 5 t = (V c main_v53 : Ar S1x32)
    ∧ iblk2 V c 6 t = (V c main_v15 : Ar S128x32)
    ∧ iblk2 V c 7 t = (V c main_v54 : Ar S1x32)
    ∧ iblk2 V c 8 t = (V c main_v18 : Ar S32x256)
    ∧ iblk2 V c 9 t = (V c main_v19 : Ar S32x256)
    ∧ iblk2 V c 10 t = (V c main_v55 : Ar S1x256)
    ∧ iblk2 V c 11 t = (V c main_v20 : Ar S256x32)
    ∧ iblk2 V c 12 t = (V c main_v56 : Ar S1x32) := by
  obtain ⟨e0a, e0b, e1a, e1b, e2a, e2b, e3a, e3b, e4a, e4b, e5a, e5b, e6a, e6b, e7a, e7b, e8a, e8b, e9a, e9b, e10a, e10b, e11a, e11b, e12a, e12b, e13b, hq⟩ := idx_facts t
  refine ⟨funext fun y => ?_, funext fun y => ?_, funext fun y => ?_, funext fun y => ?_, funext fun y => ?_, funext fun y => ?_, funext fun y => ?_, funext fun y => ?_, funext fun y => ?_, funext fun y => ?_, funext fun y => ?_, funext fun y => ?_, funext fun y => ?_⟩
  · show V c main_v29_0 (((cfg2.win 0).blk t).view.emb y) = V c main_v29_0 _
    refine congrArg _ (funext fun a => Fin.ext ?_)
    match a with
    | ⟨0, _⟩ => show win2_0.index t (0 : Fin 2) * 2000 + 1 * (y 0).val = 2000 * win2_13.index t (0 : Fin 2) + (y 0).val; omega
    | ⟨1, _⟩ => show win2_0.index t (1 : Fin 2) * 128 + 1 * (y 1).val = (y 1).val; omega
  · show V c main_v36 (((cfg2.win 1).blk t).view.emb y) = V c main_v36 _
    refine congrArg _ (funext fun a => Fin.ext ?_)
    match a with
    | ⟨0, _⟩ => show win2_1.index t (0 : Fin 2) * 2000 + 1 * (y 0).val = 2000 * win2_13.index t (0 : Fin 2) + (y 0).val; omega
    | ⟨1, _⟩ => show win2_1.index t (1 : Fin 2) * 32 + 1 * (y 1).val = (y 1).val; omega
  · show V c main_v45_0 (((cfg2.win 2).blk t).view.emb y) = V c main_v45_0 _
    refine congrArg _ (funext fun a => Fin.ext ?_)
    match a with
    | ⟨0, _⟩ => show win2_2.index t (0 : Fin 2) * 2000 + 1 * (y 0).val = 2000 * win2_13.index t (0 : Fin 2) + (y 0).val; omega
    | ⟨1, _⟩ => show win2_2.index t (1 : Fin 2) * 128 + 1 * (y 1).val = (y 1).val; omega
  · show V c main_v52 (((cfg2.win 3).blk t).view.emb y) = V c main_v52 _
    refine congrArg _ (funext fun a => Fin.ext ?_)
    match a with
    | ⟨0, _⟩ => show win2_3.index t (0 : Fin 2) * 2000 + 1 * (y 0).val = 2000 * win2_13.index t (0 : Fin 2) + (y 0).val; omega
    | ⟨1, _⟩ => show win2_3.index t (1 : Fin 2) * 32 + 1 * (y 1).val = (y 1).val; omega
  · show V c main_v11 (((cfg2.win 4).blk t).view.emb y) = V c main_v11 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 32 + 1 * (y 1).val = (y 1).val; omega
  · show V c main_v53 (((cfg2.win 5).blk t).view.emb y) = V c main_v53 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 32 + 1 * (y 1).val = (y 1).val; omega
  · show V c main_v15 (((cfg2.win 6).blk t).view.emb y) = V c main_v15 y
    refine congrArg _ (funext fun a => Fin.ext ?_)
    match a with
    | ⟨0, _⟩ => show win2_6.index t (0 : Fin 2) * 128 + 1 * (y 0).val = (y 0).val; omega
    | ⟨1, _⟩ => show win2_6.index t (1 : Fin 2) * 32 + 1 * (y 1).val = (y 1).val; omega
  · show V c main_v54 (((cfg2.win 7).blk t).view.emb y) = V c main_v54 y
    refine congrArg _ (funext fun a => Fin.ext ?_)
    match a with
    | ⟨0, _⟩ => show win2_7.index t (0 : Fin 2) * 1 + 1 * (y 0).val = (y 0).val; omega
    | ⟨1, _⟩ => show win2_7.index t (1 : Fin 2) * 32 + 1 * (y 1).val = (y 1).val; omega
  · show V c main_v18 (((cfg2.win 8).blk t).view.emb y) = V c main_v18 y
    refine congrArg _ (funext fun a => Fin.ext ?_)
    match a with
    | ⟨0, _⟩ => show win2_8.index t (0 : Fin 2) * 32 + 1 * (y 0).val = (y 0).val; omega
    | ⟨1, _⟩ => show win2_8.index t (1 : Fin 2) * 256 + 1 * (y 1).val = (y 1).val; omega
  · show V c main_v19 (((cfg2.win 9).blk t).view.emb y) = V c main_v19 y
    refine congrArg _ (funext fun a => Fin.ext ?_)
    match a with
    | ⟨0, _⟩ => show win2_9.index t (0 : Fin 2) * 32 + 1 * (y 0).val = (y 0).val; omega
    | ⟨1, _⟩ => show win2_9.index t (1 : Fin 2) * 256 + 1 * (y 1).val = (y 1).val; omega
  · show V c main_v55 (((cfg2.win 10).blk t).view.emb y) = V c main_v55 y
    refine congrArg _ (funext fun a => Fin.ext ?_)
    match a with
    | ⟨0, _⟩ => show win2_10.index t (0 : Fin 2) * 1 + 1 * (y 0).val = (y 0).val; omega
    | ⟨1, _⟩ => show win2_10.index t (1 : Fin 2) * 256 + 1 * (y 1).val = (y 1).val; omega
  · show V c main_v20 (((cfg2.win 11).blk t).view.emb y) = V c main_v20 y
    refine congrArg _ (funext fun a => Fin.ext ?_)
    match a with
    | ⟨0, _⟩ => show win2_11.index t (0 : Fin 2) * 256 + 1 * (y 0).val = (y 0).val; omega
    | ⟨1, _⟩ => show win2_11.index t (1 : Fin 2) * 32 + 1 * (y 1).val = (y 1).val; omega
  · show V c main_v56 (((cfg2.win 12).blk t).view.emb y) = V c main_v56 y
    refine congrArg _ (funext fun a => Fin.ext ?_)
    match a with
    | ⟨0, _⟩ => show win2_12.index t (0 : Fin 2) * 1 + 1 * (y 0).val = (y 0).val; omega
    | ⟨1, _⟩ => show win2_12.index t (1 : Fin 2) * 32 + 1 * (y 1).val = (y 1).val; omega

variable (W2o : Ar S128x32) (b2o : Ar S32) (W2s : Ar S128x32) (b2s : Ar S32)
  (Wm1 : Ar S64x256) (bm1 : Ar S256) (Wm2 : Ar S256x32) (bm2 : Ar S32)

/-- What a point writes back is its block of rows of the whole-array result. -/
theorem flushed_result (c : Dev nD) (t : Fin cfg2.N)
    (h4 : (V c main_v11 : Ar S128x32) = truncf (F := Ideal) .bf16 W2o Gen.bitsLt_bf16_f32)
    (h5 : (V c main_v53 : Ar S1x32) = shapeCast S1x32 b2o Gen.shapeCasts_S32_S1x32)
    (h6 : (V c main_v15 : Ar S128x32) = truncf (F := Ideal) .bf16 W2s Gen.bitsLt_bf16_f32)
    (h7 : (V c main_v54 : Ar S1x32) = shapeCast S1x32 b2s Gen.shapeCasts_S32_S1x32)
    (h8 : (V c main_v18 : Ar S32x256) = truncf (F := Ideal) .bf16 (extractStridedSlice S32x256 ![0, 0] Wm1 Gen.slices_S64x256_S32x256_0_0) Gen.bitsLt_bf16_f32)
    (h9 : (V c main_v19 : Ar S32x256) = truncf (F := Ideal) .bf16 (extractStridedSlice S32x256 ![32, 0] Wm1 Gen.slices_S64x256_S32x256_32_0) Gen.bitsLt_bf16_f32)
    (h10 : (V c main_v55 : Ar S1x256) = shapeCast S1x256 bm1 Gen.shapeCasts_S256_S1x256)
    (h11 : (V c main_v20 : Ar S256x32) = truncf (F := Ideal) .bf16 Wm2 Gen.bitsLt_bf16_f32)
    (h12 : (V c main_v56 : Ar S1x32) = shapeCast S1x32 bm2 Gen.shapeCasts_S32_S1x32) :
    (dat2 (F := Ideal) V c).flushed 13 t = ((cfg2.win 13).blk t).view.read (Elt Ideal) (result (V c main_v29_0) (V c main_v36) (V c main_v45_0) (V c main_v52) W2o b2o W2s b2s Wm1 bm1 Wm2 bm2) := by
  show (cfg2.win 13).cut (grid2.coords t) ((dat2 V c).after 13 t) = _
  rw [after2_13]
  unfold out2_13
  rw [View.canon_unit_zero hz]
  simp only [View.ld_unit_zero (S := S2000x128) hz, View.ld_unit_zero (S := S128x32) hz, View.ld_unit_zero (S := S2000x32) hz,
    View.ld_unit_zero (S := S1x32) hz, View.ld_unit_zero (S := S32x256) hz, View.ld_unit_zero (S := S1x256) hz,
    View.ld_unit_zero (S := S256x32) hz]
  obtain ⟨e0a, e0b, e1a, e1b, e2a, e2b, e3a, e3b, e4a, e4b, e5a, e5b, e6a, e6b, e7a, e7b, e8a, e8b, e9a, e9b, e10a, e10b, e11a, e11b, e12a, e12b, e13b, hq⟩ := idx_facts t
  have hle : 2000 * win2_13.index t (0 : Fin 2) + 2000 ≤ 100000 := by omega
  obtain ⟨r0, r1, r2, r3, r4, r5, r6, r7, r8, r9, r10, r11, r12⟩ := blocks V c t hle
  rw [r0, r1, r2, r3, r4, r5, r6, r7, r8, r9, r10, r11, r12, h4, h5, h6, h7, h8, h9, h10, h11, h12, block_result]
  refine funext fun (y : S2000x32.Idx) => ?_
  show result (V c main_v29_0) (V c main_v36) (V c main_v45_0) (V c main_v52) W2o b2o W2s b2s Wm1 bm1 Wm2 bm2 _ = result (V c main_v29_0) (V c main_v36) (V c main_v45_0) (V c main_v52) W2o b2o W2s b2s Wm1 bm1 Wm2 bm2 (((cfg2.win 13).blk t).view.emb y)
  refine congrArg _ (funext fun a => Fin.ext ?_)
  match a with
  | ⟨0, _⟩ => show 2000 * win2_13.index t (0 : Fin 2) + (y 0).val = win2_13.index t (0 : Fin 2) * 2000 + 1 * (y 0).val; omega
  | ⟨1, _⟩ => show (y 1).val = win2_13.index t (1 : Fin 2) * 32 + 1 * (y 1).val; omega

/-- Every row of the result array is in some point's block. -/
theorem cover_result (i : S100000x32.Idx) :
    ∃ t : Fin cfg2.N, (cfg2.win 13).flush t = true ∧ i ∈ ((cfg2.win 13).blk t).view.set := by
  have hi0 : (i 0).val < 100000 := (i 0).isLt
  have hi1 : (i 1).val < 32 := (i 1).isLt
  obtain ⟨t, ht⟩ := idx_onto ⟨(i 0).val / 2000, by omega⟩
  obtain ⟨e0a, e0b, e1a, e1b, e2a, e2b, e3a, e3b, e4a, e4b, e5a, e5b, e6a, e6b, e7a, e7b, e8a, e8b, e9a, e9b, e10a, e10b, e11a, e11b, e12a, e12b, e13b, hq⟩ := idx_facts t
  have hq' : win2_13.index t (0 : Fin 2) = (i 0).val / 2000 := ht
  refine ⟨t, flush2_13 t, ?_⟩
  show i ∈ ((View.whole main_v57).slice (win2_13.rect t)).set
  rw [View.set_slice_whole, Rect.mem_set_unit]
  intro a
  match a with
  | ⟨0, _⟩ => show win2_13.index t (0 : Fin 2) * 2000 ≤ (i 0).val ∧ (i 0).val < win2_13.index t (0 : Fin 2) * 2000 + 2000; omega
  | ⟨1, _⟩ => show win2_13.index t (1 : Fin 2) * 32 ≤ (i 1).val ∧ (i 1).val < win2_13.index t (1 : Fin 2) * 32 + 32; omega

/-- THE RESULT ARRAY after the launch: the head of the two second layers of the arrays the launch was entered with. -/
theorem arr_result (c : Dev nD)
    (h4 : (V c main_v11 : Ar S128x32) = truncf (F := Ideal) .bf16 W2o Gen.bitsLt_bf16_f32)
    (h5 : (V c main_v53 : Ar S1x32) = shapeCast S1x32 b2o Gen.shapeCasts_S32_S1x32)
    (h6 : (V c main_v15 : Ar S128x32) = truncf (F := Ideal) .bf16 W2s Gen.bitsLt_bf16_f32)
    (h7 : (V c main_v54 : Ar S1x32) = shapeCast S1x32 b2s Gen.shapeCasts_S32_S1x32)
    (h8 : (V c main_v18 : Ar S32x256) = truncf (F := Ideal) .bf16 (extractStridedSlice S32x256 ![0, 0] Wm1 Gen.slices_S64x256_S32x256_0_0) Gen.bitsLt_bf16_f32)
    (h9 : (V c main_v19 : Ar S32x256) = truncf (F := Ideal) .bf16 (extractStridedSlice S32x256 ![32, 0] Wm1 Gen.slices_S64x256_S32x256_32_0) Gen.bitsLt_bf16_f32)
    (h10 : (V c main_v55 : Ar S1x256) = shapeCast S1x256 bm1 Gen.shapeCasts_S256_S1x256)
    (h11 : (V c main_v20 : Ar S256x32) = truncf (F := Ideal) .bf16 Wm2 Gen.bitsLt_bf16_f32)
    (h12 : (V c main_v56 : Ar S1x32) = shapeCast S1x32 bm2 Gen.shapeCasts_S32_S1x32) :
    (dat2 (F := Ideal) V c).arrAt 13 cfg2.N = result (V c main_v29_0) (V c main_v36) (V c main_v45_0) (V c main_v52) W2o b2o W2s b2s Wm1 bm1 Wm2 bm2 :=
  (dat2 (F := Ideal) V c).arrAt_eq_of_cover 13 _
    (fun t _ => flushed_result V W2o b2o W2s b2s Wm1 bm1 Wm2 bm2 c t h4 h5 h6 h7 h8 h9 h10 h11 h12) cover_result

end Cert.Region2

end
-- ==== Proof.PreFacts.lean ====
/-
  The precondition read back at the extended reals. The predicate is a conjunction, by `and` on one-bit words, of one
  reduction by `and` over all axes per argument array: for each of the eighteen float arrays, |x| < +inf at every index,
  and for the source index vector, -100000 ≤ src < 100000 at every index, compared signed. A one-bit `and` is 1 exactly
  when both operands are 1; a reduction by `and` over every axis is 1 only if every element is 1; an extended real whose
  absolute value max x (-x) lies strictly below +inf is neither infinity, hence a real number; and the signed comparisons
  say that the two's-complement reading of the word lies in the stated interval (the word 4294867296 reads -100000).
  The last part: a word v with -100000 ≤ v < 100000 (signed), moved up by 100000 when negative, lands in [0, 99999],
  with no wrap-around in 32 bits, and reads v mod 100000.
-/
import proofs.«107267_j23845658427621_2_alg».proof.Pre_finite_inputs
import proofs.«107267_j23845658427621_2_alg».proof.Proof.Gen.Pre_finite_inputs
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_finite_inputs

/-- An extended real that is a real number. -/
def IsReal (x : EReal) : Prop := ∃ r : ℝ, x = (r : EReal)

/-- The scalar shape has one index. -/
instance : Subsingleton S_.Idx := ⟨fun a b => funext fun d => d.elim0⟩

/-- The pattern 0x7F800000 (exponent all ones, fraction zero, sign clear) denotes +inf. -/
theorem ofBits_inf : Ideal.ofBits .f32 0x7F800000#32 = (⊤ : EReal) := by
  simp [Ideal.ofBits, Ideal.ieee]

/-- |x| < +inf leaves only the real numbers: at either infinity max x (-x) is +inf. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One float array: if the reduction by `and` of the bits of |x| < +inf over all axes is 1, every entry is a real number. -/
theorem real_of_all {s : Shape} {axes : List (Fin s.rank)} (x : FVec Ideal s .f32)
    (bc : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] bc (constant S_ .f32 0x7F800000#32)))
          init hr hu ix0 = 1#1)
    (i : s.Idx) : IsReal (x i) := by
  have h1 := Host.reduce_andi_all _ init hr hu ix0 e i
  have h2 : Ideal.cmp .olt (max (x i) (-(x i))) (Ideal.ofBits .f32 0x7F800000#32) = 1#1 := h1
  rw [ofBits_inf] at h2
  exact isReal_of_abs_lt_top (x i) h2

/-- A one-bit `and` of two scalars that is 1 has both operands 1. -/
theorem split {a b : IVec S_ 1} (e : andi a b ix0 = 1#1) : a ix0 = 1#1 ∧ b ix0 = 1#1 :=
  IntOp.andi_eq_one.1 e

/-- The word 4294867296 read signed is -100000. -/
theorem toInt_lo : (4294867296#32 : BitVec 32).toInt = -100000 := by decide

theorem toInt_hi : (100000#32 : BitVec 32).toInt = 100000 := by decide

/-- What the precondition says of the twenty argument arrays. -/
structure Decoded (x0 : FVec Ideal S100000x128 .f32) (x1 : FVec Ideal S100000x64 .f32) (x2 : IVec S1600000 32) (x3 : IVec S1600000 32)
    (x4 : FVec Ideal S128x128 .f32) (x5 : FVec Ideal S128x128 .f32) (x6 : FVec Ideal S128 .f32) (x7 : FVec Ideal S128x32 .f32)
    (x8 : FVec Ideal S128x32 .f32) (x9 : FVec Ideal S32 .f32) (x10 : FVec Ideal S64x128 .f32) (x11 : FVec Ideal S64x128 .f32)
    (x12 : FVec Ideal S128 .f32) (x13 : FVec Ideal S128x32 .f32) (x14 : FVec Ideal S128x32 .f32) (x15 : FVec Ideal S32 .f32)
    (x16 : FVec Ideal S64x256 .f32) (x17 : FVec Ideal S256 .f32) (x18 : FVec Ideal S256x32 .f32) (x19 : FVec Ideal S32 .f32) : Prop where
  real0 : ∀ i, IsReal (x0 i)
  real1 : ∀ i, IsReal (x1 i)
  real4 : ∀ i, IsReal (x4 i)
  real5 : ∀ i, IsReal (x5 i)
  real6 : ∀ i, IsReal (x6 i)
  real7 : ∀ i, IsReal (x7 i)
  real8 : ∀ i, IsReal (x8 i)
  real9 : ∀ i, IsReal (x9 i)
  real10 : ∀ i, IsReal (x10 i)
  real11 : ∀ i, IsReal (x11 i)
  real12 : ∀ i, IsReal (x12 i)
  real13 : ∀ i, IsReal (x13 i)
  real14 : ∀ i, IsReal (x14 i)
  real15 : ∀ i, IsReal (x15 i)
  real16 : ∀ i, IsReal (x16 i)
  real17 : ∀ i, IsReal (x17 i)
  real18 : ∀ i, IsReal (x18 i)
  real19 : ∀ i, IsReal (x19 i)
  src_range : ∀ i, (-100000 : Int) ≤ (x2 i).toInt ∧ (x2 i).toInt < 100000

/-- The source words' range, from the reduction by `and` of the two signed comparisons. -/
theorem range_of_all (x2 : IVec S1600000 32) (bc : S_.BroadcastsInDim S1600000 (![] : Fin 0 → Fin S1600000.rank))
    (hr : S1600000.ReducesTo [0] S_) (hu : 0 < S_.numel) (init : IVec S_ 1)
    (e : Host.reduce IntOp.andi
          (andi (cmpi .sge x2 (broadcastInDim S1600000 ![] bc (constantI S_ 32 4294867296#32)))
                (cmpi .slt x2 (broadcastInDim S1600000 ![] bc (constantI S_ 32 100000#32))))
          init hr hu ix0 = 1#1)
    (i : S1600000.Idx) : (-100000 : Int) ≤ (x2 i).toInt ∧ (x2 i).toInt < 100000 := by
  have h1 := Host.reduce_andi_all _ init hr hu ix0 e i
  have h2 : IntOp.andi (IntOp.cmpi .sge (x2 i) 4294867296#32) (IntOp.cmpi .slt (x2 i) 100000#32) = 1#1 := h1
  obtain ⟨hge, hlt⟩ := IntOp.andi_eq_one.1 h2
  have hge' := IntOp.cmpi_sge.1 hge
  have hlt' := IntOp.cmpi_slt.1 hlt
  rw [toInt_lo] at hge'
  rw [toInt_hi] at hlt'
  exact ⟨hge', hlt'⟩

theorem of_pre [Cert.Pre_finite_inputs.Facts] (x0 : FVec Ideal S100000x128 .f32) (x1 : FVec Ideal S100000x64 .f32) (x2 : IVec S1600000 32) (x3 : IVec S1600000 32)
    (x4 : FVec Ideal S128x128 .f32) (x5 : FVec Ideal S128x128 .f32) (x6 : FVec Ideal S128 .f32) (x7 : FVec Ideal S128x32 .f32)
    (x8 : FVec Ideal S128x32 .f32) (x9 : FVec Ideal S32 .f32) (x10 : FVec Ideal S64x128 .f32) (x11 : FVec Ideal S64x128 .f32)
    (x12 : FVec Ideal S128 .f32) (x13 : FVec Ideal S128x32 .f32) (x14 : FVec Ideal S128x32 .f32) (x15 : FVec Ideal S32 .f32)
    (x16 : FVec Ideal S64x256 .f32) (x17 : FVec Ideal S256 .f32) (x18 : FVec Ideal S256x32 .f32) (x19 : FVec Ideal S32 .f32)
    (h : Cert.Pre_finite_inputs.fn (F := Ideal) x0 x1 x2 x3 x4 x5 x6 x7 x8 x9 x10 x11 x12 x13 x14 x15 x16 x17 x18 x19 = fun _ => 1#1) :
    Decoded x0 x1 x2 x3 x4 x5 x6 x7 x8 x9 x10 x11 x12 x13 x14 x15 x16 x17 x18 x19 := by
  have e := congrFun h ix0
  dsimp only [fn, fn_part1, fn_part2, fn_part3, fn_part4, fn_part5] at e
  obtain ⟨e, h2⟩ := split e
  obtain ⟨e, h19⟩ := split e
  obtain ⟨e, h18⟩ := split e
  obtain ⟨e, h17⟩ := split e
  obtain ⟨e, h16⟩ := split e
  obtain ⟨e, h15⟩ := split e
  obtain ⟨e, h14⟩ := split e
  obtain ⟨e, h13⟩ := split e
  obtain ⟨e, h12⟩ := split e
  obtain ⟨e, h11⟩ := split e
  obtain ⟨e, h10⟩ := split e
  obtain ⟨e, h9⟩ := split e
  obtain ⟨e, h8⟩ := split e
  obtain ⟨e, h7⟩ := split e
  obtain ⟨e, h6⟩ := split e
  obtain ⟨e, h5⟩ := split e
  obtain ⟨e, h4⟩ := split e
  obtain ⟨h0, h1⟩ := split e
  exact
    { real0 := real_of_all x0 _ _ _ _ h0
      real1 := real_of_all x1 _ _ _ _ h1
      real4 := real_of_all x4 _ _ _ _ h4
      real5 := real_of_all x5 _ _ _ _ h5
      real6 := real_of_all x6 _ _ _ _ h6
      real7 := real_of_all x7 _ _ _ _ h7
      real8 := real_of_all x8 _ _ _ _ h8
      real9 := real_of_all x9 _ _ _ _ h9
      real10 := real_of_all x10 _ _ _ _ h10
      real11 := real_of_all x11 _ _ _ _ h11
      real12 := real_of_all x12 _ _ _ _ h12
      real13 := real_of_all x13 _ _ _ _ h13
      real14 := real_of_all x14 _ _ _ _ h14
      real15 := real_of_all x15 _ _ _ _ h15
      real16 := real_of_all x16 _ _ _ _ h16
      real17 := real_of_all x17 _ _ _ _ h17
      real18 := real_of_all x18 _ _ _ _ h18
      real19 := real_of_all x19 _ _ _ _ h19
      src_range := range_of_all x2 _ _ _ _ h2 }

/-! ### A source word moved into [0, 100000) -/

/-- The signed reading of a 32-bit word from its unsigned one: below 2^31 itself, otherwise less 2^32. -/
theorem toInt_cases (v : BitVec 32) :
    (v.toNat < 2147483648 ∧ v.toInt = (v.toNat : Int)) ∨ (2147483648 ≤ v.toNat ∧ v.toInt = (v.toNat : Int) - 4294967296) := by
  have e := BitVec.toInt_eq_toNat_cond v
  split at e
  · left; constructor <;> omega
  · right; constructor <;> omega

/-- Adding 100000 to a word that reads in [-100000, 0) does not wrap: the sum reads 100000 more. -/
theorem toInt_add_of_neg (v : BitVec 32) (h0 : (-100000 : Int) ≤ v.toInt) (hn : v.toInt < 0) :
    (v + 100000#32).toInt = v.toInt + 100000 := by
  have e3 : (v + 100000#32).toNat = (v.toNat + 100000) % 4294967296 := by simp [BitVec.toNat_add]
  have hv := v.isLt
  rcases toInt_cases v with ⟨a, b⟩ | ⟨a, b⟩ <;> rcases toInt_cases (v + 100000#32) with ⟨c, d⟩ | ⟨c, d⟩ <;> omega

/-- A word v with -100000 ≤ v < 100000 (signed), moved up by 100000 when negative, reads in [0, 99999]. -/
theorem wrap_range (v : BitVec 32) (h0 : (-100000 : Int) ≤ v.toInt) (h1 : v.toInt < 100000) :
    0 ≤ (if v.toInt < 0 then v + 100000#32 else v).toInt ∧ (if v.toInt < 0 then v + 100000#32 else v).toInt ≤ 99999 := by
  split
  · rename_i hn
    rw [toInt_add_of_neg v h0 hn]; omega
  · omega

/-- The same word reads v mod 100000 (the nonnegative remainder). -/
theorem wrap_toInt (v : BitVec 32) (h0 : (-100000 : Int) ≤ v.toInt) (h1 : v.toInt < 100000) :
    (if v.toInt < 0 then v + 100000#32 else v).toInt = v.toInt % 100000 := by
  split
  · rename_i hn
    rw [toInt_add_of_neg v h0 hn]; omega
  · omega

/-- Its unsigned reading is the same number, below 100000. -/
theorem wrap_toNat (v : BitVec 32) (h0 : (-100000 : Int) ≤ v.toInt) (h1 : v.toInt < 100000) :
    ((if v.toInt < 0 then v + 100000#32 else v).toNat : Int) = v.toInt % 100000
      ∧ (if v.toInt < 0 then v + 100000#32 else v).toNat < 100000 := by
  have h := wrap_toInt v h0 h1
  have hr := wrap_range v h0 h1
  rcases toInt_cases (if v.toInt < 0 then v + 100000#32 else v) with ⟨a, b⟩ | ⟨a, b⟩ <;> constructor <;> omega

/-- The move as a selection on the sign comparison's bit: select (v <ₛ 0) (v + 100000) v. -/
theorem select_eq_wrap (v : BitVec 32) :
    Scalar.select (IntOp.cmpi .slt v 0#32) (IntOp.addi v 100000#32) v = if v.toInt < 0 then v + 100000#32 else v := by
  have hz : (0#32 : BitVec 32).toInt = 0 := by decide
  by_cases hn : v.toInt < 0
  · have hc : IntOp.cmpi .slt v 0#32 = 1#1 := IntOp.cmpi_slt.2 (by rw [hz]; exact hn)
    rw [hc, select_one, if_pos hn]; rfl
  · have hc : ¬ IntOp.cmpi .slt v 0#32 = 1#1 := fun h => hn (by have := IntOp.cmpi_slt.1 h; rwa [hz] at this)
    rw [eq_zero_of_ne_one hc, select_zero, if_neg hn]

/-- The moved word passes the bounds test 0 ≤ w ∧ w ≤ 99999 (signed). -/
theorem wrap_inbounds (v : BitVec 32) (h0 : (-100000 : Int) ≤ v.toInt) (h1 : v.toInt < 100000) :
    IntOp.andi (IntOp.cmpi .sge (if v.toInt < 0 then v + 100000#32 else v) 0#32)
               (IntOp.cmpi .sle (if v.toInt < 0 then v + 100000#32 else v) 99999#32) = 1#1 := by
  have hz : (0#32 : BitVec 32).toInt = 0 := by decide
  have hm : (99999#32 : BitVec 32).toInt = 99999 := by decide
  have hr := wrap_range v h0 h1
  exact IntOp.andi_eq_one.2 ⟨IntOp.cmpi_sge.2 (by rw [hz]; exact hr.1), IntOp.cmpi_sle.2 (by rw [hm]; exact hr.2)⟩

end Cert.PreFacts

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«107267_j23845658427621_2_alg».proof.Proof.LibRows
import proofs.«107267_j23845658427621_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.LibFlatScatter.lean ====
/-
  An accumulating scatter into a flat array, read at an entry as a plain sum over the edges, for any sizes.

  The operand has N entries, the index array one word per edge (carried with a trailing unit axis), the updates one
  value per edge.  An edge's update lands on entry i exactly when its word, read as a signed integer and not clamped,
  is i; a word that reads as no entry lands nowhere.  So

      scatter(x, idx, u)(i) = x(i) + ∑ e, (if idx(e) reads as i then u(e) else 0).
-/
import proofs.«107267_j23845658427621_2_alg».proof.Proof.LibDegree

noncomputable section

namespace Cert.LibFlatScatter

open Idealize.ShloMosaic Idealize.ShloMosaic.ValueIdx

variable {N E w : ℕ}

/-- THE FLAT ACCUMULATING SCATTER AT AN ENTRY. -/
theorem flatScatter_apply (wf1 : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (i : Fin N) :
    Ideal.hostScatterAdd (⟨[], [0], [0], 1, wf1⟩ : ScatterDims ⟨1, ![N]⟩ ⟨2, ![E, 1]⟩ ⟨1, ![E]⟩) x idx u (ix1 i)
      = x (ix1 i) + ∑ e : Fin E, if (idx (ix2 e 0)).toInt = (i.val : Int) then u (ix1 e) else 0 := by
  unfold Ideal.hostScatterAdd
  congr 1
  rw [Finset.sum_filter, ← Cert.Sage.flatEquiv.symm.sum_comp]
  refine Finset.sum_congr rfl fun e _ => ?_
  show (if ScatterDims.resultIdx? _ (ix1 e) idx = some (ix1 i) then u (ix1 e) else 0) = _
  exact if_congr (Cert.Sage.flat_lands wf1 idx e i) rfl rfl

end Cert.LibFlatScatter

end
-- ==== Proof.LibGraphOps.lean ====
/-
  Accumulating scatters and gathers indexed by one word per edge, read at an entry, for any record of dimension
  numbers with the given axis lists.

  A record of scatter (gather) dimension numbers over fixed shapes is its axis lists together with a proof that they
  are well formed, so two records with the same lists are the same record.  The entry formulas proved for the record
  written out literally therefore hold for every record whose lists are those:

      scatter rows:   scatter(x, idx, U)(h, c) = x(h, c) + ∑ e, (if idx(e) reads as h then U(e, c) else 0)
      scatter flat:   scatter(x, idx, u)(h)    = x(h)    + ∑ e, (if idx(e) reads as h then u(e)    else 0)
      gather rows:    gather(X, idx)(e, c)     = X(clamp idx(e), c)
      gather flat:    gather(x, idx)(e)        = x(clamp idx(e))

  where a word is read as a signed integer, not clamped for a scatter (a word naming no row lands nowhere) and
  clamped to the last row for a gather.
-/
import Idealize.ShloMosaic.PureOps.Ideal
import Idealize.ShloMosaic.Lib.ValueIdx
import proofs.«107267_j23845658427621_2_alg».proof.Proof.LibRows
import proofs.«107267_j23845658427621_2_alg».proof.Proof.LibSegment
import proofs.«107267_j23845658427621_2_alg».proof.Proof.LibFlatScatter

noncomputable section

namespace Cert.LibGraphOps

open Idealize.ShloMosaic Idealize.ShloMosaic.ValueIdx Cert.LibRows

variable {N E C w : ℕ}

/-- THE ACCUMULATING SCATTER OF ROWS AT AN ENTRY, for any record with the row-scatter axis lists. -/
theorem rowScatter_apply' (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (U : (⟨2, ![E, C]⟩ : Shape).Idx → EReal)
    (h : Fin N) (c : Fin C) :
    Host.scatterAdd (F := Ideal) (φ := .f32) d x idx U (ix2 h c)
      = x (ix2 h c) + ∑ e : Fin E, if (idx (ix2 e 0)).toInt = (h.val : Int) then U (ix2 e c) else 0 := by
  obtain ⟨a1, b1, c1, v1, wf⟩ := d
  dsimp only at hu hi hs hv
  subst hu hi hs hv
  exact Cert.LibSegment.rowScatter_apply wf x idx U h c

/-- THE FLAT ACCUMULATING SCATTER AT AN ENTRY, for any record with the flat-scatter axis lists. -/
theorem flatScatter_apply' (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (u : (⟨1, ![E]⟩ : Shape).Idx → EReal)
    (h : Fin N) :
    Host.scatterAdd (F := Ideal) (φ := .f32) d x idx u (ix1 h)
      = x (ix1 h) + ∑ e : Fin E, if (idx (ix2 e 0)).toInt = (h.val : Int) then u (ix1 e) else 0 := by
  obtain ⟨a1, b1, c1, v1, wf⟩ := d
  dsimp only at hu hi hs hv
  subst hu hi hs hv
  exact Cert.LibFlatScatter.flatScatter_apply wf x idx u h

/-- THE ROW GATHER AT AN ENTRY, for any record with the row-gather axis lists. -/
theorem row_gather_apply' {α : Type} (hN : 0 < N) (d : GatherDims ⟨2, ![N, C]⟩ ⟨2, ![E, 1]⟩ ⟨2, ![E, C]⟩)
    (ho : d.offsetDims = [1]) (hc : d.collapsedSliceDims = [0]) (hob : d.operandBatchingDims = [])
    (hsb : d.startIndicesBatchingDims = []) (hm : d.startIndexMap = [0]) (hv : d.indexVectorDim = 1)
    (hz : d.sliceSizes = ![1, C])
    (X : (⟨2, ![N, C]⟩ : Shape).Idx → α) (idx : IVec ⟨2, ![E, 1]⟩ w) (e : Fin E) (c : Fin C) :
    Host.gather d X idx (ix2 e c) = X (ix2 ⟨clampRow N (idx (ix2 e 0)), clampRow_lt hN _⟩ c) := by
  obtain ⟨a1, b1, c1, d1, e1, v1, z1, wf⟩ := d
  dsimp only at ho hc hob hsb hm hv hz
  subst ho hc hob hsb hm hv hz
  exact row_gather_apply wf hN X idx e c

/-- THE FLAT GATHER AT AN ENTRY, for any record with the flat-gather axis lists. -/
theorem flat_gather_apply' {α : Type} (hN : 0 < N) (d : GatherDims ⟨1, ![N]⟩ ⟨2, ![E, 1]⟩ ⟨1, ![E]⟩)
    (ho : d.offsetDims = []) (hc : d.collapsedSliceDims = [0]) (hob : d.operandBatchingDims = [])
    (hsb : d.startIndicesBatchingDims = []) (hm : d.startIndexMap = [0]) (hv : d.indexVectorDim = 1)
    (hz : d.sliceSizes = ![1])
    (x : (⟨1, ![N]⟩ : Shape).Idx → α) (idx : IVec ⟨2, ![E, 1]⟩ w) (e : Fin E) :
    Host.gather d x idx (ix1 e) = x (ix1 ⟨clampRow N (idx (ix2 e 0)), clampRow_lt hN _⟩) := by
  obtain ⟨a1, b1, c1, d1, e1, v1, z1, wf⟩ := d
  dsimp only at ho hc hob hsb hm hv hz
  subst ho hc hob hsb hm hv hz
  exact flat_gather_apply wf hN x idx e

end Cert.LibGraphOps

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.LibMessageLaw.lean ====
/-
  Algebra over the extended reals for a message-passing layer.

  Every quantity of the layer is the coercion of a real number.  On such entries the extended reals obey the laws of
  the real field, so a projection through a weight matrix commutes with the sum over the edges; the rectifier, the
  masked sum and the inverse square root of a degree that is at least one keep entries real.
-/
import proofs.«107267_j23845658427621_2_alg».proof.Proof.LibRealValued
import Idealize.ShloMosaic.PureOps.Ideal
import Idealize.ShloMosaic.PureOps.Ideal.Laws
import Idealize.ShloMosaic.Lib.IdealHost
import Mathlib

noncomputable section

namespace Cert.Algebra

open Idealize.ShloMosaic
open Cert.RealValued
open scoped BigOperators

/-- The negative of a real entry is real: `-(r : EReal) = ((-r : ℝ) : EReal)`. -/
theorem IsReal.neg {x : EReal} (hx : IsReal x) : IsReal (-x) := by
  obtain ⟨r, rfl⟩ := hx
  exact ⟨-r, (EReal.coe_neg r).symm⟩

/-- A masked sum of real entries, added to a real entry, is real:
    `z + ∑ e, (if p e then u e else 0)` is real when `z` and every `u e` are. -/
theorem isReal_masked_sum {E : ℕ} {z : EReal} (p : Fin E → Prop) [DecidablePred p] (u : Fin E → EReal)
    (hz : IsReal z) (hu : ∀ e, IsReal (u e)) :
    IsReal (z + ∑ e : Fin E, if p e then u e else 0) :=
  hz.add (isReal_sum _ _ fun e _ => (hu e).ite isReal_zero)

/-- Projection commutes with aggregation.  With real entries,
    `0 + ∑ₑ [p e] a e · (∑ₖ H e k · Wt k) = ∑ₖ (0 + ∑ₑ [p e] a e · H e k) · Wt k`:
    a message that is projected through a weight matrix before it is summed over the edges equals the summed message
    projected afterwards.  Both sides are the coercion of the real double sum `∑ₑ ∑ₖ [p e] a e · H e k · Wt k`,
    by distributivity and the exchange of two finite sums over the reals. -/
theorem message_linear (E K : ℕ) (z : EReal) (hz : z = 0) (p : Fin E → Prop) [DecidablePred p]
    (a : Fin E → EReal) (H : Fin E → Fin K → EReal) (Wt : Fin K → EReal)
    (ha : ∀ e, IsReal (a e)) (hH : ∀ e k, IsReal (H e k)) (hW : ∀ k, IsReal (Wt k)) :
    z + ∑ e, (if p e then a e * (∑ k, H e k * Wt k) else 0)
      = ∑ k, (z + ∑ e, (if p e then a e * H e k else 0)) * Wt k := by
  subst hz
  choose a' ha' using ha
  choose H' hH' using hH
  choose W' hW' using hW
  have hL : ∀ e, (if p e then a e * (∑ k, H e k * Wt k) else 0)
      = (((if p e then a' e * ∑ k, H' e k * W' k else 0 : ℝ)) : EReal) := by
    intro e
    split
    · rw [ha' e, EReal.coe_mul, coe_sum]
      congr 1
      refine Finset.sum_congr rfl fun k _ => ?_
      rw [hH' e k, hW' k, EReal.coe_mul]
    · exact EReal.coe_zero.symm
  have hR : ∀ k, (0 + ∑ e, (if p e then a e * H e k else 0)) * Wt k
      = ((((∑ e, (if p e then a' e * H' e k else 0)) * W' k : ℝ)) : EReal) := by
    intro k
    rw [zero_add, EReal.coe_mul, coe_sum, hW' k]
    congr 1
    refine Finset.sum_congr rfl fun e _ => ?_
    split
    · rw [ha' e, hH' e k, EReal.coe_mul]
    · exact EReal.coe_zero.symm
  rw [zero_add, Finset.sum_congr rfl (fun e _ => hL e), Finset.sum_congr rfl (fun k _ => hR k),
    ← coe_sum, ← coe_sum]
  congr 1
  calc ∑ e, (if p e then a' e * ∑ k, H' e k * W' k else 0)
      = ∑ e, ∑ k, (if p e then a' e * H' e k else 0) * W' k := by
        refine Finset.sum_congr rfl fun e _ => ?_
        split
        · rw [Finset.mul_sum]
          exact Finset.sum_congr rfl fun k _ => (mul_assoc _ _ _).symm
        · simp
    _ = ∑ k, ∑ e, (if p e then a' e * H' e k else 0) * W' k := Finset.sum_comm
    _ = ∑ k, (∑ e, (if p e then a' e * H' e k else 0)) * W' k :=
        Finset.sum_congr rfl fun k _ => (Finset.sum_mul _ _ _).symm

/-- The single-precision pattern of all zero bits is the real number zero. -/
theorem isReal_zero_lit : IsReal (Ideal.ofBits .f32 0x00000000#32) := by
  rw [Ideal.ofBits_zero_f32]
  exact isReal_zero

/-- The rectifier `max x 0` of a real entry is real. -/
theorem isReal_relu {x : EReal} (hx : IsReal x) : IsReal (max x (Ideal.ofBits .f32 0x00000000#32)) :=
  hx.max isReal_zero_lit

/-- The single-precision pattern `0x3F800000` is the real number one. -/
theorem isReal_one_lit : IsReal (Ideal.ofBits .f32 0x3F800000#32) := by
  rw [Ideal.ofBits_one_f32]
  exact isReal_one

/-- The inverse square root of a real number that is at least one is the real number `(√r)⁻¹`:
    neither the branch of a negative argument nor the pole at zero is met. -/
theorem isReal_rsqrt {x : EReal} (hx : IsReal x) (h1 : 1 ≤ x) : IsReal (Ideal.rsqrt x) := by
  obtain ⟨r, rfl⟩ := hx
  have hr : (1 : ℝ) ≤ r := by exact_mod_cast h1
  rw [Ideal.rsqrt_coe, if_neg (by linarith), if_neg (by linarith)]
  exact ⟨_, rfl⟩

/-- A real degree clamped below by one has a real inverse square root: `max d 1` is real and at least one. -/
theorem isReal_rsqrt_max_one {d : EReal} (hd : IsReal d) :
    IsReal (Ideal.rsqrt (max d (Ideal.ofBits .f32 0x3F800000#32))) := by
  refine isReal_rsqrt (hd.max isReal_one_lit) ?_
  rw [Ideal.ofBits_one_f32]
  exact le_max_right d 1

end Cert.Algebra

end
-- ==== Proof.MeanLaw.lean ====
/-
  The neighbour mean of the reference network, read entry by entry.

  An edge's source word, wrapped (100000 added when it reads negative), names a row in [0, 99999] as soon as the word
  lies in [-100000, 100000): the bounds test is then 1 at every edge, so the selected gather reads the operand's row
  at the wrapped word and the fill value never appears.  The clamped in-degree is a count of ones, at least one; so a
  quotient by it equals the product with its reciprocal, at every extended real.
-/
import proofs.«107267_j23845658427621_2_alg».proof.Proof.RefSpec
import proofs.«107267_j23845658427621_2_alg».proof.Proof.PreFacts
import proofs.«107267_j23845658427621_2_alg».proof.Proof.LibGraphOps
import proofs.«107267_j23845658427621_2_alg».proof.Proof.LibMessageLaw
import proofs.«107267_j23845658427621_2_alg».proof.Proof.LibRecip
import proofs.«107267_j23845658427621_2_alg».proof.Proof.LibProduct
import proofs.«107267_j23845658427621_2_alg».proof.Proof.LibRowBlock
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal
import Idealize.ShloMosaic.PureOps.Ideal.Laws
import Mathlib

noncomputable section

namespace Cert.MeanLaw

open Idealize.ShloMosaic Idealize.ShloMosaic.ValueIdx Cert.ReferenceIdeal Cert.RefSpec
open Cert.ReferenceIdeal.Facts₀ Cert.ReferenceIdeal.Facts
open Cert.RealValued
open scoped BigOperators

variable [Cert.ReferenceIdeal.Facts]

/-- The two spellings of "is a real number" agree. -/
theorem isReal_iff (x : EReal) : Cert.PreFacts.IsReal x ↔ IsReal x := Iff.rfl

theorem isReal_of_pre {x : EReal} (h : Cert.PreFacts.IsReal x) : IsReal x := h

/-- The per-edge 32-wide shape (the reference program has no array of this shape). -/
abbrev S1600000x32 : Shape := ⟨2, ![1600000, 32]⟩

/-! ### The source rows under the range fact -/

/-- A left fold by `and` over one-bit words, from 1, over words that are all 1, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], init, h, _ => h
  | a :: l, init, h, hf => by
    refine foldl_andi_one f l _ ?_ (fun n hn => hf n (List.mem_cons_of_mem _ hn))
    exact IntOp.andi_eq_one.2 ⟨h, hf a (List.mem_cons_self ..)⟩

/-- The wrapped word of edge e: the source word, moved up by 100000 when it reads negative. -/
theorem wrapped_apply (src : Ia S1600000) (e : Fin 1600000) (u : Fin 1) :
    wrapped src (ix2 e u)
      = if (src (ix1 e)).toInt < 0 then src (ix1 e) + 100000#32 else src (ix1 e) := by
  unfold wrapped
  rw [Cert.LibRowBlock.column_apply]
  exact Cert.PreFacts.select_eq_wrap (src (ix1 e))

/-- Under the range fact every wrapped word names a row: the test 0 ≤ word ≤ 99999 is 1 at every edge. -/
theorem named_wrapped (src : Ia S1600000)
    (hsrc : ∀ i, (-100000 : Int) ≤ (src i).toInt ∧ (src i).toInt < 100000) (j : S1600000.Idx) :
    RefSpec.named (wrapped src) j = 1#1 := by
  unfold RefSpec.named
  rw [Host.reduce_eq_foldl]
  refine foldl_andi_one _ _ _ rfl fun i _ => ?_
  obtain ⟨e, u, rfl⟩ : ∃ (e : Fin 1600000) (u : Fin 1), i = ix2 e u := ⟨i 0, i 1, eq_ix2 i⟩
  show IntOp.andi (IntOp.cmpi .sge (wrapped src (ix2 e u)) 0#32) (IntOp.cmpi .sle (wrapped src (ix2 e u)) 99999#32) = 1#1
  rw [wrapped_apply]
  exact Cert.PreFacts.wrap_inbounds _ (hsrc _).1 (hsrc _).2

/-- The row the wrapped word of edge e names. -/
def srcRow (src : Ia S1600000) (e : Fin 1600000) : Fin 100000 :=
  ⟨Cert.LibRows.clampRow 100000 (wrapped src (ix2 e 0)), Cert.LibRows.clampRow_lt (by decide) _⟩

/-- Under the range fact that row is the source word modulo 100000. -/
theorem srcRow_val (src : Ia S1600000)
    (hsrc : ∀ i, (-100000 : Int) ≤ (src i).toInt ∧ (src i).toInt < 100000) (e : Fin 1600000) :
    ((srcRow src e).val : Int) = (src (ix1 e)).toInt % 100000 := by
  have h := Cert.PreFacts.wrap_toInt (src (ix1 e)) (hsrc _).1 (hsrc _).2
  have hr := Cert.PreFacts.wrap_range (src (ix1 e)) (hsrc _).1 (hsrc _).2
  show ((Cert.LibRows.clampRow 100000 (wrapped src (ix2 e 0)) : ℕ) : Int) = _
  rw [wrapped_apply, ← h]
  unfold Cert.LibRows.clampRow
  omega

/-- A vector repeated along the columns of an [M, C] array, at (p, q). -/
theorem rowsOf_apply {α : Type} {M C : ℕ} (v : (⟨1, ![M]⟩ : Shape).Idx → α)
    (hb : (⟨1, ![M]⟩ : Shape).BroadcastsInDim ⟨2, ![M, C]⟩ ![0]) (p : Fin M) (q : Fin C) :
    broadcastInDim ⟨2, ![M, C]⟩ ![0] hb v (ix2 p q) = v (ix1 p) :=
  broadcastInDim_apply ![0] hb v (ix2 p q) (ix1 p) (fun a => by
    match a with
    | ⟨0, _⟩ =>
      show p.val = if M = 1 then 0 else p.val
      split
      · have := p.isLt; omega
      · rfl)

/-- THE GATHER UNDER THE RANGE FACT, at any width: the selected gather reads the operand's row `srcRow src e`;
    the fill value never appears. -/
theorem take_apply {C : ℕ} (dg : GatherDims ⟨2, ![100000, C]⟩ S1600000x1 ⟨2, ![1600000, C]⟩)
    (ho : dg.offsetDims = [1]) (hc : dg.collapsedSliceDims = [0]) (hob : dg.operandBatchingDims = [])
    (hsb : dg.startIndicesBatchingDims = []) (hm : dg.startIndexMap = [0]) (hv : dg.indexVectorDim = 1)
    (hz : dg.sliceSizes = ![1, C])
    (b1 : S1600000.BroadcastsInDim ⟨2, ![1600000, C]⟩ ![0]) (b2 : S_.BroadcastsInDim ⟨2, ![1600000, C]⟩ ![])
    (P : Fa ⟨2, ![100000, C]⟩) (src : Ia S1600000)
    (hsrc : ∀ i, (-100000 : Int) ≤ (src i).toInt ∧ (src i).toInt < 100000) (e : Fin 1600000) (k : Fin C) :
    select (broadcastInDim ⟨2, ![1600000, C]⟩ ![0] b1 (RefSpec.named (wrapped src))) (Host.gather dg P (wrapped src))
        (broadcastInDim ⟨2, ![1600000, C]⟩ ![] b2 (constant (F := Ideal) S_ .f32 0x7FC00000#32)) (ix2 e k)
      = P (ix2 (srcRow src e) k) := by
  rw [select_apply, rowsOf_apply, named_wrapped src hsrc, select_one]
  exact Cert.LibGraphOps.row_gather_apply' (by decide) dg ho hc hob hsb hm hv hz P (wrapped src) e k

theorem take128_apply (X : Fa S100000x128) (src : Ia S1600000)
    (hsrc : ∀ i, (-100000 : Int) ≤ (src i).toInt ∧ (src i).toInt < 100000) (e : Fin 1600000) (k : Fin 128) :
    take128 X src (ix2 e k) = X (ix2 (srcRow src e) k) :=
  take_apply gather_S100000x128_S1600000x1_S1600000x128_1_0_n_n_0_1_1128 rfl rfl rfl rfl rfl rfl rfl
    bcast_S1600000_S1600000x128_0 bcast_S_S1600000x128 X src hsrc e k

theorem take64_apply (X : Fa S100000x64) (src : Ia S1600000)
    (hsrc : ∀ i, (-100000 : Int) ≤ (src i).toInt ∧ (src i).toInt < 100000) (e : Fin 1600000) (k : Fin 64) :
    take64 X src (ix2 e k) = X (ix2 (srcRow src e) k) :=
  take_apply gather_S100000x64_S1600000x1_S1600000x64_1_0_n_n_0_1_164 rfl rfl rfl rfl rfl rfl rfl
    bcast_S1600000_S1600000x64_0 bcast_S_S1600000x64 X src hsrc e k

/-- The 32-wide form, for any record of gather dimension numbers with the row-gather axis lists. -/
theorem take32_apply (dg : GatherDims S100000x32 S1600000x1 S1600000x32)
    (ho : dg.offsetDims = [1]) (hc : dg.collapsedSliceDims = [0]) (hob : dg.operandBatchingDims = [])
    (hsb : dg.startIndicesBatchingDims = []) (hm : dg.startIndexMap = [0]) (hv : dg.indexVectorDim = 1)
    (hz : dg.sliceSizes = ![1, 32])
    (b1 : S1600000.BroadcastsInDim S1600000x32 ![0]) (b2 : S_.BroadcastsInDim S1600000x32 ![])
    (P : Fa S100000x32) (src : Ia S1600000)
    (hsrc : ∀ i, (-100000 : Int) ≤ (src i).toInt ∧ (src i).toInt < 100000) (e : Fin 1600000) (k : Fin 32) :
    select (broadcastInDim S1600000x32 ![0] b1 (RefSpec.named (wrapped src))) (Host.gather dg P (wrapped src))
        (broadcastInDim S1600000x32 ![] b2 (constant (F := Ideal) S_ .f32 0x7FC00000#32)) (ix2 e k)
      = P (ix2 (srcRow src e) k) :=
  take_apply dg ho hc hob hsb hm hv hz b1 b2 P src hsrc e k

/-! ### Dividing by the clamped degree is multiplying by its reciprocal -/

/-- The clamped degree at a node: the count of edges landing on it, at least one. -/
theorem degree_apply (dst : Ia S1600000) (i : Fin 100000) :
    degree dst (ix1 i)
      = max (0 + ∑ e : Fin 1600000, if (dstCol dst (ix2 e 0)).toInt = (i.val : Int) then (1 : EReal) else 0) 1 := by
  unfold degree
  rw [maximumf_apply, Cert.LibGraphOps.flatScatter_apply' scatter_S100000_S1600000x1_S1600000_n_0_0_1 rfl rfl rfl rfl]
  have h0 : broadcastInDim S100000 ![] bcast_S_S100000 (constant (F := Ideal) S_ .f32 0x00000000#32) (ix1 i) = 0 :=
    Ideal.ofBits_zero_f32
  have h1 : broadcastInDim S100000 ![] bcast_S_S100000 (constant (F := Ideal) S_ .f32 0x3F800000#32) (ix1 i) = 1 :=
    Cert.LibRecip.one_f32
  have h2 : ∀ e : Fin 1600000,
      broadcastInDim S1600000 ![] bcast_S_S1600000 (constant (F := Ideal) S_ .f32 0x3F800000#32) (ix1 e) = 1 :=
    fun e => Cert.LibRecip.one_f32
  rw [h0, h1]
  simp only [h2]

theorem one_le_degree (dst : Ia S1600000) (i : Fin 100000) : 1 ≤ degree dst (ix1 i) := by
  rw [degree_apply]; exact le_max_right _ _

theorem isReal_degree (dst : Ia S1600000) (i : Fin 100000) : IsReal (degree dst (ix1 i)) := by
  rw [degree_apply]
  exact (Cert.Algebra.isReal_masked_sum _ _ isReal_zero fun _ => isReal_one).max isReal_one

/-- The column of reciprocals 1 / d repeated along the rows, at (r, q). -/
theorem recipRows_apply {C : ℕ} (d : Fa S100000)
    (hb : S100000x1.BroadcastsInDim ⟨2, ![100000, C]⟩ ![0, 1]) (r : Fin 100000) (q : Fin C) :
    broadcastInDim ⟨2, ![100000, C]⟩ ![0, 1] hb (broadcastInDim S100000x1 ![0] bcast_S100000_S100000x1_0
        (Host.divf (F := Ideal) (φ := .f32)
          (broadcastInDim S100000 ![] bcast_S_S100000 (constant (F := Ideal) S_ .f32 0x3F800000#32)) d)) (ix2 r q)
      = Ideal.div 1 (d (ix1 r)) := by
  rw [Cert.LibRowBlock.columnRows_apply, Cert.LibRowBlock.column_apply]
  show Ideal.div (Ideal.ofBits .f32 0x3F800000#32) (d (ix1 r)) = _
  rw [Cert.LibRecip.one_f32]

/-- The column d repeated along the rows, at (r, q). -/
theorem colRows_apply {C : ℕ} (d : Fa S100000)
    (hb : S100000x1.BroadcastsInDim ⟨2, ![100000, C]⟩ ![0, 1]) (r : Fin 100000) (q : Fin C) :
    broadcastInDim ⟨2, ![100000, C]⟩ ![0, 1] hb (broadcastInDim S100000x1 ![0] bcast_S100000_S100000x1_0 d) (ix2 r q)
      = d (ix1 r) := by
  rw [Cert.LibRowBlock.columnRows_apply, Cert.LibRowBlock.column_apply]

/-- At any width: a quotient by a per-row divisor that is at least one is the product with its reciprocal. -/
theorem div_eq_scaled {C : ℕ} (A : Fa ⟨2, ![100000, C]⟩) (d : Fa S100000) (hd : ∀ r : Fin 100000, 1 ≤ d (ix1 r))
    (hb : S100000x1.BroadcastsInDim ⟨2, ![100000, C]⟩ ![0, 1]) :
    Host.divf (F := Ideal) (φ := .f32) A
        (broadcastInDim ⟨2, ![100000, C]⟩ ![0, 1] hb (broadcastInDim S100000x1 ![0] bcast_S100000_S100000x1_0 d))
      = mulf (F := Ideal) (φ := .f32) A
        (broadcastInDim ⟨2, ![100000, C]⟩ ![0, 1] hb (broadcastInDim S100000x1 ![0] bcast_S100000_S100000x1_0
          (Host.divf (F := Ideal) (φ := .f32)
            (broadcastInDim S100000 ![] bcast_S_S100000 (constant (F := Ideal) S_ .f32 0x3F800000#32)) d))) := by
  refine Cert.LibRowBlock.arr_ext fun r q => ?_
  rw [mulf_apply, recipRows_apply]
  show Ideal.div (A (ix2 r q)) (broadcastInDim ⟨2, ![100000, C]⟩ ![0, 1] hb
      (broadcastInDim S100000x1 ![0] bcast_S100000_S100000x1_0 d) (ix2 r q)) = _
  rw [colRows_apply, Cert.LibRecip.mul_recip _ _ (hd r)]

theorem mean128_eq_scaled (X : Fa S100000x128) (src dst : Ia S1600000) :
    mean128 X src dst
      = mulf (F := Ideal) (φ := .f32) (agg128 (take128 X src) dst)
          (broadcastInDim S100000x128 ![0, 1] bcast_S100000x1_S100000x128_0_1
            (broadcastInDim S100000x1 ![0] bcast_S100000_S100000x1_0
              (Host.divf (F := Ideal) (φ := .f32)
                (broadcastInDim S100000 ![] bcast_S_S100000 (constant (F := Ideal) S_ .f32 0x3F800000#32)) (degree dst)))) :=
  div_eq_scaled (agg128 (take128 X src) dst) (degree dst) (one_le_degree dst) bcast_S100000x1_S100000x128_0_1

theorem mean64_eq_scaled (X : Fa S100000x64) (src dst : Ia S1600000) :
    mean64 X src dst
      = mulf (F := Ideal) (φ := .f32) (agg64 (take64 X src) dst)
          (broadcastInDim S100000x64 ![0, 1] bcast_S100000x1_S100000x64_0_1
            (broadcastInDim S100000x1 ![0] bcast_S100000_S100000x1_0
              (Host.divf (F := Ideal) (φ := .f32)
                (broadcastInDim S100000 ![] bcast_S_S100000 (constant (F := Ideal) S_ .f32 0x3F800000#32)) (degree dst)))) :=
  div_eq_scaled (agg64 (take64 X src) dst) (degree dst) (one_le_degree dst) bcast_S100000x1_S100000x64_0_1

end Cert.MeanLaw

end
-- ==== Proof.MeanLaw2.lean ====
/-
  Projection commutes with the neighbour mean, and real entries are kept.

  With real entries, the row (H·W)(s) of a projected array, gathered per edge, summed into the destination rows and
  scaled by the reciprocal 1/d of the clamped degree, equals the projection of the neighbour mean: at entry (i, c)
      (0 + ∑ₑ [dst e = i] ∑ₖ H(src e, k)·W(k, c)) · (1/d i)  =  ∑ₖ ((0 + ∑ₑ [dst e = i] H(src e, k)) · (1/d i)) · W(k, c).
  Both sides are coercions of one real double sum: the exchange of the two finite sums, then the real factor 1/d i
  moved across the sum over k.  The degree is a count of ones clamped below by one, so it is real and at least one and
  its reciprocal is real.  Sums, products, quotients by such a degree, a bias and the maximum with zero keep entries
  real, so the first layer of either branch has real entries.
-/
import proofs.«107267_j23845658427621_2_alg».proof.Proof.MeanLaw

noncomputable section

namespace Cert.MeanLaw

open Idealize.ShloMosaic Idealize.ShloMosaic.ValueIdx Cert.ReferenceIdeal Cert.RefSpec
open Cert.ReferenceIdeal.Facts₀ Cert.ReferenceIdeal.Facts
open Cert.RealValued
open scoped BigOperators

variable [Cert.ReferenceIdeal.Facts]

/-! ### Real entries: quotients, and a real factor across a finite sum -/

/-- A quotient of real entries by a divisor that is at least one is real. -/
theorem isReal_div {a d : EReal} (ha : IsReal a) (hd : IsReal d) (h1 : 1 ≤ d) : IsReal (Ideal.div a d) := by
  obtain ⟨x, rfl⟩ := ha
  obtain ⟨r, hr, rfl⟩ := hd.coe_ne_zero_of_one_le h1
  have hne : (r : EReal) ≠ 0 := fun h => hr (by exact_mod_cast h)
  rw [Ideal.div, if_neg hne]
  exact ⟨x * r⁻¹, by rw [EReal.coe_mul, EReal.coe_inv]⟩

/-- On real entries a real factor moves across a finite sum of products:
    (∑ₖ G k · W k) · ρ = ∑ₖ (G k · ρ) · W k. -/
theorem sum_mul_real {K : ℕ} (G Wt : Fin K → EReal) (ρ : EReal) (hG : ∀ k, IsReal (G k)) (hW : ∀ k, IsReal (Wt k))
    (hρ : IsReal ρ) : (∑ k, G k * Wt k) * ρ = ∑ k, (G k * ρ) * Wt k := by
  choose g hg using hG
  choose w hw using hW
  obtain ⟨r, rfl⟩ := hρ
  have hL : ∀ k, G k * Wt k = ((g k * w k : ℝ) : EReal) := fun k => by rw [hg k, hw k, EReal.coe_mul]
  have hR : ∀ k, (G k * (r : EReal)) * Wt k = ((g k * r * w k : ℝ) : EReal) := fun k => by
    rw [hg k, hw k, EReal.coe_mul, EReal.coe_mul]
  rw [Finset.sum_congr rfl (fun k _ => hL k), Finset.sum_congr rfl (fun k _ => hR k), ← coe_sum, ← coe_sum,
    ← EReal.coe_mul]
  congr 1
  rw [Finset.sum_mul]
  exact Finset.sum_congr rfl fun k _ => by ring

/-- The neighbour sum of the source rows at an entry, under the range fact. -/
theorem agg128_take_apply (X : Fa S100000x128) (src dst : Ia S1600000)
    (hsrc : ∀ i, (-100000 : Int) ≤ (src i).toInt ∧ (src i).toInt < 100000) (i : Fin 100000) (k : Fin 128) :
    agg128 (take128 X src) dst (ix2 i k)
      = 0 + ∑ e : Fin 1600000, if (dstCol dst (ix2 e 0)).toInt = (i.val : Int) then X (ix2 (srcRow src e) k) else 0 := by
  unfold agg128
  rw [Cert.LibGraphOps.rowScatter_apply' scatter_S100000x128_S1600000x1_S1600000x128_1_0_0_1 rfl rfl rfl rfl]
  have h0 : broadcastInDim S100000x128 ![] bcast_S_S100000x128 (constant (F := Ideal) S_ .f32 0x00000000#32) (ix2 i k) = 0 :=
    Ideal.ofBits_zero_f32
  rw [h0]
  simp only [take128_apply X src hsrc]

theorem agg64_take_apply (X : Fa S100000x64) (src dst : Ia S1600000)
    (hsrc : ∀ i, (-100000 : Int) ≤ (src i).toInt ∧ (src i).toInt < 100000) (i : Fin 100000) (k : Fin 64) :
    agg64 (take64 X src) dst (ix2 i k)
      = 0 + ∑ e : Fin 1600000, if (dstCol dst (ix2 e 0)).toInt = (i.val : Int) then X (ix2 (srcRow src e) k) else 0 := by
  unfold agg64
  rw [Cert.LibGraphOps.rowScatter_apply' scatter_S100000x64_S1600000x1_S1600000x64_1_0_0_1 rfl rfl rfl rfl]
  have h0 : broadcastInDim S100000x64 ![] bcast_S_S100000x64 (constant (F := Ideal) S_ .f32 0x00000000#32) (ix2 i k) = 0 :=
    Ideal.ofBits_zero_f32
  rw [h0]
  simp only [take64_apply X src hsrc]

/-- The neighbour mean at an entry, under the range fact: the neighbour sum times the reciprocal of the clamped degree. -/
theorem mean128_apply (X : Fa S100000x128) (src dst : Ia S1600000)
    (hsrc : ∀ i, (-100000 : Int) ≤ (src i).toInt ∧ (src i).toInt < 100000) (i : Fin 100000) (k : Fin 128) :
    mean128 X src dst (ix2 i k)
      = (0 + ∑ e : Fin 1600000, if (dstCol dst (ix2 e 0)).toInt = (i.val : Int) then X (ix2 (srcRow src e) k) else 0)
          * Ideal.div 1 (degree dst (ix1 i)) := by
  rw [mean128_eq_scaled, mulf_apply, recipRows_apply, agg128_take_apply X src dst hsrc]

theorem mean64_apply (X : Fa S100000x64) (src dst : Ia S1600000)
    (hsrc : ∀ i, (-100000 : Int) ≤ (src i).toInt ∧ (src i).toInt < 100000) (i : Fin 100000) (k : Fin 64) :
    mean64 X src dst (ix2 i k)
      = (0 + ∑ e : Fin 1600000, if (dstCol dst (ix2 e 0)).toInt = (i.val : Int) then X (ix2 (srcRow src e) k) else 0)
          * Ideal.div 1 (degree dst (ix1 i)) := by
  rw [mean64_eq_scaled, mulf_apply, recipRows_apply, agg64_take_apply X src dst hsrc]

/-! ### Projecting before aggregating equals aggregating before projecting -/

theorem project_then_mean (dg : GatherDims S100000x32 S1600000x1 S1600000x32)
    (ho : dg.offsetDims = [1]) (hc : dg.collapsedSliceDims = [0]) (hob : dg.operandBatchingDims = [])
    (hsb : dg.startIndicesBatchingDims = []) (hm : dg.startIndexMap = [0]) (hv : dg.indexVectorDim = 1)
    (hz : dg.sliceSizes = ![1, 32])
    (ds : ScatterDims S100000x32 S1600000x1 S1600000x32)
    (hu : ds.updateWindowDims = [1]) (hi : ds.insertedWindowDims = [0]) (hs : ds.scatterDimsToOperandDims = [0])
    (hw : ds.indexVectorDim = 1)
    (b1 : S1600000.BroadcastsInDim S1600000x32 ![0]) (b2 : S_.BroadcastsInDim S1600000x32 ![])
    (b3 : S_.BroadcastsInDim S100000x32 ![]) (b4 : S100000x1.BroadcastsInDim S100000x32 ![0, 1])
    (H : Fa S100000x128) (W : Fa S128x32) (src dst : Ia S1600000)
    (hH : ∀ i, IsReal (H i)) (hW : ∀ i, IsReal (W i))
    (hsrc : ∀ i, (-100000 : Int) ≤ (src i).toInt ∧ (src i).toInt < 100000) :
    mulf (F := Ideal) (φ := .f32)
        (Host.scatterAdd (F := Ideal) ds
          (broadcastInDim S100000x32 ![] b3 (constant (F := Ideal) S_ .f32 0x00000000#32)) (dstCol dst)
          (select (broadcastInDim S1600000x32 ![0] b1 (RefSpec.named (wrapped src)))
            (Host.gather dg (Host.dotGeneral (F := Ideal) (φ₁ := .f32) (φ₂ := .f32)
              dot_S100000x128_S128x32_S100000x32_1_0_0_1_n_n none H W) (wrapped src))
            (broadcastInDim S1600000x32 ![] b2 (constant (F := Ideal) S_ .f32 0x7FC00000#32))))
        (broadcastInDim S100000x32 ![0, 1] b4 (broadcastInDim S100000x1 ![0] bcast_S100000_S100000x1_0
          (Host.divf (F := Ideal) (φ := .f32)
            (broadcastInDim S100000 ![] bcast_S_S100000 (constant (F := Ideal) S_ .f32 0x3F800000#32)) (degree dst))))
      = Host.dotGeneral (F := Ideal) (φ₁ := .f32) (φ₂ := .f32) dot_S100000x128_S128x32_S100000x32_1_0_0_1_n_n none
          (mean128 H src dst) W := by
  refine Cert.LibRowBlock.arr_ext fun i c => ?_
  rw [mulf_apply, recipRows_apply, Cert.LibGraphOps.rowScatter_apply' ds hu hi hs hw,
    Cert.LibProduct.dotGeneral_apply dot_S100000x128_S128x32_S100000x32_1_0_0_1_n_n rfl rfl rfl rfl rfl rfl]
  have h0 : broadcastInDim S100000x32 ![] b3 (constant (F := Ideal) S_ .f32 0x00000000#32) (ix2 i c) = 0 :=
    Ideal.ofBits_zero_f32
  rw [h0]
  have hT : ∀ e : Fin 1600000,
      select (broadcastInDim S1600000x32 ![0] b1 (RefSpec.named (wrapped src)))
          (Host.gather dg (Host.dotGeneral (F := Ideal) (φ₁ := .f32) (φ₂ := .f32)
            dot_S100000x128_S128x32_S100000x32_1_0_0_1_n_n none H W) (wrapped src))
          (broadcastInDim S1600000x32 ![] b2 (constant (F := Ideal) S_ .f32 0x7FC00000#32)) (ix2 e c)
        = ∑ k : Fin 128, H (ix2 (srcRow src e) k) * W (ix2 k c) := fun e => by
    rw [take32_apply dg ho hc hob hsb hm hv hz b1 b2 _ src hsrc e c,
      Cert.LibProduct.dotGeneral_apply dot_S100000x128_S128x32_S100000x32_1_0_0_1_n_n rfl rfl rfl rfl rfl rfl]
  simp only [hT, mean128_apply H src dst hsrc]
  have hml := Cert.Algebra.message_linear 1600000 128 0 rfl
    (fun e : Fin 1600000 => (dstCol dst (ix2 e 0)).toInt = (i.val : Int)) (fun _ => 1)
    (fun e k => H (ix2 (srcRow src e) k)) (fun k => W (ix2 k c))
    (fun _ => isReal_one) (fun e k => hH _) (fun k => hW _)
  simp only [one_mul] at hml
  rw [hml]
  exact sum_mul_real _ _ _
    (fun k => Cert.Algebra.isReal_masked_sum _ _ isReal_zero fun e => hH _) (fun k => hW _)
    (isReal_div isReal_one (isReal_degree dst i) (one_le_degree dst i))

/-! ### Real entries are kept -/

/-- The neighbour mean of real rows is real. -/
theorem isReal_mean128 (X : Fa S100000x128) (src dst : Ia S1600000) (hX : ∀ i, IsReal (X i))
    (hsrc : ∀ i, (-100000 : Int) ≤ (src i).toInt ∧ (src i).toInt < 100000) (i : Fin 100000) (k : Fin 128) :
    IsReal (mean128 X src dst (ix2 i k)) := by
  rw [mean128_apply X src dst hsrc]
  exact (Cert.Algebra.isReal_masked_sum _ _ isReal_zero fun e => hX _).mul
    (isReal_div isReal_one (isReal_degree dst i) (one_le_degree dst i))

theorem isReal_mean64 (X : Fa S100000x64) (src dst : Ia S1600000) (hX : ∀ i, IsReal (X i))
    (hsrc : ∀ i, (-100000 : Int) ≤ (src i).toInt ∧ (src i).toInt < 100000) (i : Fin 100000) (k : Fin 64) :
    IsReal (mean64 X src dst (ix2 i k)) := by
  rw [mean64_apply X src dst hsrc]
  exact (Cert.Algebra.isReal_masked_sum _ _ isReal_zero fun e => hX _).mul
    (isReal_div isReal_one (isReal_degree dst i) (one_le_degree dst i))

/-- A matrix product of arrays with real entries has real entries. -/
theorem isReal_dotGeneral {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : Fa ⟨2, ![M, K]⟩) (r : Fa ⟨2, ![K, N]⟩) (hl : ∀ i, IsReal (l i)) (hr : ∀ i, IsReal (r i)) (a : Fin M) (b : Fin N) :
    IsReal (Host.dotGeneral (F := Ideal) (φ₁ := .f32) (φ₂ := .f32) d none l r (ix2 a b)) := by
  rw [Cert.LibProduct.dotGeneral_apply d h1 h2 h3 h4 h5 h6]
  exact isReal_sum _ _ fun c _ => (hl _).mul (hr _)

/-- Every index of a rank-2 array is a pair of coordinates. -/
theorem forall_ix2 {a b : ℕ} {p : (⟨2, ![a, b]⟩ : Shape).Idx → Prop} (h : ∀ (r : Fin a) (q : Fin b), p (ix2 r q)) : ∀ i, p i := by
  intro i
  rw [eq_ix2 i]
  exact h _ _

/-- The first layer of the 128-wide branch keeps real entries. -/
theorem isReal_hidden128 (X : Fa S100000x128) (src dst : Ia S1600000) (Ws Wn : Fa S128x128) (b : Fa S128)
    (hX : ∀ i, IsReal (X i)) (hWs : ∀ i, IsReal (Ws i)) (hWn : ∀ i, IsReal (Wn i)) (hb : ∀ i, IsReal (b i))
    (hsrc : ∀ i, (-100000 : Int) ≤ (src i).toInt ∧ (src i).toInt < 100000) :
    ∀ i, IsReal (hidden128 X src dst Ws Wn b i) := by
  refine forall_ix2 fun r q => ?_
  unfold hidden128 relu128 bias128
  rw [maximumf_apply, addf_apply, addf_apply, Cert.LibRowVector.inDimRow_apply]
  refine Cert.Algebra.isReal_relu (((isReal_dotGeneral _ rfl rfl rfl rfl rfl rfl X Ws hX hWs r q).add
    (isReal_dotGeneral _ rfl rfl rfl rfl rfl rfl (mean128 X src dst) Wn
      (forall_ix2 fun i k => isReal_mean128 X src dst hX hsrc i k) hWn r q)).add (hb _))

/-- The first layer of the 64-wide branch keeps real entries. -/
theorem isReal_hidden64 (X : Fa S100000x64) (src dst : Ia S1600000) (Ws Wn : Fa S64x128) (b : Fa S128)
    (hX : ∀ i, IsReal (X i)) (hWs : ∀ i, IsReal (Ws i)) (hWn : ∀ i, IsReal (Wn i)) (hb : ∀ i, IsReal (b i))
    (hsrc : ∀ i, (-100000 : Int) ≤ (src i).toInt ∧ (src i).toInt < 100000) :
    ∀ i, IsReal (hidden64 X src dst Ws Wn b i) := by
  refine forall_ix2 fun r q => ?_
  unfold hidden64 relu128 bias128
  rw [maximumf_apply, addf_apply, addf_apply, Cert.LibRowVector.inDimRow_apply]
  refine Cert.Algebra.isReal_relu (((isReal_dotGeneral _ rfl rfl rfl rfl rfl rfl X Ws hX hWs r q).add
    (isReal_dotGeneral _ rfl rfl rfl rfl rfl rfl (mean64 X src dst) Wn
      (forall_ix2 fun i k => isReal_mean64 X src dst hX hsrc i k) hWn r q)).add (hb _))

end Cert.MeanLaw

end
-- ==== Proof.KerRun.lean ====
/-
  The kernel program's run with its result array named.

  The program is three kernel launches among stretches of host operations.  Every weakly fair execution terminates
  without a fault; the contents of every buffer at the end are the last boundary's contents, the fold of the host
  stretches and of the three launches' write-backs from the launch memory.  Read at the result buffer this names the
  result; read at the twenty argument buffers it gives them back unchanged.
-/
import proofs.«107267_j23845658427621_2_alg».proof.Proof.Gen.KernelIdeal.Frame

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents and the argument buffers as launched. -/
theorem run : θ_run defs (onTc (τ := τ) (main (F := F))) ⟨m, fun _ => 0, ρ⟩ (fun r => ∀ c : Dev nD,
      r.2.mem ((c.tc : Thread nD τ).loc main_v57) = W12 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v57 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.KerRun

end
-- ==== Proof.KerValue.lean ====
/-
  The kernel program's result array is the specification's network of the launch memory.

  Launch by launch: the first launch's operands are the 128-wide features, their neighbour means (the scaled neighbour
  sums are the neighbour sums divided by the clamped degree), and the first layer's parameters, so it leaves the
  rectified first layer and its projection through the second layer's neighbour weights; the second launch does the same
  for the 64-wide branch; the third launch's operands are the two hidden arrays, the two projections aggregated over the
  edges and scaled — which, all entries being real and every source word naming a row, are the neighbour means of the
  hidden arrays projected — and the remaining parameters, so it leaves the head of the two second layers.
-/
import proofs.«107267_j23845658427621_2_alg».proof.Proof.KerRead
import proofs.«107267_j23845658427621_2_alg».proof.Proof.Region0
import proofs.«107267_j23845658427621_2_alg».proof.Proof.Region1
import proofs.«107267_j23845658427621_2_alg».proof.Proof.Region2
import proofs.«107267_j23845658427621_2_alg».proof.Proof.MeanLaw2
import proofs.«107267_j23845658427621_2_alg».proof.Proof.PreFacts
import proofs.«107267_j23845658427621_2_alg».proof.Proof.KerRun
import proofs.«107267_j23845658427621_2_alg».proof.Defs

set_option maxRecDepth 16384

noncomputable section

namespace Cert.KerValue

open Idealize.ShloMosaic Idealize.ShloMosaic.TcCoe
open Idealize.SL Idealize.SL.Sem
open Cert.KernelIdeal Cert.KernelIdeal.Gen Cert.KerHost Cert.KerRead Cert.LibKept

variable [Cert.KernelIdeal.Facts] [Cert.ReferenceIdeal.Facts]

variable (m : (ℓ : Loc nD τ sig) → Buf (Elt Ideal) ℓ) (ρ : Dev nD → PrngReg) (c : Dev nD)

/-! ## One boundary to the next -/
theorem step1 (b : Ref sig .tc) (h : b ∉ L0) : W1 m ρ c (Proc.devRef .tc b) = W0 m ρ c (Proc.devRef .tc b) := kept hostOps0 L0 writes0 _ b h
theorem step2 (b : Ref sig .tc) (h : b ∉ L0_1) : W2 m ρ c (Proc.devRef .tc b) = W1 m ρ c (Proc.devRef .tc b) := kept hostOps0_1 L0_1 writes0_1 _ b h
theorem step3 (b : Ref sig .tc) (h : b ∉ L0_2) : W3 m ρ c (Proc.devRef .tc b) = W2 m ρ c (Proc.devRef .tc b) := kept hostOps0_2 L0_2 writes0_2 _ b h
theorem step4 (b : Ref sig .tc) (h : ∀ w, Pipeline.arrRef spec0 w ≠ b) : W4 m ρ c (Proc.devRef .tc b) = W3 m ρ c (Proc.devRef .tc b) := W4_of_ne m ρ c b h
theorem step5 (b : Ref sig .tc) (h : b ∉ L1) : W5 m ρ c (Proc.devRef .tc b) = W4 m ρ c (Proc.devRef .tc b) := kept hostOps1 L1 writes1 _ b h
theorem step6 (b : Ref sig .tc) (h : b ∉ L1_1) : W6 m ρ c (Proc.devRef .tc b) = W5 m ρ c (Proc.devRef .tc b) := kept hostOps1_1 L1_1 writes1_1 _ b h
theorem step7 (b : Ref sig .tc) (h : b ∉ L1_2) : W7 m ρ c (Proc.devRef .tc b) = W6 m ρ c (Proc.devRef .tc b) := kept hostOps1_2 L1_2 writes1_2 _ b h
theorem step8 (b : Ref sig .tc) (h : b ∉ L1_3) : W8 m ρ c (Proc.devRef .tc b) = W7 m ρ c (Proc.devRef .tc b) := kept hostOps1_3 L1_3 writes1_3 _ b h
theorem step9 (b : Ref sig .tc) (h : ∀ w, Pipeline.arrRef spec1 w ≠ b) : W9 m ρ c (Proc.devRef .tc b) = W8 m ρ c (Proc.devRef .tc b) := W9_of_ne m ρ c b h
theorem step10 (b : Ref sig .tc) (h : b ∉ L2) : W10 m ρ c (Proc.devRef .tc b) = W9 m ρ c (Proc.devRef .tc b) := kept hostOps2 L2 writes2 _ b h
theorem step11 (b : Ref sig .tc) (h : b ∉ L2_1) : W11 m ρ c (Proc.devRef .tc b) = W10 m ρ c (Proc.devRef .tc b) := kept hostOps2_1 L2_1 writes2_1 _ b h

/-! ## The per-node reciprocal, the source and the destination words at every boundary -/
theorem src_at1 : W1 m ρ c (Proc.devRef .tc main_arg2) = m ((c : Thread nD τ).loc main_arg2) := (step1 m ρ c main_arg2 (by decide)).trans rfl
theorem src_at2 : W2 m ρ c (Proc.devRef .tc main_arg2) = m ((c : Thread nD τ).loc main_arg2) := (step2 m ρ c main_arg2 (by decide)).trans (src_at1 m ρ c)
theorem src_at3 : W3 m ρ c (Proc.devRef .tc main_arg2) = m ((c : Thread nD τ).loc main_arg2) := (step3 m ρ c main_arg2 (by decide)).trans (src_at2 m ρ c)
theorem src_at4 : W4 m ρ c (Proc.devRef .tc main_arg2) = m ((c : Thread nD τ).loc main_arg2) := (step4 m ρ c main_arg2 (by decide)).trans (src_at3 m ρ c)
theorem src_at5 : W5 m ρ c (Proc.devRef .tc main_arg2) = m ((c : Thread nD τ).loc main_arg2) := (step5 m ρ c main_arg2 (by decide)).trans (src_at4 m ρ c)
theorem src_at6 : W6 m ρ c (Proc.devRef .tc main_arg2) = m ((c : Thread nD τ).loc main_arg2) := (step6 m ρ c main_arg2 (by decide)).trans (src_at5 m ρ c)
theorem src_at7 : W7 m ρ c (Proc.devRef .tc main_arg2) = m ((c : Thread nD τ).loc main_arg2) := (step7 m ρ c main_arg2 (by decide)).trans (src_at6 m ρ c)
theorem src_at8 : W8 m ρ c (Proc.devRef .tc main_arg2) = m ((c : Thread nD τ).loc main_arg2) := (step8 m ρ c main_arg2 (by decide)).trans (src_at7 m ρ c)
theorem src_at9 : W9 m ρ c (Proc.devRef .tc main_arg2) = m ((c : Thread nD τ).loc main_arg2) := (step9 m ρ c main_arg2 (by decide)).trans (src_at8 m ρ c)
theorem src_at10 : W10 m ρ c (Proc.devRef .tc main_arg2) = m ((c : Thread nD τ).loc main_arg2) := (step10 m ρ c main_arg2 (by decide)).trans (src_at9 m ρ c)
theorem dst_at1 : W1 m ρ c (Proc.devRef .tc main_arg3) = m ((c : Thread nD τ).loc main_arg3) := (step1 m ρ c main_arg3 (by decide)).trans rfl
theorem dst_at2 : W2 m ρ c (Proc.devRef .tc main_arg3) = m ((c : Thread nD τ).loc main_arg3) := (step2 m ρ c main_arg3 (by decide)).trans (dst_at1 m ρ c)
theorem dst_at3 : W3 m ρ c (Proc.devRef .tc main_arg3) = m ((c : Thread nD τ).loc main_arg3) := (step3 m ρ c main_arg3 (by decide)).trans (dst_at2 m ρ c)
theorem dst_at4 : W4 m ρ c (Proc.devRef .tc main_arg3) = m ((c : Thread nD τ).loc main_arg3) := (step4 m ρ c main_arg3 (by decide)).trans (dst_at3 m ρ c)
theorem dst_at5 : W5 m ρ c (Proc.devRef .tc main_arg3) = m ((c : Thread nD τ).loc main_arg3) := (step5 m ρ c main_arg3 (by decide)).trans (dst_at4 m ρ c)
theorem dst_at6 : W6 m ρ c (Proc.devRef .tc main_arg3) = m ((c : Thread nD τ).loc main_arg3) := (step6 m ρ c main_arg3 (by decide)).trans (dst_at5 m ρ c)
theorem dst_at7 : W7 m ρ c (Proc.devRef .tc main_arg3) = m ((c : Thread nD τ).loc main_arg3) := (step7 m ρ c main_arg3 (by decide)).trans (dst_at6 m ρ c)
theorem dst_at8 : W8 m ρ c (Proc.devRef .tc main_arg3) = m ((c : Thread nD τ).loc main_arg3) := (step8 m ρ c main_arg3 (by decide)).trans (dst_at7 m ρ c)
theorem dst_at9 : W9 m ρ c (Proc.devRef .tc main_arg3) = m ((c : Thread nD τ).loc main_arg3) := (step9 m ρ c main_arg3 (by decide)).trans (dst_at8 m ρ c)
theorem dst_at10 : W10 m ρ c (Proc.devRef .tc main_arg3) = m ((c : Thread nD τ).loc main_arg3) := (step10 m ρ c main_arg3 (by decide)).trans (dst_at9 m ρ c)
theorem recip_at1 : W1 m ρ c (Proc.devRef .tc main_v7) = recip (m ((c : Thread nD τ).loc main_arg3)) := read0_v7 (W0 m ρ c)
theorem recip_at2 : W2 m ρ c (Proc.devRef .tc main_v7) = recip (m ((c : Thread nD τ).loc main_arg3)) := (step2 m ρ c main_v7 (by decide)).trans (recip_at1 m ρ c)
theorem recip_at3 : W3 m ρ c (Proc.devRef .tc main_v7) = recip (m ((c : Thread nD τ).loc main_arg3)) := (step3 m ρ c main_v7 (by decide)).trans (recip_at2 m ρ c)
theorem recip_at4 : W4 m ρ c (Proc.devRef .tc main_v7) = recip (m ((c : Thread nD τ).loc main_arg3)) := (step4 m ρ c main_v7 (by decide)).trans (recip_at3 m ρ c)
theorem recip_at5 : W5 m ρ c (Proc.devRef .tc main_v7) = recip (m ((c : Thread nD τ).loc main_arg3)) := (step5 m ρ c main_v7 (by decide)).trans (recip_at4 m ρ c)
theorem recip_at6 : W6 m ρ c (Proc.devRef .tc main_v7) = recip (m ((c : Thread nD τ).loc main_arg3)) := (step6 m ρ c main_v7 (by decide)).trans (recip_at5 m ρ c)
theorem recip_at7 : W7 m ρ c (Proc.devRef .tc main_v7) = recip (m ((c : Thread nD τ).loc main_arg3)) := (step7 m ρ c main_v7 (by decide)).trans (recip_at6 m ρ c)
theorem recip_at8 : W8 m ρ c (Proc.devRef .tc main_v7) = recip (m ((c : Thread nD τ).loc main_arg3)) := (step8 m ρ c main_v7 (by decide)).trans (recip_at7 m ρ c)
theorem recip_at9 : W9 m ρ c (Proc.devRef .tc main_v7) = recip (m ((c : Thread nD τ).loc main_arg3)) := (step9 m ρ c main_v7 (by decide)).trans (recip_at8 m ρ c)
theorem recip_at10 : W10 m ρ c (Proc.devRef .tc main_v7) = recip (m ((c : Thread nD τ).loc main_arg3)) := (step10 m ρ c main_v7 (by decide)).trans (recip_at9 m ρ c)

/-! ## The arguments at the boundaries where a stretch reads them -/
theorem x_at1 : W1 m ρ c (Proc.devRef .tc main_arg0) = m ((c : Thread nD τ).loc main_arg0) := (step1 m ρ c main_arg0 (by decide)).trans rfl
theorem x_at2 : W2 m ρ c (Proc.devRef .tc main_arg0) = m ((c : Thread nD τ).loc main_arg0) := (step2 m ρ c main_arg0 (by decide)).trans (x_at1 m ρ c)
theorem x_at3 : W3 m ρ c (Proc.devRef .tc main_arg0) = m ((c : Thread nD τ).loc main_arg0) := (step3 m ρ c main_arg0 (by decide)).trans (x_at2 m ρ c)
theorem b1o_at1 : W1 m ρ c (Proc.devRef .tc main_arg6) = m ((c : Thread nD τ).loc main_arg6) := (step1 m ρ c main_arg6 (by decide)).trans rfl
theorem b1o_at2 : W2 m ρ c (Proc.devRef .tc main_arg6) = m ((c : Thread nD τ).loc main_arg6) := (step2 m ρ c main_arg6 (by decide)).trans (b1o_at1 m ρ c)
theorem xs_at1 : W1 m ρ c (Proc.devRef .tc main_arg1) = m ((c : Thread nD τ).loc main_arg1) := (step1 m ρ c main_arg1 (by decide)).trans rfl
theorem xs_at2 : W2 m ρ c (Proc.devRef .tc main_arg1) = m ((c : Thread nD τ).loc main_arg1) := (step2 m ρ c main_arg1 (by decide)).trans (xs_at1 m ρ c)
theorem xs_at3 : W3 m ρ c (Proc.devRef .tc main_arg1) = m ((c : Thread nD τ).loc main_arg1) := (step3 m ρ c main_arg1 (by decide)).trans (xs_at2 m ρ c)
theorem xs_at4 : W4 m ρ c (Proc.devRef .tc main_arg1) = m ((c : Thread nD τ).loc main_arg1) := (step4 m ρ c main_arg1 (by decide)).trans (xs_at3 m ρ c)
theorem xs_at5 : W5 m ρ c (Proc.devRef .tc main_arg1) = m ((c : Thread nD τ).loc main_arg1) := (step5 m ρ c main_arg1 (by decide)).trans (xs_at4 m ρ c)
theorem xs_at6 : W6 m ρ c (Proc.devRef .tc main_arg1) = m ((c : Thread nD τ).loc main_arg1) := (step6 m ρ c main_arg1 (by decide)).trans (xs_at5 m ρ c)
theorem xs_at7 : W7 m ρ c (Proc.devRef .tc main_arg1) = m ((c : Thread nD τ).loc main_arg1) := (step7 m ρ c main_arg1 (by decide)).trans (xs_at6 m ρ c)
theorem xs_at8 : W8 m ρ c (Proc.devRef .tc main_arg1) = m ((c : Thread nD τ).loc main_arg1) := (step8 m ρ c main_arg1 (by decide)).trans (xs_at7 m ρ c)
theorem b1s_at1 : W1 m ρ c (Proc.devRef .tc main_arg12) = m ((c : Thread nD τ).loc main_arg12) := (step1 m ρ c main_arg12 (by decide)).trans rfl
theorem b1s_at2 : W2 m ρ c (Proc.devRef .tc main_arg12) = m ((c : Thread nD τ).loc main_arg12) := (step2 m ρ c main_arg12 (by decide)).trans (b1s_at1 m ρ c)
theorem b1s_at3 : W3 m ρ c (Proc.devRef .tc main_arg12) = m ((c : Thread nD τ).loc main_arg12) := (step3 m ρ c main_arg12 (by decide)).trans (b1s_at2 m ρ c)
theorem b1s_at4 : W4 m ρ c (Proc.devRef .tc main_arg12) = m ((c : Thread nD τ).loc main_arg12) := (step4 m ρ c main_arg12 (by decide)).trans (b1s_at3 m ρ c)
theorem b1s_at5 : W5 m ρ c (Proc.devRef .tc main_arg12) = m ((c : Thread nD τ).loc main_arg12) := (step5 m ρ c main_arg12 (by decide)).trans (b1s_at4 m ρ c)
theorem b1s_at6 : W6 m ρ c (Proc.devRef .tc main_arg12) = m ((c : Thread nD τ).loc main_arg12) := (step6 m ρ c main_arg12 (by decide)).trans (b1s_at5 m ρ c)
theorem b1s_at7 : W7 m ρ c (Proc.devRef .tc main_arg12) = m ((c : Thread nD τ).loc main_arg12) := (step7 m ρ c main_arg12 (by decide)).trans (b1s_at6 m ρ c)
theorem b2o_at1 : W1 m ρ c (Proc.devRef .tc main_arg9) = m ((c : Thread nD τ).loc main_arg9) := (step1 m ρ c main_arg9 (by decide)).trans rfl
theorem b2o_at2 : W2 m ρ c (Proc.devRef .tc main_arg9) = m ((c : Thread nD τ).loc main_arg9) := (step2 m ρ c main_arg9 (by decide)).trans (b2o_at1 m ρ c)
theorem b2o_at3 : W3 m ρ c (Proc.devRef .tc main_arg9) = m ((c : Thread nD τ).loc main_arg9) := (step3 m ρ c main_arg9 (by decide)).trans (b2o_at2 m ρ c)
theorem b2o_at4 : W4 m ρ c (Proc.devRef .tc main_arg9) = m ((c : Thread nD τ).loc main_arg9) := (step4 m ρ c main_arg9 (by decide)).trans (b2o_at3 m ρ c)
theorem b2o_at5 : W5 m ρ c (Proc.devRef .tc main_arg9) = m ((c : Thread nD τ).loc main_arg9) := (step5 m ρ c main_arg9 (by decide)).trans (b2o_at4 m ρ c)
theorem b2o_at6 : W6 m ρ c (Proc.devRef .tc main_arg9) = m ((c : Thread nD τ).loc main_arg9) := (step6 m ρ c main_arg9 (by decide)).trans (b2o_at5 m ρ c)
theorem b2o_at7 : W7 m ρ c (Proc.devRef .tc main_arg9) = m ((c : Thread nD τ).loc main_arg9) := (step7 m ρ c main_arg9 (by decide)).trans (b2o_at6 m ρ c)
theorem b2o_at8 : W8 m ρ c (Proc.devRef .tc main_arg9) = m ((c : Thread nD τ).loc main_arg9) := (step8 m ρ c main_arg9 (by decide)).trans (b2o_at7 m ρ c)
theorem b2o_at9 : W9 m ρ c (Proc.devRef .tc main_arg9) = m ((c : Thread nD τ).loc main_arg9) := (step9 m ρ c main_arg9 (by decide)).trans (b2o_at8 m ρ c)
theorem b2o_at10 : W10 m ρ c (Proc.devRef .tc main_arg9) = m ((c : Thread nD τ).loc main_arg9) := (step10 m ρ c main_arg9 (by decide)).trans (b2o_at9 m ρ c)
theorem b2s_at1 : W1 m ρ c (Proc.devRef .tc main_arg15) = m ((c : Thread nD τ).loc main_arg15) := (step1 m ρ c main_arg15 (by decide)).trans rfl
theorem b2s_at2 : W2 m ρ c (Proc.devRef .tc main_arg15) = m ((c : Thread nD τ).loc main_arg15) := (step2 m ρ c main_arg15 (by decide)).trans (b2s_at1 m ρ c)
theorem b2s_at3 : W3 m ρ c (Proc.devRef .tc main_arg15) = m ((c : Thread nD τ).loc main_arg15) := (step3 m ρ c main_arg15 (by decide)).trans (b2s_at2 m ρ c)
theorem b2s_at4 : W4 m ρ c (Proc.devRef .tc main_arg15) = m ((c : Thread nD τ).loc main_arg15) := (step4 m ρ c main_arg15 (by decide)).trans (b2s_at3 m ρ c)
theorem b2s_at5 : W5 m ρ c (Proc.devRef .tc main_arg15) = m ((c : Thread nD τ).loc main_arg15) := (step5 m ρ c main_arg15 (by decide)).trans (b2s_at4 m ρ c)
theorem b2s_at6 : W6 m ρ c (Proc.devRef .tc main_arg15) = m ((c : Thread nD τ).loc main_arg15) := (step6 m ρ c main_arg15 (by decide)).trans (b2s_at5 m ρ c)
theorem b2s_at7 : W7 m ρ c (Proc.devRef .tc main_arg15) = m ((c : Thread nD τ).loc main_arg15) := (step7 m ρ c main_arg15 (by decide)).trans (b2s_at6 m ρ c)
theorem b2s_at8 : W8 m ρ c (Proc.devRef .tc main_arg15) = m ((c : Thread nD τ).loc main_arg15) := (step8 m ρ c main_arg15 (by decide)).trans (b2s_at7 m ρ c)
theorem b2s_at9 : W9 m ρ c (Proc.devRef .tc main_arg15) = m ((c : Thread nD τ).loc main_arg15) := (step9 m ρ c main_arg15 (by decide)).trans (b2s_at8 m ρ c)
theorem b2s_at10 : W10 m ρ c (Proc.devRef .tc main_arg15) = m ((c : Thread nD τ).loc main_arg15) := (step10 m ρ c main_arg15 (by decide)).trans (b2s_at9 m ρ c)
theorem bm1_at1 : W1 m ρ c (Proc.devRef .tc main_arg17) = m ((c : Thread nD τ).loc main_arg17) := (step1 m ρ c main_arg17 (by decide)).trans rfl
theorem bm1_at2 : W2 m ρ c (Proc.devRef .tc main_arg17) = m ((c : Thread nD τ).loc main_arg17) := (step2 m ρ c main_arg17 (by decide)).trans (bm1_at1 m ρ c)
theorem bm1_at3 : W3 m ρ c (Proc.devRef .tc main_arg17) = m ((c : Thread nD τ).loc main_arg17) := (step3 m ρ c main_arg17 (by decide)).trans (bm1_at2 m ρ c)
theorem bm1_at4 : W4 m ρ c (Proc.devRef .tc main_arg17) = m ((c : Thread nD τ).loc main_arg17) := (step4 m ρ c main_arg17 (by decide)).trans (bm1_at3 m ρ c)
theorem bm1_at5 : W5 m ρ c (Proc.devRef .tc main_arg17) = m ((c : Thread nD τ).loc main_arg17) := (step5 m ρ c main_arg17 (by decide)).trans (bm1_at4 m ρ c)
theorem bm1_at6 : W6 m ρ c (Proc.devRef .tc main_arg17) = m ((c : Thread nD τ).loc main_arg17) := (step6 m ρ c main_arg17 (by decide)).trans (bm1_at5 m ρ c)
theorem bm1_at7 : W7 m ρ c (Proc.devRef .tc main_arg17) = m ((c : Thread nD τ).loc main_arg17) := (step7 m ρ c main_arg17 (by decide)).trans (bm1_at6 m ρ c)
theorem bm1_at8 : W8 m ρ c (Proc.devRef .tc main_arg17) = m ((c : Thread nD τ).loc main_arg17) := (step8 m ρ c main_arg17 (by decide)).trans (bm1_at7 m ρ c)
theorem bm1_at9 : W9 m ρ c (Proc.devRef .tc main_arg17) = m ((c : Thread nD τ).loc main_arg17) := (step9 m ρ c main_arg17 (by decide)).trans (bm1_at8 m ρ c)
theorem bm1_at10 : W10 m ρ c (Proc.devRef .tc main_arg17) = m ((c : Thread nD τ).loc main_arg17) := (step10 m ρ c main_arg17 (by decide)).trans (bm1_at9 m ρ c)
theorem bm2_at1 : W1 m ρ c (Proc.devRef .tc main_arg19) = m ((c : Thread nD τ).loc main_arg19) := (step1 m ρ c main_arg19 (by decide)).trans rfl
theorem bm2_at2 : W2 m ρ c (Proc.devRef .tc main_arg19) = m ((c : Thread nD τ).loc main_arg19) := (step2 m ρ c main_arg19 (by decide)).trans (bm2_at1 m ρ c)
theorem bm2_at3 : W3 m ρ c (Proc.devRef .tc main_arg19) = m ((c : Thread nD τ).loc main_arg19) := (step3 m ρ c main_arg19 (by decide)).trans (bm2_at2 m ρ c)
theorem bm2_at4 : W4 m ρ c (Proc.devRef .tc main_arg19) = m ((c : Thread nD τ).loc main_arg19) := (step4 m ρ c main_arg19 (by decide)).trans (bm2_at3 m ρ c)
theorem bm2_at5 : W5 m ρ c (Proc.devRef .tc main_arg19) = m ((c : Thread nD τ).loc main_arg19) := (step5 m ρ c main_arg19 (by decide)).trans (bm2_at4 m ρ c)
theorem bm2_at6 : W6 m ρ c (Proc.devRef .tc main_arg19) = m ((c : Thread nD τ).loc main_arg19) := (step6 m ρ c main_arg19 (by decide)).trans (bm2_at5 m ρ c)
theorem bm2_at7 : W7 m ρ c (Proc.devRef .tc main_arg19) = m ((c : Thread nD τ).loc main_arg19) := (step7 m ρ c main_arg19 (by decide)).trans (bm2_at6 m ρ c)
theorem bm2_at8 : W8 m ρ c (Proc.devRef .tc main_arg19) = m ((c : Thread nD τ).loc main_arg19) := (step8 m ρ c main_arg19 (by decide)).trans (bm2_at7 m ρ c)
theorem bm2_at9 : W9 m ρ c (Proc.devRef .tc main_arg19) = m ((c : Thread nD τ).loc main_arg19) := (step9 m ρ c main_arg19 (by decide)).trans (bm2_at8 m ρ c)
theorem bm2_at10 : W10 m ρ c (Proc.devRef .tc main_arg19) = m ((c : Thread nD τ).loc main_arg19) := (step10 m ρ c main_arg19 (by decide)).trans (bm2_at9 m ρ c)

/-! ## The first launch -/

theorem l0_nb : V3 m ρ c main_v27 = Cert.RefSpec.mean128 (m ((c : Thread nD τ).loc main_arg0)) (m ((c : Thread nD τ).loc main_arg2)) (m ((c : Thread nD τ).loc main_arg3)) := by
  have e21 : W2 m ρ c (Proc.devRef .tc main_v21) = Cert.RefSpec.take128 (m ((c : Thread nD τ).loc main_arg0)) (m ((c : Thread nD τ).loc main_arg2)) :=
    (read0_1_v21 (W1 m ρ c)).trans (by rw [x_at1, src_at1])
  refine (read0_2_v27 (W2 m ρ c)).trans ?_
  rw [e21, dst_at2, recip_at2]
  exact (Cert.MeanLaw.mean128_eq_scaled _ _ _).symm
theorem l0_ws : W3 m ρ c (Proc.devRef .tc main_v8) = truncf (F := Ideal) .bf16 (m ((c : Thread nD τ).loc main_arg4)) Gen.bitsLt_bf16_f32 :=
  ((step3 m ρ c main_v8 (by decide)).trans (step2 m ρ c main_v8 (by decide))).trans (read0_v8 (W0 m ρ c))
theorem l0_wn : W3 m ρ c (Proc.devRef .tc main_v9) = truncf (F := Ideal) .bf16 (m ((c : Thread nD τ).loc main_arg5)) Gen.bitsLt_bf16_f32 :=
  ((step3 m ρ c main_v9 (by decide)).trans (step2 m ρ c main_v9 (by decide))).trans (read0_v9 (W0 m ρ c))
theorem l0_w2 : W3 m ρ c (Proc.devRef .tc main_v10) = truncf (F := Ideal) .bf16 (m ((c : Thread nD τ).loc main_arg8)) Gen.bitsLt_bf16_f32 :=
  ((step3 m ρ c main_v10 (by decide)).trans (step2 m ρ c main_v10 (by decide))).trans (read0_v10 (W0 m ρ c))
theorem l0_b : W3 m ρ c (Proc.devRef .tc main_v28) = shapeCast S1x128 (m ((c : Thread nD τ).loc main_arg6)) Gen.shapeCasts_S128_S1x128 :=
  (read0_2_v28 (W2 m ρ c)).trans (by rw [b1o_at2])

/-- The first launch leaves the 128-wide branch's rectified first layer … -/
theorem hidden_o : W4 m ρ c (Proc.devRef .tc main_v29_0) = (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) :=
  (W4_arr m ρ c 6).trans ((Cert.Region0.arr_hidden (V3 m ρ) (m ((c : Thread nD τ).loc main_arg4)) (m ((c : Thread nD τ).loc main_arg5)) (m ((c : Thread nD τ).loc main_arg6)) c (l0_ws m ρ c) (l0_wn m ρ c) (l0_b m ρ c)).trans
    (by rw [show V3 m ρ c main_arg0 = (m ((c : Thread nD τ).loc main_arg0)) from x_at3 m ρ c, l0_nb m ρ c]; rfl))

/-- … and its projection through the second layer's neighbour weights. -/
theorem projected_o : W4 m ρ c (Proc.devRef .tc main_v29_1) = (Host.dotGeneral (F := Ideal) (φ₁ := .f32) (φ₂ := .f32) Cert.ReferenceIdeal.dot_S100000x128_S128x32_S100000x32_1_0_0_1_n_n none (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg8))) :=
  (W4_arr m ρ c 7).trans ((Cert.Region0.arr_projected (V3 m ρ) (m ((c : Thread nD τ).loc main_arg4)) (m ((c : Thread nD τ).loc main_arg5)) (m ((c : Thread nD τ).loc main_arg6)) (m ((c : Thread nD τ).loc main_arg8)) c (l0_ws m ρ c) (l0_wn m ρ c) (l0_b m ρ c) (l0_w2 m ρ c)).trans
    (by rw [show V3 m ρ c main_arg0 = (m ((c : Thread nD τ).loc main_arg0)) from x_at3 m ρ c, l0_nb m ρ c]; rfl))

/-! ## The second launch -/

theorem l1_nb : V8 m ρ c main_v43 = Cert.RefSpec.mean64 (m ((c : Thread nD τ).loc main_arg1)) (m ((c : Thread nD τ).loc main_arg2)) (m ((c : Thread nD τ).loc main_arg3)) := by
  have e37 : W7 m ρ c (Proc.devRef .tc main_v37) = Cert.RefSpec.take64 (m ((c : Thread nD τ).loc main_arg1)) (m ((c : Thread nD τ).loc main_arg2)) :=
    (read1_2_v37 (W6 m ρ c)).trans (by rw [xs_at6, src_at6])
  refine (read1_3_v43 (W7 m ρ c)).trans ?_
  rw [e37, dst_at7, recip_at7]
  exact (Cert.MeanLaw.mean64_eq_scaled _ _ _).symm
theorem l1_ws : W8 m ρ c (Proc.devRef .tc main_v12) = truncf (F := Ideal) .bf16 (m ((c : Thread nD τ).loc main_arg10)) Gen.bitsLt_bf16_f32 :=
  (((((((step8 m ρ c main_v12 (by decide)).trans (step7 m ρ c main_v12 (by decide))).trans (step6 m ρ c main_v12 (by decide))).trans (step5 m ρ c main_v12 (by decide))).trans (step4 m ρ c main_v12 (by decide))).trans (step3 m ρ c main_v12 (by decide))).trans (step2 m ρ c main_v12 (by decide))).trans (read0_v12 (W0 m ρ c))
theorem l1_wn : W8 m ρ c (Proc.devRef .tc main_v13) = truncf (F := Ideal) .bf16 (m ((c : Thread nD τ).loc main_arg11)) Gen.bitsLt_bf16_f32 :=
  (((((((step8 m ρ c main_v13 (by decide)).trans (step7 m ρ c main_v13 (by decide))).trans (step6 m ρ c main_v13 (by decide))).trans (step5 m ρ c main_v13 (by decide))).trans (step4 m ρ c main_v13 (by decide))).trans (step3 m ρ c main_v13 (by decide))).trans (step2 m ρ c main_v13 (by decide))).trans (read0_v13 (W0 m ρ c))
theorem l1_w2 : W8 m ρ c (Proc.devRef .tc main_v14) = truncf (F := Ideal) .bf16 (m ((c : Thread nD τ).loc main_arg14)) Gen.bitsLt_bf16_f32 :=
  (((((((step8 m ρ c main_v14 (by decide)).trans (step7 m ρ c main_v14 (by decide))).trans (step6 m ρ c main_v14 (by decide))).trans (step5 m ρ c main_v14 (by decide))).trans (step4 m ρ c main_v14 (by decide))).trans (step3 m ρ c main_v14 (by decide))).trans (step2 m ρ c main_v14 (by decide))).trans (read0_v14 (W0 m ρ c))
theorem l1_b : W8 m ρ c (Proc.devRef .tc main_v44) = shapeCast S1x128 (m ((c : Thread nD τ).loc main_arg12)) Gen.shapeCasts_S128_S1x128 :=
  (read1_3_v44 (W7 m ρ c)).trans (by rw [b1s_at7])

theorem hidden_s : W9 m ρ c (Proc.devRef .tc main_v45_0) = (Cert.RefSpec.hidden64 (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))) :=
  (W9_arr m ρ c 6).trans ((Cert.Region1.arr_hidden (V8 m ρ) (m ((c : Thread nD τ).loc main_arg10)) (m ((c : Thread nD τ).loc main_arg11)) (m ((c : Thread nD τ).loc main_arg12)) c (l1_ws m ρ c) (l1_wn m ρ c) (l1_b m ρ c)).trans
    (by rw [show V8 m ρ c main_arg1 = (m ((c : Thread nD τ).loc main_arg1)) from xs_at8 m ρ c, l1_nb m ρ c]; rfl))

theorem projected_s : W9 m ρ c (Proc.devRef .tc main_v45_1) = (Host.dotGeneral (F := Ideal) (φ₁ := .f32) (φ₂ := .f32) Cert.ReferenceIdeal.dot_S100000x128_S128x32_S100000x32_1_0_0_1_n_n none (Cert.RefSpec.hidden64 (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))) (m ((c : Thread nD τ).loc main_arg14))) :=
  (W9_arr m ρ c 7).trans ((Cert.Region1.arr_projected (V8 m ρ) (m ((c : Thread nD τ).loc main_arg10)) (m ((c : Thread nD τ).loc main_arg11)) (m ((c : Thread nD τ).loc main_arg12)) (m ((c : Thread nD τ).loc main_arg14)) c (l1_ws m ρ c) (l1_wn m ρ c) (l1_b m ρ c) (l1_w2 m ρ c)).trans
    (by rw [show V8 m ρ c main_arg1 = (m ((c : Thread nD τ).loc main_arg1)) from xs_at8 m ρ c, l1_nb m ρ c]; rfl))

/-! ## The third launch -/

/-- What the precondition gives: every float entry real, every source word naming a row (possibly from the end). -/
abbrev Decoded : Prop := Cert.PreFacts.Decoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

variable (hd : Decoded m c)

theorem l2_ho : W11 m ρ c (Proc.devRef .tc main_v29_0) = (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) :=
  (((((((step11 m ρ c main_v29_0 (by decide)).trans (step10 m ρ c main_v29_0 (by decide))).trans (step9 m ρ c main_v29_0 (by decide))).trans (step8 m ρ c main_v29_0 (by decide))).trans (step7 m ρ c main_v29_0 (by decide))).trans (step6 m ρ c main_v29_0 (by decide))).trans (step5 m ρ c main_v29_0 (by decide))).trans (hidden_o m ρ c)
theorem l2_hs : W11 m ρ c (Proc.devRef .tc main_v45_0) = (Cert.RefSpec.hidden64 (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))) :=
  ((step11 m ρ c main_v45_0 (by decide)).trans (step10 m ρ c main_v45_0 (by decide))).trans (hidden_s m ρ c)

include hd in
/-- The projection aggregated over the edges and scaled is the neighbour mean projected: 128-wide branch. -/
theorem l2_po : W11 m ρ c (Proc.devRef .tc main_v36) = (Host.dotGeneral (F := Ideal) (φ₁ := .f32) (φ₂ := .f32) Cert.ReferenceIdeal.dot_S100000x128_S128x32_S100000x32_1_0_0_1_n_n none (Cert.RefSpec.mean128 (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg2)) (m ((c : Thread nD τ).loc main_arg3))) (m ((c : Thread nD τ).loc main_arg8))) := by
  have e30 : W5 m ρ c (Proc.devRef .tc main_v30) = take32 (Host.dotGeneral (F := Ideal) (φ₁ := .f32) (φ₂ := .f32) Cert.ReferenceIdeal.dot_S100000x128_S128x32_S100000x32_1_0_0_1_n_n none (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg8))) (m ((c : Thread nD τ).loc main_arg2)) :=
    (read1_v30 (W4 m ρ c)).trans (by rw [projected_o, src_at4])
  have e36 : W6 m ρ c (Proc.devRef .tc main_v36) = mulf (F := Ideal) (φ := .f32) (agg32 (take32 (Host.dotGeneral (F := Ideal) (φ₁ := .f32) (φ₂ := .f32) Cert.ReferenceIdeal.dot_S100000x128_S128x32_S100000x32_1_0_0_1_n_n none (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg8))) (m ((c : Thread nD τ).loc main_arg2))) (m ((c : Thread nD τ).loc main_arg3))) (cols32 (recip (m ((c : Thread nD τ).loc main_arg3)))) :=
    (read1_1_v36 (W5 m ρ c)).trans (by rw [e30, dst_at5, recip_at5])
  refine (((((step11 m ρ c main_v36 (by decide)).trans (step10 m ρ c main_v36 (by decide))).trans (step9 m ρ c main_v36 (by decide))).trans (step8 m ρ c main_v36 (by decide))).trans (step7 m ρ c main_v36 (by decide))).trans (e36.trans ?_)
  exact Cert.MeanLaw.project_then_mean gather_S100000x32_S1600000x1_S1600000x32_1_0_n_n_0_1_132 rfl rfl rfl rfl rfl rfl rfl
      scatter_S100000x32_S1600000x1_S1600000x32_1_0_0_1 rfl rfl rfl rfl
      Gen.bcast_S1600000_S1600000x32_0 Gen.bcast_S_S1600000x32 Gen.bcast_S_S100000x32 Gen.bcast_S100000x1_S100000x32_0_1
    (Cert.RefSpec.hidden128 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg8)) (m ((c : Thread nD τ).loc main_arg2)) (m ((c : Thread nD τ).loc main_arg3))
    (Cert.MeanLaw.isReal_hidden128 _ _ _ _ _ _ hd.real0 hd.real4 hd.real5 hd.real6 hd.src_range) hd.real8 hd.src_range

include hd in
/-- The same for the 64-wide branch. -/
theorem l2_ps : W11 m ρ c (Proc.devRef .tc main_v52) = (Host.dotGeneral (F := Ideal) (φ₁ := .f32) (φ₂ := .f32) Cert.ReferenceIdeal.dot_S100000x128_S128x32_S100000x32_1_0_0_1_n_n none (Cert.RefSpec.mean128 (Cert.RefSpec.hidden64 (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))) (m ((c : Thread nD τ).loc main_arg2)) (m ((c : Thread nD τ).loc main_arg3))) (m ((c : Thread nD τ).loc main_arg14))) := by
  have e46 : W10 m ρ c (Proc.devRef .tc main_v46) = take32 (Host.dotGeneral (F := Ideal) (φ₁ := .f32) (φ₂ := .f32) Cert.ReferenceIdeal.dot_S100000x128_S128x32_S100000x32_1_0_0_1_n_n none (Cert.RefSpec.hidden64 (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))) (m ((c : Thread nD τ).loc main_arg14))) (m ((c : Thread nD τ).loc main_arg2)) :=
    (read2_v46 (W9 m ρ c)).trans (by rw [projected_s, src_at9])
  refine (read2_1_v52 (W10 m ρ c)).trans ?_
  rw [e46, dst_at10, recip_at10]
  exact Cert.MeanLaw.project_then_mean gather_S100000x32_S1600000x1_S1600000x32_1_0_n_n_0_1_132 rfl rfl rfl rfl rfl rfl rfl
      scatter_S100000x32_S1600000x1_S1600000x32_1_0_0_1 rfl rfl rfl rfl
      Gen.bcast_S1600000_S1600000x32_0 Gen.bcast_S_S1600000x32 Gen.bcast_S_S100000x32 Gen.bcast_S100000x1_S100000x32_0_1
    (Cert.RefSpec.hidden64 (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))) (m ((c : Thread nD τ).loc main_arg14)) (m ((c : Thread nD τ).loc main_arg2)) (m ((c : Thread nD τ).loc main_arg3))
    (Cert.MeanLaw.isReal_hidden64 _ _ _ _ _ _ hd.real1 hd.real10 hd.real11 hd.real12 hd.src_range) hd.real14 hd.src_range

theorem l2_w2o : W11 m ρ c (Proc.devRef .tc main_v11) = truncf (F := Ideal) .bf16 (m ((c : Thread nD τ).loc main_arg7)) Gen.bitsLt_bf16_f32 :=
  ((((((((((step11 m ρ c main_v11 (by decide)).trans (step10 m ρ c main_v11 (by decide))).trans (step9 m ρ c main_v11 (by decide))).trans (step8 m ρ c main_v11 (by decide))).trans (step7 m ρ c main_v11 (by decide))).trans (step6 m ρ c main_v11 (by decide))).trans (step5 m ρ c main_v11 (by decide))).trans (step4 m ρ c main_v11 (by decide))).trans (step3 m ρ c main_v11 (by decide))).trans (step2 m ρ c main_v11 (by decide))).trans (read0_v11 (W0 m ρ c))
theorem l2_w2s : W11 m ρ c (Proc.devRef .tc main_v15) = truncf (F := Ideal) .bf16 (m ((c : Thread nD τ).loc main_arg13)) Gen.bitsLt_bf16_f32 :=
  ((((((((((step11 m ρ c main_v15 (by decide)).trans (step10 m ρ c main_v15 (by decide))).trans (step9 m ρ c main_v15 (by decide))).trans (step8 m ρ c main_v15 (by decide))).trans (step7 m ρ c main_v15 (by decide))).trans (step6 m ρ c main_v15 (by decide))).trans (step5 m ρ c main_v15 (by decide))).trans (step4 m ρ c main_v15 (by decide))).trans (step3 m ρ c main_v15 (by decide))).trans (step2 m ρ c main_v15 (by decide))).trans (read0_v15 (W0 m ρ c))
theorem l2_wm2 : W11 m ρ c (Proc.devRef .tc main_v20) = truncf (F := Ideal) .bf16 (m ((c : Thread nD τ).loc main_arg18)) Gen.bitsLt_bf16_f32 :=
  ((((((((((step11 m ρ c main_v20 (by decide)).trans (step10 m ρ c main_v20 (by decide))).trans (step9 m ρ c main_v20 (by decide))).trans (step8 m ρ c main_v20 (by decide))).trans (step7 m ρ c main_v20 (by decide))).trans (step6 m ρ c main_v20 (by decide))).trans (step5 m ρ c main_v20 (by decide))).trans (step4 m ρ c main_v20 (by decide))).trans (step3 m ρ c main_v20 (by decide))).trans (step2 m ρ c main_v20 (by decide))).trans (read0_v20 (W0 m ρ c))
theorem l2_wm1a : W11 m ρ c (Proc.devRef .tc main_v18)
    = truncf (F := Ideal) .bf16 (extractStridedSlice S32x256 ![0, 0] (m ((c : Thread nD τ).loc main_arg16)) Gen.slices_S64x256_S32x256_0_0) Gen.bitsLt_bf16_f32 :=
  ((((((((((step11 m ρ c main_v18 (by decide)).trans (step10 m ρ c main_v18 (by decide))).trans (step9 m ρ c main_v18 (by decide))).trans (step8 m ρ c main_v18 (by decide))).trans (step7 m ρ c main_v18 (by decide))).trans (step6 m ρ c main_v18 (by decide))).trans (step5 m ρ c main_v18 (by decide))).trans (step4 m ρ c main_v18 (by decide))).trans (step3 m ρ c main_v18 (by decide))).trans (step2 m ρ c main_v18 (by decide))).trans (read0_v18 (W0 m ρ c))
theorem l2_wm1b : W11 m ρ c (Proc.devRef .tc main_v19)
    = truncf (F := Ideal) .bf16 (extractStridedSlice S32x256 ![32, 0] (m ((c : Thread nD τ).loc main_arg16)) Gen.slices_S64x256_S32x256_32_0) Gen.bitsLt_bf16_f32 :=
  ((((((((((step11 m ρ c main_v19 (by decide)).trans (step10 m ρ c main_v19 (by decide))).trans (step9 m ρ c main_v19 (by decide))).trans (step8 m ρ c main_v19 (by decide))).trans (step7 m ρ c main_v19 (by decide))).trans (step6 m ρ c main_v19 (by decide))).trans (step5 m ρ c main_v19 (by decide))).trans (step4 m ρ c main_v19 (by decide))).trans (step3 m ρ c main_v19 (by decide))).trans (step2 m ρ c main_v19 (by decide))).trans (read0_v19 (W0 m ρ c))
theorem l2_b2o : W11 m ρ c (Proc.devRef .tc main_v53) = shapeCast S1x32 (m ((c : Thread nD τ).loc main_arg9)) Gen.shapeCasts_S32_S1x32 :=
  (read2_1_v53 (W10 m ρ c)).trans (by rw [b2o_at10])
theorem l2_b2s : W11 m ρ c (Proc.devRef .tc main_v54) = shapeCast S1x32 (m ((c : Thread nD τ).loc main_arg15)) Gen.shapeCasts_S32_S1x32 :=
  (read2_1_v54 (W10 m ρ c)).trans (by rw [b2s_at10])
theorem l2_bm1 : W11 m ρ c (Proc.devRef .tc main_v55) = shapeCast S1x256 (m ((c : Thread nD τ).loc main_arg17)) Gen.shapeCasts_S256_S1x256 :=
  (read2_1_v55 (W10 m ρ c)).trans (by rw [bm1_at10])
theorem l2_bm2 : W11 m ρ c (Proc.devRef .tc main_v56) = shapeCast S1x32 (m ((c : Thread nD τ).loc main_arg19)) Gen.shapeCasts_S32_S1x32 :=
  (read2_1_v56 (W10 m ρ c)).trans (by rw [bm2_at10])

include hd in
/-- THE RESULT ARRAY of the kernel program is the specification's network of the launch memory. -/
theorem result_eq : W12 m ρ c (Proc.devRef .tc main_v57) = Cert.RefSpec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) :=
  (W12_arr m ρ c 13).trans ((Cert.Region2.arr_result (V11 m ρ) (m ((c : Thread nD τ).loc main_arg7)) (m ((c : Thread nD τ).loc main_arg9)) (m ((c : Thread nD τ).loc main_arg13)) (m ((c : Thread nD τ).loc main_arg15)) (m ((c : Thread nD τ).loc main_arg16)) (m ((c : Thread nD τ).loc main_arg17)) (m ((c : Thread nD τ).loc main_arg18)) (m ((c : Thread nD τ).loc main_arg19)) c
      (l2_w2o m ρ c) (l2_b2o m ρ c) (l2_w2s m ρ c) (l2_b2s m ρ c) (l2_wm1a m ρ c) (l2_wm1b m ρ c) (l2_bm1 m ρ c) (l2_wm2 m ρ c) (l2_bm2 m ρ c)).trans
    (by rw [show V11 m ρ c main_v29_0 = _ from l2_ho m ρ c, show V11 m ρ c main_v36 = _ from l2_po m ρ c hd,
          show V11 m ρ c main_v45_0 = _ from l2_hs m ρ c, show V11 m ρ c main_v52 = _ from l2_ps m ρ c hd]; rfl))

/-! ## The run -/

variable [Cert.Pre_finite_inputs.Facts]

/-- THE KERNEL PROGRAM'S RUN under the precondition: every weakly fair execution terminates, nothing faulting, with the
    result array at the specification's network of the launch memory and the twenty arguments unchanged. -/
theorem run (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v57) = Cert.RefSpec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono
    (fun r h c => ⟨(h c).1.trans (result_eq m ρ c
        (Cert.PreFacts.of_pre _ _ _ _ _ _ _ _ _ _ _ _ _ _ _ _ _ _ _ _ (hpre c))), (h c).2⟩)
    (Cert.KerRun.run (F := Ideal) m ρ)

end Cert.KerValue

end
-- ==== Proof.RefRun.lean ====
/-
  The reference program's run, read back.

  Once each called function's operations stand in the place of its call (the row lookup, which itself calls the
  three-way choice; the rectifier), the reference's @main is a straight line of 198 host operations.  The line is cut
  into five consecutive blocks, one per stage of the network: the two layers of the 128-wide branch, the two layers of
  the 64-wide branch, the head.  Every weakly fair execution of @main terminates with each buffer at the fold of the
  line over the launch contents; each block's result buffer is then read as the matching stage of the network applied
  to the buffers the block reads, the buffers a block does not write pass through it unchanged, and the five readings
  compose to the whole network applied to the twenty arguments.
-/
import proofs.«107267_j23845658427621_2_alg».proof.ReferenceIdeal
import proofs.«107267_j23845658427621_2_alg».proof.Proof.RefSpec
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The first layer of the 128-wide branch: the source rows of the first feature array looked up per edge, added into the destination rows and divided by the clamped in-degree, the two matrix products and the bias, the rectifier. Operations 1 … 48 of 198. -/
abbrev blkA : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (StableHlo.TRef.of (T := ⟨S1600000, .i32⟩) main_arg2) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (StableHlo.TRef.of (T := ⟨S1600000, .i32⟩) main_arg2) main_call0.v2 main_call0.v3 addi,
    StableHlo.TRef.ternary main_call0.v1 main_call0.v3 (StableHlo.TRef.of (T := ⟨S1600000, .i32⟩) main_arg2) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (StableHlo.TRef.of (T := ⟨S100000x128, .f32⟩) main_arg0) main_call0.v5 main_call0.v13 (fun x i => Host.gather gather_S100000x128_S1600000x1_S1600000x128_1_0_n_n_0_1_1128 x i),
    StableHlo.TRef.unary main_call0.v12 main_call0.v14 (broadcastInDim S1600000x128 ![0] bcast_S1600000_S1600000x128_0),
    StableHlo.TRef.nullary main_call0.cst (constant S_ .f32 0x7FC00000#32),
    StableHlo.TRef.unary main_call0.cst main_call0.v15 (broadcastInDim S1600000x128 ![] bcast_S_S1600000x128),
    StableHlo.TRef.ternary main_call0.v14 main_call0.v13 main_call0.v15 main_call0.v16 select,
    StableHlo.nullary main_cst (constant S_ .f32 0x00000000#32),
    StableHlo.unary main_cst main_v1 (broadcastInDim S100000x128 ![] bcast_S_S100000x128 : (⟨S_, .f32⟩ : BufTy).Contents (Elt F) → (⟨S100000x128, .f32⟩ : BufTy).Contents (Elt F)),
    StableHlo.unary main_arg3 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_0 (constant S_ .f32 0x3F800000#32),
    StableHlo.unary main_cst_0 main_v4 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v5 (broadcastInDim S100000 ![] bcast_S_S100000 : (⟨S_, .f32⟩ : BufTy).Contents (Elt F) → (⟨S100000, .f32⟩ : BufTy).Contents (Elt F)),
    StableHlo.unary main_arg3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.unary main_v9 main_v10 (broadcastInDim S100000x1 ![0] bcast_S100000_S100000x1_0 : (⟨S100000, .f32⟩ : BufTy).Contents (Elt F) → (⟨S100000x1, .f32⟩ : BufTy).Contents (Elt F)),
    StableHlo.unary main_v10 main_v11 (broadcastInDim S100000x128 ![0, 1] bcast_S100000x1_S100000x128_0_1 : (⟨S100000x1, .f32⟩ : BufTy).Contents (Elt F) → (⟨S100000x128, .f32⟩ : BufTy).Contents (Elt F)),
    StableHlo.binary main_v3 main_v11 main_v12 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_arg4 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v12 main_arg5 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v13 main_v14 main_v15 (addf : (⟨S100000x128, .f32⟩ : BufTy).Contents (Elt F) → (⟨S100000x128, .f32⟩ : BufTy).Contents (Elt F) → (⟨S100000x128, .f32⟩ : BufTy).Contents (Elt F)),
    StableHlo.unary main_arg6 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of (T := ⟨S100000x128, .f32⟩) main_v18) main_call1.v0 main_call1.v1 maximumf ]

/-- The buffers that block writes, in order. -/
abbrev blkA_W : List (Ref sig .tc) :=
  [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref, main_cst, main_v1, main_v2, main_v3, main_cst_0, main_v4, main_cst_1, main_v5, main_v6, main_v7, main_cst_2, main_v8, main_v9, main_v10, main_v11, main_v12, main_v13, main_v14, main_v15, main_v16, main_v17, main_v18, main_call1.cst.ref, main_call1.v0.ref, main_call1.v1.ref]

/-- The second layer of the 128-wide branch: the same neighbour mean of the first layer's result, the two matrix products into 32 columns and the bias. Operations 49 … 93 of 198. -/
abbrev blkB : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (StableHlo.TRef.of (T := ⟨S1600000, .i32⟩) main_arg2) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (StableHlo.TRef.of (T := ⟨S1600000, .i32⟩) main_arg2) main_call2.v2 main_call2.v3 addi,
    StableHlo.TRef.ternary main_call2.v1 main_call2.v3 (StableHlo.TRef.of (T := ⟨S1600000, .i32⟩) main_arg2) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (StableHlo.TRef.of (T := ⟨S100000x128, .f32⟩) main_v19) main_call2.v5 main_call2.v13 (fun x i => Host.gather gather_S100000x128_S1600000x1_S1600000x128_1_0_n_n_0_1_1128 x i),
    StableHlo.TRef.unary main_call2.v12 main_call2.v14 (broadcastInDim S1600000x128 ![0] bcast_S1600000_S1600000x128_0),
    StableHlo.TRef.nullary main_call2.cst (constant S_ .f32 0x7FC00000#32),
    StableHlo.TRef.unary main_call2.cst main_call2.v15 (broadcastInDim S1600000x128 ![] bcast_S_S1600000x128),
    StableHlo.TRef.ternary main_call2.v14 main_call2.v13 main_call2.v15 main_call2.v16 select,
    StableHlo.nullary main_cst_3 (constant S_ .f32 0x00000000#32),
    StableHlo.unary main_cst_3 main_v21 (broadcastInDim S100000x128 ![] bcast_S_S100000x128 : (⟨S_, .f32⟩ : BufTy).Contents (Elt F) → (⟨S100000x128, .f32⟩ : BufTy).Contents (Elt F)),
    StableHlo.unary main_arg3 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v24 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v25 (broadcastInDim S100000 ![] bcast_S_S100000 : (⟨S_, .f32⟩ : BufTy).Contents (Elt F) → (⟨S100000, .f32⟩ : BufTy).Contents (Elt F)),
    StableHlo.unary main_arg3 main_v26 (broadcastInDim S1600000x1 ![0] bcast_S1600000_S1600000x1_0 : (⟨S1600000, .i32⟩ : BufTy).Contents (Elt F) → (⟨S1600000x1, .i32⟩ : BufTy).Contents (Elt F)),
    StableHlo.ternary main_v25 main_v26 main_v24 main_v27 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.unary main_cst_6 main_v28 (broadcastInDim S100000 ![] bcast_S_S100000 : (⟨S_, .f32⟩ : BufTy).Contents (Elt F) → (⟨S100000, .f32⟩ : BufTy).Contents (Elt F)),
    StableHlo.binary main_v27 main_v28 main_v29 (maximumf : (⟨S100000, .f32⟩ : BufTy).Contents (Elt F) → (⟨S100000, .f32⟩ : BufTy).Contents (Elt F) → (⟨S100000, .f32⟩ : BufTy).Contents (Elt F)),
    StableHlo.unary main_v29 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x128 ![0, 1] bcast_S100000x1_S100000x128_0_1 : (⟨S100000x1, .f32⟩ : BufTy).Contents (Elt F) → (⟨S100000x128, .f32⟩ : BufTy).Contents (Elt F)),
    StableHlo.binary main_v23 main_v31 main_v32 (Host.divf : (⟨S100000x128, .f32⟩ : BufTy).Contents (Elt F) → (⟨S100000x128, .f32⟩ : BufTy).Contents (Elt F) → (⟨S100000x128, .f32⟩ : BufTy).Contents (Elt F)),
    StableHlo.binary main_v19 main_arg7 main_v33 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.binary main_v32 main_arg8 main_v34 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.binary main_v33 main_v34 main_v35 (addf : (⟨S100000x32, .f32⟩ : BufTy).Contents (Elt F) → (⟨S100000x32, .f32⟩ : BufTy).Contents (Elt F) → (⟨S100000x32, .f32⟩ : BufTy).Contents (Elt F)),
    StableHlo.unary main_arg9 main_v36 (broadcastInDim S1x32 ![1] bcast_S32_S1x32_1 : (⟨S32, .f32⟩ : BufTy).Contents (Elt F) → (⟨S1x32, .f32⟩ : BufTy).Contents (Elt F)),
    StableHlo.unary main_v36 main_v37 (broadcastInDim S100000x32 ![0, 1] bcast_S1x32_S100000x32_0_1 : (⟨S1x32, .f32⟩ : BufTy).Contents (Elt F) → (⟨S100000x32, .f32⟩ : BufTy).Contents (Elt F)),
    StableHlo.binary main_v35 main_v37 main_v38 (addf : (⟨S100000x32, .f32⟩ : BufTy).Contents (Elt F) → (⟨S100000x32, .f32⟩ : BufTy).Contents (Elt F) → (⟨S100000x32, .f32⟩ : BufTy).Contents (Elt F)) ]

/-- The buffers that block writes, in order. -/
abbrev blkB_W : List (Ref sig .tc) :=
  [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref, main_cst_3, main_v21, main_v22, main_v23, main_cst_4, main_v24, main_cst_5, main_v25, main_v26, main_v27, main_cst_6, main_v28, main_v29, main_v30, main_v31, main_v32, main_v33, main_v34, main_v35, main_v36, main_v37, main_v38]

/-- The first layer of the 64-wide branch, rectified. Operations 94 … 141 of 198. -/
abbrev blkC : List (HloOp τ sig (Elt F)) :=
  [ StableHlo.TRef.nullary main_call3.c (constantI S_ 32 0#32),
    StableHlo.TRef.unary main_call3.c main_call3.v0 (broadcastInDim S1600000 ![] bcast_S_S1600000),
    StableHlo.TRef.binary (StableHlo.TRef.of (T := ⟨S1600000, .i32⟩) main_arg2) main_call3.v0 main_call3.v1 (cmpi .slt),
    StableHlo.TRef.nullary main_call3.c_0 (constantI S_ 32 100000#32),
    StableHlo.TRef.unary main_call3.c_0 main_call3.v2 (broadcastInDim S1600000 ![] bcast_S_S1600000),
    StableHlo.TRef.binary (StableHlo.TRef.of (T := ⟨S1600000, .i32⟩) main_arg2) main_call3.v2 main_call3.v3 addi,
    StableHlo.TRef.ternary main_call3.v1 main_call3.v3 (StableHlo.TRef.of (T := ⟨S1600000, .i32⟩) main_arg2) main_call3.call0.v0 select,
    StableHlo.TRef.unary main_call3.call0.v0 main_call3.v5 (broadcastInDim S1600000x1 ![0] bcast_S1600000_S1600000x1_0),
    StableHlo.TRef.nullary main_call3.c_1 (constantI S1 32 99999#32),
    StableHlo.TRef.nullary main_call3.c_2 (constantI S_ 32 0#32),
    StableHlo.TRef.unary main_call3.c_2 main_call3.v6 (broadcastInDim S1600000x1 ![] bcast_S_S1600000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S1600000x1 ![0, 1] bcast_S1x1_S1600000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1600000x1_S1600000_d1 h_S_),
    StableHlo.TRef.binary (StableHlo.TRef.of (T := ⟨S100000x64, .f32⟩) main_arg1) main_call3.v5 main_call3.v13 (fun x i => Host.gather gather_S100000x64_S1600000x1_S1600000x64_1_0_n_n_0_1_164 x i),
    StableHlo.TRef.unary main_call3.v12 main_call3.v14 (broadcastInDim S1600000x64 ![0] bcast_S1600000_S1600000x64_0),
    StableHlo.TRef.nullary main_call3.cst (constant S_ .f32 0x7FC00000#32),
    StableHlo.TRef.unary main_call3.cst main_call3.v15 (broadcastInDim S1600000x64 ![] bcast_S_S1600000x64),
    StableHlo.TRef.ternary main_call3.v14 main_call3.v13 main_call3.v15 main_call3.v16 select,
    StableHlo.nullary main_cst_7 (constant S_ .f32 0x00000000#32),
    StableHlo.unary main_cst_7 main_v40 (broadcastInDim S100000x64 ![] bcast_S_S100000x64 : (⟨S_, .f32⟩ : BufTy).Contents (Elt F) → (⟨S100000x64, .f32⟩ : BufTy).Contents (Elt F)),
    StableHlo.unary main_arg3 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_8 (constant S_ .f32 0x3F800000#32),
    StableHlo.unary main_cst_8 main_v43 (broadcastInDim S1600000 ![] bcast_S_S1600000 : (⟨S_, .f32⟩ : BufTy).Contents (Elt F) → (⟨S1600000, .f32⟩ : BufTy).Contents (Elt F)),
    StableHlo.nullary main_cst_9 (constant S_ .f32 0x00000000#32),
    StableHlo.unary main_cst_9 main_v44 (broadcastInDim S100000 ![] bcast_S_S100000 : (⟨S_, .f32⟩ : BufTy).Contents (Elt F) → (⟨S100000, .f32⟩ : BufTy).Contents (Elt F)),
    StableHlo.unary main_arg3 main_v45 (broadcastInDim S1600000x1 ![0] bcast_S1600000_S1600000x1_0 : (⟨S1600000, .i32⟩ : BufTy).Contents (Elt F) → (⟨S1600000x1, .i32⟩ : BufTy).Contents (Elt F)),
    StableHlo.ternary main_v44 main_v45 main_v43 main_v46 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_10 (constant S_ .f32 0x3F800000#32),
    StableHlo.unary main_cst_10 main_v47 (broadcastInDim S100000 ![] bcast_S_S100000 : (⟨S_, .f32⟩ : BufTy).Contents (Elt F) → (⟨S100000, .f32⟩ : BufTy).Contents (Elt F)),
    StableHlo.binary main_v46 main_v47 main_v48 (maximumf : (⟨S100000, .f32⟩ : BufTy).Contents (Elt F) → (⟨S100000, .f32⟩ : BufTy).Contents (Elt F) → (⟨S100000, .f32⟩ : BufTy).Contents (Elt F)),
    StableHlo.unary main_v48 main_v49 (broadcastInDim S100000x1 ![0] bcast_S100000_S100000x1_0 : (⟨S100000, .f32⟩ : BufTy).Contents (Elt F) → (⟨S100000x1, .f32⟩ : BufTy).Contents (Elt F)),
    StableHlo.unary main_v49 main_v50 (broadcastInDim S100000x64 ![0, 1] bcast_S100000x1_S100000x64_0_1 : (⟨S100000x1, .f32⟩ : BufTy).Contents (Elt F) → (⟨S100000x64, .f32⟩ : BufTy).Contents (Elt F)),
    StableHlo.binary main_v42 main_v50 main_v51 (Host.divf : (⟨S100000x64, .f32⟩ : BufTy).Contents (Elt F) → (⟨S100000x64, .f32⟩ : BufTy).Contents (Elt F) → (⟨S100000x64, .f32⟩ : BufTy).Contents (Elt F)),
    StableHlo.binary main_arg1 main_arg10 main_v52 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v51 main_arg11 main_v53 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.binary main_v52 main_v53 main_v54 (addf : (⟨S100000x128, .f32⟩ : BufTy).Contents (Elt F) → (⟨S100000x128, .f32⟩ : BufTy).Contents (Elt F) → (⟨S100000x128, .f32⟩ : BufTy).Contents (Elt F)),
    StableHlo.unary main_arg12 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v56 main_v57 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (StableHlo.TRef.of (T := ⟨S100000x128, .f32⟩) main_v57) main_call4.v0 main_call4.v1 maximumf ]

/-- The buffers that block writes, in order. -/
abbrev blkC_W : List (Ref sig .tc) :=
  [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref, main_cst_7, main_v40, main_v41, main_v42, main_cst_8, main_v43, main_cst_9, main_v44, main_v45, main_v46, main_cst_10, main_v47, main_v48, main_v49, main_v50, main_v51, main_v52, main_v53, main_v54, main_v55, main_v56, main_v57, main_call4.cst.ref, main_call4.v0.ref, main_call4.v1.ref]

/-- The second layer of the 64-wide branch. Operations 142 … 186 of 198. -/
abbrev blkD : List (HloOp τ sig (Elt F)) :=
  [ StableHlo.TRef.nullary main_call5.c (constantI S_ 32 0#32),
    StableHlo.TRef.unary main_call5.c main_call5.v0 (broadcastInDim S1600000 ![] bcast_S_S1600000),
    StableHlo.TRef.binary (StableHlo.TRef.of (T := ⟨S1600000, .i32⟩) main_arg2) main_call5.v0 main_call5.v1 (cmpi .slt),
    StableHlo.TRef.nullary main_call5.c_0 (constantI S_ 32 100000#32),
    StableHlo.TRef.unary main_call5.c_0 main_call5.v2 (broadcastInDim S1600000 ![] bcast_S_S1600000),
    StableHlo.TRef.binary (StableHlo.TRef.of (T := ⟨S1600000, .i32⟩) main_arg2) main_call5.v2 main_call5.v3 addi,
    StableHlo.TRef.ternary main_call5.v1 main_call5.v3 (StableHlo.TRef.of (T := ⟨S1600000, .i32⟩) main_arg2) main_call5.call0.v0 select,
    StableHlo.TRef.unary main_call5.call0.v0 main_call5.v5 (broadcastInDim S1600000x1 ![0] bcast_S1600000_S1600000x1_0),
    StableHlo.TRef.nullary main_call5.c_1 (constantI S1 32 99999#32),
    StableHlo.TRef.nullary main_call5.c_2 (constantI S_ 32 0#32),
    StableHlo.TRef.unary main_call5.c_2 main_call5.v6 (broadcastInDim S1600000x1 ![] bcast_S_S1600000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S1600000x1 ![0, 1] bcast_S1x1_S1600000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1600000x1_S1600000_d1 h_S_),
    StableHlo.TRef.binary (StableHlo.TRef.of (T := ⟨S100000x128, .f32⟩) main_v58) main_call5.v5 main_call5.v13 (fun x i => Host.gather gather_S100000x128_S1600000x1_S1600000x128_1_0_n_n_0_1_1128 x i),
    StableHlo.TRef.unary main_call5.v12 main_call5.v14 (broadcastInDim S1600000x128 ![0] bcast_S1600000_S1600000x128_0),
    StableHlo.TRef.nullary main_call5.cst (constant S_ .f32 0x7FC00000#32),
    StableHlo.TRef.unary main_call5.cst main_call5.v15 (broadcastInDim S1600000x128 ![] bcast_S_S1600000x128),
    StableHlo.TRef.ternary main_call5.v14 main_call5.v13 main_call5.v15 main_call5.v16 select,
    StableHlo.nullary main_cst_11 (constant S_ .f32 0x00000000#32),
    StableHlo.unary main_cst_11 main_v60 (broadcastInDim S100000x128 ![] bcast_S_S100000x128 : (⟨S_, .f32⟩ : BufTy).Contents (Elt F) → (⟨S100000x128, .f32⟩ : BufTy).Contents (Elt F)),
    StableHlo.unary main_arg3 main_v61 (broadcastInDim S1600000x1 ![0] bcast_S1600000_S1600000x1_0 : (⟨S1600000, .i32⟩ : BufTy).Contents (Elt F) → (⟨S1600000x1, .i32⟩ : BufTy).Contents (Elt F)),
    StableHlo.ternary main_v60 main_v61 main_v59 main_v62 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_12 (constant S_ .f32 0x3F800000#32),
    StableHlo.unary main_cst_12 main_v63 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v64 (broadcastInDim S100000 ![] bcast_S_S100000 : (⟨S_, .f32⟩ : BufTy).Contents (Elt F) → (⟨S100000, .f32⟩ : BufTy).Contents (Elt F)),
    StableHlo.unary main_arg3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v67 (broadcastInDim S100000 ![] bcast_S_S100000 : (⟨S_, .f32⟩ : BufTy).Contents (Elt F) → (⟨S100000, .f32⟩ : BufTy).Contents (Elt F)),
    StableHlo.binary main_v66 main_v67 main_v68 (maximumf : (⟨S100000, .f32⟩ : BufTy).Contents (Elt F) → (⟨S100000, .f32⟩ : BufTy).Contents (Elt F) → (⟨S100000, .f32⟩ : BufTy).Contents (Elt F)),
    StableHlo.unary main_v68 main_v69 (broadcastInDim S100000x1 ![0] bcast_S100000_S100000x1_0 : (⟨S100000, .f32⟩ : BufTy).Contents (Elt F) → (⟨S100000x1, .f32⟩ : BufTy).Contents (Elt F)),
    StableHlo.unary main_v69 main_v70 (broadcastInDim S100000x128 ![0, 1] bcast_S100000x1_S100000x128_0_1 : (⟨S100000x1, .f32⟩ : BufTy).Contents (Elt F) → (⟨S100000x128, .f32⟩ : BufTy).Contents (Elt F)),
    StableHlo.binary main_v62 main_v70 main_v71 (Host.divf : (⟨S100000x128, .f32⟩ : BufTy).Contents (Elt F) → (⟨S100000x128, .f32⟩ : BufTy).Contents (Elt F) → (⟨S100000x128, .f32⟩ : BufTy).Contents (Elt F)),
    StableHlo.binary main_v58 main_arg13 main_v72 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.binary main_v71 main_arg14 main_v73 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.binary main_v72 main_v73 main_v74 (addf : (⟨S100000x32, .f32⟩ : BufTy).Contents (Elt F) → (⟨S100000x32, .f32⟩ : BufTy).Contents (Elt F) → (⟨S100000x32, .f32⟩ : BufTy).Contents (Elt F)),
    StableHlo.unary main_arg15 main_v75 (broadcastInDim S1x32 ![1] bcast_S32_S1x32_1 : (⟨S32, .f32⟩ : BufTy).Contents (Elt F) → (⟨S1x32, .f32⟩ : BufTy).Contents (Elt F)),
    StableHlo.unary main_v75 main_v76 (broadcastInDim S100000x32 ![0, 1] bcast_S1x32_S100000x32_0_1 : (⟨S1x32, .f32⟩ : BufTy).Contents (Elt F) → (⟨S100000x32, .f32⟩ : BufTy).Contents (Elt F)),
    StableHlo.binary main_v74 main_v76 main_v77 (addf : (⟨S100000x32, .f32⟩ : BufTy).Contents (Elt F) → (⟨S100000x32, .f32⟩ : BufTy).Contents (Elt F) → (⟨S100000x32, .f32⟩ : BufTy).Contents (Elt F)) ]

/-- The buffers that block writes, in order. -/
abbrev blkD_W : List (Ref sig .tc) :=
  [main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.v14.ref, main_call5.cst.ref, main_call5.v15.ref, main_call5.v16.ref, main_cst_11, main_v60, main_v61, main_v62, main_cst_12, main_v63, main_cst_13, main_v64, main_v65, main_v66, main_cst_14, main_v67, main_v68, main_v69, main_v70, main_v71, main_v72, main_v73, main_v74, main_v75, main_v76, main_v77]

/-- The head: the two 32-wide results side by side, the rectified dense layer, the dense output layer. Operations 187 … 198 of 198. -/
abbrev blkE : List (HloOp τ sig (Elt F)) :=
  [ StableHlo.binary main_v38 main_v77 main_v78 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    StableHlo.binary main_v78 main_arg16 main_v79 ((fun l r => Host.dotGeneral dot_S100000x64_S64x256_S100000x256_1_0_0_1_n_n none l r) : (⟨S100000x64, .f32⟩ : BufTy).Contents (Elt F) → (⟨S64x256, .f32⟩ : BufTy).Contents (Elt F) → (⟨S100000x256, .f32⟩ : BufTy).Contents (Elt F)),
    StableHlo.unary main_arg17 main_v80 (broadcastInDim S1x256 ![1] bcast_S256_S1x256_1 : (⟨S256, .f32⟩ : BufTy).Contents (Elt F) → (⟨S1x256, .f32⟩ : BufTy).Contents (Elt F)),
    StableHlo.unary main_v80 main_v81 (broadcastInDim S100000x256 ![0, 1] bcast_S1x256_S100000x256_0_1 : (⟨S1x256, .f32⟩ : BufTy).Contents (Elt F) → (⟨S100000x256, .f32⟩ : BufTy).Contents (Elt F)),
    StableHlo.binary main_v79 main_v81 main_v82 (addf : (⟨S100000x256, .f32⟩ : BufTy).Contents (Elt F) → (⟨S100000x256, .f32⟩ : BufTy).Contents (Elt F) → (⟨S100000x256, .f32⟩ : BufTy).Contents (Elt F)),
    StableHlo.TRef.nullary main_call6.cst (constant S_ .f32 0x00000000#32),
    StableHlo.TRef.unary main_call6.cst main_call6.v0 (broadcastInDim S100000x256 ![] bcast_S_S100000x256),
    StableHlo.TRef.binary (StableHlo.TRef.of (T := ⟨S100000x256, .f32⟩) main_v82) main_call6.v0 main_call6.v1 maximumf,
    StableHlo.binary main_v83 main_arg18 main_v84 ((fun l r => Host.dotGeneral dot_S100000x256_S256x32_S100000x32_1_0_0_1_n_n none l r) : (⟨S100000x256, .f32⟩ : BufTy).Contents (Elt F) → (⟨S256x32, .f32⟩ : BufTy).Contents (Elt F) → (⟨S100000x32, .f32⟩ : BufTy).Contents (Elt F)),
    StableHlo.unary main_arg19 main_v85 (broadcastInDim S1x32 ![1] bcast_S32_S1x32_1 : (⟨S32, .f32⟩ : BufTy).Contents (Elt F) → (⟨S1x32, .f32⟩ : BufTy).Contents (Elt F)),
    StableHlo.unary main_v85 main_v86 (broadcastInDim S100000x32 ![0, 1] bcast_S1x32_S100000x32_0_1 : (⟨S1x32, .f32⟩ : BufTy).Contents (Elt F) → (⟨S100000x32, .f32⟩ : BufTy).Contents (Elt F)),
    StableHlo.binary main_v84 main_v86 main_v87 (addf : (⟨S100000x32, .f32⟩ : BufTy).Contents (Elt F) → (⟨S100000x32, .f32⟩ : BufTy).Contents (Elt F) → (⟨S100000x32, .f32⟩ : BufTy).Contents (Elt F)) ]

/-- The buffers that block writes, in order. -/
abbrev blkE_W : List (Ref sig .tc) :=
  [main_v78, main_v79, main_v80, main_v81, main_v82, main_call6.cst.ref, main_call6.v0.ref, main_call6.v1.ref, main_v84, main_v85, main_v86, main_v87]

set_option maxRecDepth 8192 in
theorem blkA_sub : (blkA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
set_option maxRecDepth 8192 in
theorem blkA_fresh : (blkA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem blkB_sub : (blkB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩
set_option maxRecDepth 8192 in
theorem blkB_fresh : (blkB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem blkC_sub : (blkC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
set_option maxRecDepth 8192 in
theorem blkC_fresh : (blkC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem blkD_sub : (blkD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub ..⟩
set_option maxRecDepth 8192 in
theorem blkD_fresh : (blkD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem blkE_sub : (blkE : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem blkE_fresh : (blkE : List (HloOp τ sig (Elt F))).Forall fun op => op.fresh = ∅ :=
  ⟨rfl, rfl, rfl, rfl, rfl, rfl, rfl, rfl, rfl, rfl, rfl, rfl⟩

/-- @main's 198 operations, in order: the five blocks one after the other. -/
abbrev ops : List (HloOp τ sig (Elt F)) := blkA ++ (blkB ++ (blkC ++ (blkD ++ blkE)))

set_option maxRecDepth 8192 in
set_option maxHeartbeats 4000000 in
/-- @main is that straight line: the windows and the called functions unfold, and sequencing re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp blkA_sub op h, List.forall_iff_forall_mem.mp blkB_sub op h,
      List.forall_iff_forall_mem.mp blkC_sub op h, List.forall_iff_forall_mem.mp blkD_sub op h,
      List.forall_iff_forall_mem.mp blkE_sub op h]

/-- Every operation of the line determines its results. -/
theorem ops_fresh : ∀ op ∈ (ops : List (HloOp τ sig (Elt F))), op.fresh = ∅ := fun op h => by
  simp only [ops, List.mem_append] at h
  rcases h with h | h | h | h | h
  exacts [List.forall_iff_forall_mem.mp blkA_fresh op h, List.forall_iff_forall_mem.mp blkB_fresh op h,
    List.forall_iff_forall_mem.mp blkC_fresh op h, List.forall_iff_forall_mem.mp blkD_fresh op h,
    List.forall_iff_forall_mem.mp blkE_fresh op h]

/-- On every device, for any float values, from any memory with zero counters: every weakly fair execution of @main
    terminates, and every final state has each TensorCore buffer at the fold of the line over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.RefRun

end
-- ==== Proof.RefRunValue.lean ====
/-
  The reference program's run, read as the network.

  Each of the five blocks of the reference's line of operations writes one buffer that later blocks read; at that
  buffer the block's fold is the matching stage of the network (a rectified first layer, a second layer, the head)
  applied to the contents of the buffers the block reads.  A buffer a block does not write passes through it
  unchanged.  Composing the five readings from the last block back to the first gives the whole network applied to the
  twenty arguments at the result buffer, and every argument unchanged.
-/
import proofs.«107267_j23845658427621_2_alg».proof.Proof.RefRun

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- Two lines run one after the other: the second folds over what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation that writes the one buffer y, a member of a list W, writes within W. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 8192 in
/-- Each operation of the block writes the buffer listed at its place. -/
theorem blkA_writes : (blkA : List (HloOp τ sig (Elt F))).Forall fun op =>
    op.writes ⊆ (blkA_W.map (Proc.devRef (τ := τ) .tc)).toFinset :=
  ⟨writes_sub_of_mem (main_call0.c.ref) rfl (by decide),
   writes_sub_of_mem (main_call0.v0.ref) rfl (by decide),
   writes_sub_of_mem (main_call0.v1.ref) rfl (by decide),
   writes_sub_of_mem (main_call0.c_0.ref) rfl (by decide),
   writes_sub_of_mem (main_call0.v2.ref) rfl (by decide),
   writes_sub_of_mem (main_call0.v3.ref) rfl (by decide),
   writes_sub_of_mem (main_call0.call0.v0.ref) rfl (by decide),
   writes_sub_of_mem (main_call0.v5.ref) rfl (by decide),
   writes_sub_of_mem (main_call0.c_1.ref) rfl (by decide),
   writes_sub_of_mem (main_call0.c_2.ref) rfl (by decide),
   writes_sub_of_mem (main_call0.v6.ref) rfl (by decide),
   writes_sub_of_mem (main_call0.v7.ref) rfl (by decide),
   writes_sub_of_mem (main_call0.v8.ref) rfl (by decide),
   writes_sub_of_mem (main_call0.v9.ref) rfl (by decide),
   writes_sub_of_mem (main_call0.v10.ref) rfl (by decide),
   writes_sub_of_mem (main_call0.v11.ref) rfl (by decide),
   writes_sub_of_mem (main_call0.c_3.ref) rfl (by decide),
   writes_sub_of_mem (main_call0.v12.ref) rfl (by decide),
   writes_sub_of_mem (main_call0.v13.ref) rfl (by decide),
   writes_sub_of_mem (main_call0.v14.ref) rfl (by decide),
   writes_sub_of_mem (main_call0.cst.ref) rfl (by decide),
   writes_sub_of_mem (main_call0.v15.ref) rfl (by decide),
   writes_sub_of_mem (main_call0.v16.ref) rfl (by decide),
   writes_sub_of_mem main_cst rfl (by decide),
   writes_sub_of_mem main_v1 rfl (by decide),
   writes_sub_of_mem main_v2 rfl (by decide),
   writes_sub_of_mem main_v3 rfl (by decide),
   writes_sub_of_mem main_cst_0 rfl (by decide),
   writes_sub_of_mem main_v4 rfl (by decide),
   writes_sub_of_mem main_cst_1 rfl (by decide),
   writes_sub_of_mem main_v5 rfl (by decide),
   writes_sub_of_mem main_v6 rfl (by decide),
   writes_sub_of_mem main_v7 rfl (by decide),
   writes_sub_of_mem main_cst_2 rfl (by decide),
   writes_sub_of_mem main_v8 rfl (by decide),
   writes_sub_of_mem main_v9 rfl (by decide),
   writes_sub_of_mem main_v10 rfl (by decide),
   writes_sub_of_mem main_v11 rfl (by decide),
   writes_sub_of_mem main_v12 rfl (by decide),
   writes_sub_of_mem main_v13 rfl (by decide),
   writes_sub_of_mem main_v14 rfl (by decide),
   writes_sub_of_mem main_v15 rfl (by decide),
   writes_sub_of_mem main_v16 rfl (by decide),
   writes_sub_of_mem main_v17 rfl (by decide),
   writes_sub_of_mem main_v18 rfl (by decide),
   writes_sub_of_mem (main_call1.cst.ref) rfl (by decide),
   writes_sub_of_mem (main_call1.v0.ref) rfl (by decide),
   writes_sub_of_mem (main_call1.v1.ref) rfl (by decide)⟩

/-- A buffer the block does not write keeps its contents through it. -/
theorem blkA_keep (V : Valuation τ sig (Elt F)) {r : Ref sig .tc} (h : r ∉ blkA_W) :
    after blkA V (Proc.devRef .tc r) = V (Proc.devRef .tc r) :=
  after_of_writes_sub blkA V blkA_writes h

set_option maxRecDepth 8192 in
/-- Each operation of the block writes the buffer listed at its place. -/
theorem blkB_writes : (blkB : List (HloOp τ sig (Elt F))).Forall fun op =>
    op.writes ⊆ (blkB_W.map (Proc.devRef (τ := τ) .tc)).toFinset :=
  ⟨writes_sub_of_mem (main_call2.c.ref) rfl (by decide),
   writes_sub_of_mem (main_call2.v0.ref) rfl (by decide),
   writes_sub_of_mem (main_call2.v1.ref) rfl (by decide),
   writes_sub_of_mem (main_call2.c_0.ref) rfl (by decide),
   writes_sub_of_mem (main_call2.v2.ref) rfl (by decide),
   writes_sub_of_mem (main_call2.v3.ref) rfl (by decide),
   writes_sub_of_mem (main_call2.call0.v0.ref) rfl (by decide),
   writes_sub_of_mem (main_call2.v5.ref) rfl (by decide),
   writes_sub_of_mem (main_call2.c_1.ref) rfl (by decide),
   writes_sub_of_mem (main_call2.c_2.ref) rfl (by decide),
   writes_sub_of_mem (main_call2.v6.ref) rfl (by decide),
   writes_sub_of_mem (main_call2.v7.ref) rfl (by decide),
   writes_sub_of_mem (main_call2.v8.ref) rfl (by decide),
   writes_sub_of_mem (main_call2.v9.ref) rfl (by decide),
   writes_sub_of_mem (main_call2.v10.ref) rfl (by decide),
   writes_sub_of_mem (main_call2.v11.ref) rfl (by decide),
   writes_sub_of_mem (main_call2.c_3.ref) rfl (by decide),
   writes_sub_of_mem (main_call2.v12.ref) rfl (by decide),
   writes_sub_of_mem (main_call2.v13.ref) rfl (by decide),
   writes_sub_of_mem (main_call2.v14.ref) rfl (by decide),
   writes_sub_of_mem (main_call2.cst.ref) rfl (by decide),
   writes_sub_of_mem (main_call2.v15.ref) rfl (by decide),
   writes_sub_of_mem (main_call2.v16.ref) rfl (by decide),
   writes_sub_of_mem main_cst_3 rfl (by decide),
   writes_sub_of_mem main_v21 rfl (by decide),
   writes_sub_of_mem main_v22 rfl (by decide),
   writes_sub_of_mem main_v23 rfl (by decide),
   writes_sub_of_mem main_cst_4 rfl (by decide),
   writes_sub_of_mem main_v24 rfl (by decide),
   writes_sub_of_mem main_cst_5 rfl (by decide),
   writes_sub_of_mem main_v25 rfl (by decide),
   writes_sub_of_mem main_v26 rfl (by decide),
   writes_sub_of_mem main_v27 rfl (by decide),
   writes_sub_of_mem main_cst_6 rfl (by decide),
   writes_sub_of_mem main_v28 rfl (by decide),
   writes_sub_of_mem main_v29 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide)⟩

/-- A buffer the block does not write keeps its contents through it. -/
theorem blkB_keep (V : Valuation τ sig (Elt F)) {r : Ref sig .tc} (h : r ∉ blkB_W) :
    after blkB V (Proc.devRef .tc r) = V (Proc.devRef .tc r) :=
  after_of_writes_sub blkB V blkB_writes h

set_option maxRecDepth 8192 in
/-- Each operation of the block writes the buffer listed at its place. -/
theorem blkC_writes : (blkC : List (HloOp τ sig (Elt F))).Forall fun op =>
    op.writes ⊆ (blkC_W.map (Proc.devRef (τ := τ) .tc)).toFinset :=
  ⟨writes_sub_of_mem (main_call3.c.ref) rfl (by decide),
   writes_sub_of_mem (main_call3.v0.ref) rfl (by decide),
   writes_sub_of_mem (main_call3.v1.ref) rfl (by decide),
   writes_sub_of_mem (main_call3.c_0.ref) rfl (by decide),
   writes_sub_of_mem (main_call3.v2.ref) rfl (by decide),
   writes_sub_of_mem (main_call3.v3.ref) rfl (by decide),
   writes_sub_of_mem (main_call3.call0.v0.ref) rfl (by decide),
   writes_sub_of_mem (main_call3.v5.ref) rfl (by decide),
   writes_sub_of_mem (main_call3.c_1.ref) rfl (by decide),
   writes_sub_of_mem (main_call3.c_2.ref) rfl (by decide),
   writes_sub_of_mem (main_call3.v6.ref) rfl (by decide),
   writes_sub_of_mem (main_call3.v7.ref) rfl (by decide),
   writes_sub_of_mem (main_call3.v8.ref) rfl (by decide),
   writes_sub_of_mem (main_call3.v9.ref) rfl (by decide),
   writes_sub_of_mem (main_call3.v10.ref) rfl (by decide),
   writes_sub_of_mem (main_call3.v11.ref) rfl (by decide),
   writes_sub_of_mem (main_call3.c_3.ref) rfl (by decide),
   writes_sub_of_mem (main_call3.v12.ref) rfl (by decide),
   writes_sub_of_mem (main_call3.v13.ref) rfl (by decide),
   writes_sub_of_mem (main_call3.v14.ref) rfl (by decide),
   writes_sub_of_mem (main_call3.cst.ref) rfl (by decide),
   writes_sub_of_mem (main_call3.v15.ref) rfl (by decide),
   writes_sub_of_mem (main_call3.v16.ref) rfl (by decide),
   writes_sub_of_mem main_cst_7 rfl (by decide),
   writes_sub_of_mem main_v40 rfl (by decide),
   writes_sub_of_mem main_v41 rfl (by decide),
   writes_sub_of_mem main_v42 rfl (by decide),
   writes_sub_of_mem main_cst_8 rfl (by decide),
   writes_sub_of_mem main_v43 rfl (by decide),
   writes_sub_of_mem main_cst_9 rfl (by decide),
   writes_sub_of_mem main_v44 rfl (by decide),
   writes_sub_of_mem main_v45 rfl (by decide),
   writes_sub_of_mem main_v46 rfl (by decide),
   writes_sub_of_mem main_cst_10 rfl (by decide),
   writes_sub_of_mem main_v47 rfl (by decide),
   writes_sub_of_mem main_v48 rfl (by decide),
   writes_sub_of_mem main_v49 rfl (by decide),
   writes_sub_of_mem main_v50 rfl (by decide),
   writes_sub_of_mem main_v51 rfl (by decide),
   writes_sub_of_mem main_v52 rfl (by decide),
   writes_sub_of_mem main_v53 rfl (by decide),
   writes_sub_of_mem main_v54 rfl (by decide),
   writes_sub_of_mem main_v55 rfl (by decide),
   writes_sub_of_mem main_v56 rfl (by decide),
   writes_sub_of_mem main_v57 rfl (by decide),
   writes_sub_of_mem (main_call4.cst.ref) rfl (by decide),
   writes_sub_of_mem (main_call4.v0.ref) rfl (by decide),
   writes_sub_of_mem (main_call4.v1.ref) rfl (by decide)⟩

/-- A buffer the block does not write keeps its contents through it. -/
theorem blkC_keep (V : Valuation τ sig (Elt F)) {r : Ref sig .tc} (h : r ∉ blkC_W) :
    after blkC V (Proc.devRef .tc r) = V (Proc.devRef .tc r) :=
  after_of_writes_sub blkC V blkC_writes h

set_option maxRecDepth 8192 in
/-- Each operation of the block writes the buffer listed at its place. -/
theorem blkD_writes : (blkD : List (HloOp τ sig (Elt F))).Forall fun op =>
    op.writes ⊆ (blkD_W.map (Proc.devRef (τ := τ) .tc)).toFinset :=
  ⟨writes_sub_of_mem (main_call5.c.ref) rfl (by decide),
   writes_sub_of_mem (main_call5.v0.ref) rfl (by decide),
   writes_sub_of_mem (main_call5.v1.ref) rfl (by decide),
   writes_sub_of_mem (main_call5.c_0.ref) rfl (by decide),
   writes_sub_of_mem (main_call5.v2.ref) rfl (by decide),
   writes_sub_of_mem (main_call5.v3.ref) rfl (by decide),
   writes_sub_of_mem (main_call5.call0.v0.ref) rfl (by decide),
   writes_sub_of_mem (main_call5.v5.ref) rfl (by decide),
   writes_sub_of_mem (main_call5.c_1.ref) rfl (by decide),
   writes_sub_of_mem (main_call5.c_2.ref) rfl (by decide),
   writes_sub_of_mem (main_call5.v6.ref) rfl (by decide),
   writes_sub_of_mem (main_call5.v7.ref) rfl (by decide),
   writes_sub_of_mem (main_call5.v8.ref) rfl (by decide),
   writes_sub_of_mem (main_call5.v9.ref) rfl (by decide),
   writes_sub_of_mem (main_call5.v10.ref) rfl (by decide),
   writes_sub_of_mem (main_call5.v11.ref) rfl (by decide),
   writes_sub_of_mem (main_call5.c_3.ref) rfl (by decide),
   writes_sub_of_mem (main_call5.v12.ref) rfl (by decide),
   writes_sub_of_mem (main_call5.v13.ref) rfl (by decide),
   writes_sub_of_mem (main_call5.v14.ref) rfl (by decide),
   writes_sub_of_mem (main_call5.cst.ref) rfl (by decide),
   writes_sub_of_mem (main_call5.v15.ref) rfl (by decide),
   writes_sub_of_mem (main_call5.v16.ref) rfl (by decide),
   writes_sub_of_mem main_cst_11 rfl (by decide),
   writes_sub_of_mem main_v60 rfl (by decide),
   writes_sub_of_mem main_v61 rfl (by decide),
   writes_sub_of_mem main_v62 rfl (by decide),
   writes_sub_of_mem main_cst_12 rfl (by decide),
   writes_sub_of_mem main_v63 rfl (by decide),
   writes_sub_of_mem main_cst_13 rfl (by decide),
   writes_sub_of_mem main_v64 rfl (by decide),
   writes_sub_of_mem main_v65 rfl (by decide),
   writes_sub_of_mem main_v66 rfl (by decide),
   writes_sub_of_mem main_cst_14 rfl (by decide),
   writes_sub_of_mem main_v67 rfl (by decide),
   writes_sub_of_mem main_v68 rfl (by decide),
   writes_sub_of_mem main_v69 rfl (by decide),
   writes_sub_of_mem main_v70 rfl (by decide),
   writes_sub_of_mem main_v71 rfl (by decide),
   writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide)⟩

/-- A buffer the block does not write keeps its contents through it. -/
theorem blkD_keep (V : Valuation τ sig (Elt F)) {r : Ref sig .tc} (h : r ∉ blkD_W) :
    after blkD V (Proc.devRef .tc r) = V (Proc.devRef .tc r) :=
  after_of_writes_sub blkD V blkD_writes h

set_option maxRecDepth 8192 in
/-- Each operation of the block writes the buffer listed at its place. -/
theorem blkE_writes : (blkE : List (HloOp τ sig (Elt F))).Forall fun op =>
    op.writes ⊆ (blkE_W.map (Proc.devRef (τ := τ) .tc)).toFinset :=
  ⟨writes_sub_of_mem main_v78 rfl (by decide),
   writes_sub_of_mem main_v79 rfl (by decide),
   writes_sub_of_mem main_v80 rfl (by decide),
   writes_sub_of_mem main_v81 rfl (by decide),
   writes_sub_of_mem main_v82 rfl (by decide),
   writes_sub_of_mem (main_call6.cst.ref) rfl (by decide),
   writes_sub_of_mem (main_call6.v0.ref) rfl (by decide),
   writes_sub_of_mem (main_call6.v1.ref) rfl (by decide),
   writes_sub_of_mem main_v84 rfl (by decide),
   writes_sub_of_mem main_v85 rfl (by decide),
   writes_sub_of_mem main_v86 rfl (by decide),
   writes_sub_of_mem main_v87 rfl (by decide)⟩

/-- A buffer the block does not write keeps its contents through it. -/
theorem blkE_keep (V : Valuation τ sig (Elt F)) {r : Ref sig .tc} (h : r ∉ blkE_W) :
    after blkE V (Proc.devRef .tc r) = V (Proc.devRef .tc r) :=
  after_of_writes_sub blkE V blkE_writes h

/-- Contents moved to a buffer's own type and back are the contents. -/
theorem ofBuf_toBuf {Val : EltTy → Type} {T : BufTy} (x : TRef sig T) (v : T.Contents Val) : x.ofBuf (x.toBuf v) = v := by
  obtain ⟨r, h, _, _⟩ := x
  subst h
  rfl

/-! A called function's operation reads an operand of @main and writes its returned value through the typed view of
the buffer; at these literal buffers the view's type is the buffer's own, and the move is the identity. -/

theorem toBuf_main_arg2 {Val : EltTy → Type} (v : (⟨S1600000, .i32⟩ : BufTy).Contents Val) (h1 h2 h3) :
    (TRef.of (sig := sig) (T := ⟨S1600000, .i32⟩) main_arg2 h1 h2 h3).toBuf v = v := rfl
theorem ofBuf_main_arg2 {Val : EltTy → Type} (v : (⟨S1600000, .i32⟩ : BufTy).Contents Val) (h1 h2 h3) :
    (TRef.of (sig := sig) (T := ⟨S1600000, .i32⟩) main_arg2 h1 h2 h3).ofBuf v = v := rfl
theorem toBuf_main_arg0 {Val : EltTy → Type} (v : (⟨S100000x128, .f32⟩ : BufTy).Contents Val) (h1 h2 h3) :
    (TRef.of (sig := sig) (T := ⟨S100000x128, .f32⟩) main_arg0 h1 h2 h3).toBuf v = v := rfl
theorem ofBuf_main_arg0 {Val : EltTy → Type} (v : (⟨S100000x128, .f32⟩ : BufTy).Contents Val) (h1 h2 h3) :
    (TRef.of (sig := sig) (T := ⟨S100000x128, .f32⟩) main_arg0 h1 h2 h3).ofBuf v = v := rfl
theorem toBuf_main_v18 {Val : EltTy → Type} (v : (⟨S100000x128, .f32⟩ : BufTy).Contents Val) (h1 h2 h3) :
    (TRef.of (sig := sig) (T := ⟨S100000x128, .f32⟩) main_v18 h1 h2 h3).toBuf v = v := rfl
theorem ofBuf_main_v18 {Val : EltTy → Type} (v : (⟨S100000x128, .f32⟩ : BufTy).Contents Val) (h1 h2 h3) :
    (TRef.of (sig := sig) (T := ⟨S100000x128, .f32⟩) main_v18 h1 h2 h3).ofBuf v = v := rfl
theorem toBuf_main_v19 {Val : EltTy → Type} (v : (⟨S100000x128, .f32⟩ : BufTy).Contents Val) (h1 h2 h3) :
    (TRef.of (sig := sig) (T := ⟨S100000x128, .f32⟩) main_v19 h1 h2 h3).toBuf v = v := rfl
theorem ofBuf_main_v19 {Val : EltTy → Type} (v : (⟨S100000x128, .f32⟩ : BufTy).Contents Val) (h1 h2 h3) :
    (TRef.of (sig := sig) (T := ⟨S100000x128, .f32⟩) main_v19 h1 h2 h3).ofBuf v = v := rfl
theorem toBuf_main_arg1 {Val : EltTy → Type} (v : (⟨S100000x64, .f32⟩ : BufTy).Contents Val) (h1 h2 h3) :
    (TRef.of (sig := sig) (T := ⟨S100000x64, .f32⟩) main_arg1 h1 h2 h3).toBuf v = v := rfl
theorem ofBuf_main_arg1 {Val : EltTy → Type} (v : (⟨S100000x64, .f32⟩ : BufTy).Contents Val) (h1 h2 h3) :
    (TRef.of (sig := sig) (T := ⟨S100000x64, .f32⟩) main_arg1 h1 h2 h3).ofBuf v = v := rfl
theorem toBuf_main_v57 {Val : EltTy → Type} (v : (⟨S100000x128, .f32⟩ : BufTy).Contents Val) (h1 h2 h3) :
    (TRef.of (sig := sig) (T := ⟨S100000x128, .f32⟩) main_v57 h1 h2 h3).toBuf v = v := rfl
theorem ofBuf_main_v57 {Val : EltTy → Type} (v : (⟨S100000x128, .f32⟩ : BufTy).Contents Val) (h1 h2 h3) :
    (TRef.of (sig := sig) (T := ⟨S100000x128, .f32⟩) main_v57 h1 h2 h3).ofBuf v = v := rfl
theorem toBuf_main_v58 {Val : EltTy → Type} (v : (⟨S100000x128, .f32⟩ : BufTy).Contents Val) (h1 h2 h3) :
    (TRef.of (sig := sig) (T := ⟨S100000x128, .f32⟩) main_v58 h1 h2 h3).toBuf v = v := rfl
theorem ofBuf_main_v58 {Val : EltTy → Type} (v : (⟨S100000x128, .f32⟩ : BufTy).Contents Val) (h1 h2 h3) :
    (TRef.of (sig := sig) (T := ⟨S100000x128, .f32⟩) main_v58 h1 h2 h3).ofBuf v = v := rfl
theorem toBuf_main_v82 {Val : EltTy → Type} (v : (⟨S100000x256, .f32⟩ : BufTy).Contents Val) (h1 h2 h3) :
    (TRef.of (sig := sig) (T := ⟨S100000x256, .f32⟩) main_v82 h1 h2 h3).toBuf v = v := rfl
theorem ofBuf_main_v82 {Val : EltTy → Type} (v : (⟨S100000x256, .f32⟩ : BufTy).Contents Val) (h1 h2 h3) :
    (TRef.of (sig := sig) (T := ⟨S100000x256, .f32⟩) main_v82 h1 h2 h3).ofBuf v = v := rfl
theorem toBuf_main_v0 {Val : EltTy → Type} (v : (⟨S1600000x128, .f32⟩ : BufTy).Contents Val) (h1 h2 h3) :
    (TRef.of (sig := sig) (T := ⟨S1600000x128, .f32⟩) main_v0 h1 h2 h3).toBuf v = v := rfl
theorem ofBuf_main_v0 {Val : EltTy → Type} (v : (⟨S1600000x128, .f32⟩ : BufTy).Contents Val) (h1 h2 h3) :
    (TRef.of (sig := sig) (T := ⟨S1600000x128, .f32⟩) main_v0 h1 h2 h3).ofBuf v = v := rfl
theorem toBuf_main_v20 {Val : EltTy → Type} (v : (⟨S1600000x128, .f32⟩ : BufTy).Contents Val) (h1 h2 h3) :
    (TRef.of (sig := sig) (T := ⟨S1600000x128, .f32⟩) main_v20 h1 h2 h3).toBuf v = v := rfl
theorem ofBuf_main_v20 {Val : EltTy → Type} (v : (⟨S1600000x128, .f32⟩ : BufTy).Contents Val) (h1 h2 h3) :
    (TRef.of (sig := sig) (T := ⟨S1600000x128, .f32⟩) main_v20 h1 h2 h3).ofBuf v = v := rfl
theorem toBuf_main_v39 {Val : EltTy → Type} (v : (⟨S1600000x64, .f32⟩ : BufTy).Contents Val) (h1 h2 h3) :
    (TRef.of (sig := sig) (T := ⟨S1600000x64, .f32⟩) main_v39 h1 h2 h3).toBuf v = v := rfl
theorem ofBuf_main_v39 {Val : EltTy → Type} (v : (⟨S1600000x64, .f32⟩ : BufTy).Contents Val) (h1 h2 h3) :
    (TRef.of (sig := sig) (T := ⟨S1600000x64, .f32⟩) main_v39 h1 h2 h3).ofBuf v = v := rfl
theorem toBuf_main_v59 {Val : EltTy → Type} (v : (⟨S1600000x128, .f32⟩ : BufTy).Contents Val) (h1 h2 h3) :
    (TRef.of (sig := sig) (T := ⟨S1600000x128, .f32⟩) main_v59 h1 h2 h3).toBuf v = v := rfl
theorem ofBuf_main_v59 {Val : EltTy → Type} (v : (⟨S1600000x128, .f32⟩ : BufTy).Contents Val) (h1 h2 h3) :
    (TRef.of (sig := sig) (T := ⟨S1600000x128, .f32⟩) main_v59 h1 h2 h3).ofBuf v = v := rfl
theorem toBuf_main_v83 {Val : EltTy → Type} (v : (⟨S100000x256, .f32⟩ : BufTy).Contents Val) (h1 h2 h3) :
    (TRef.of (sig := sig) (T := ⟨S100000x256, .f32⟩) main_v83 h1 h2 h3).toBuf v = v := rfl
theorem ofBuf_main_v83 {Val : EltTy → Type} (v : (⟨S100000x256, .f32⟩ : BufTy).Contents Val) (h1 h2 h3) :
    (TRef.of (sig := sig) (T := ⟨S100000x256, .f32⟩) main_v83 h1 h2 h3).ofBuf v = v := rfl

set_option maxRecDepth 8192 in
set_option maxHeartbeats 4000000 in
/-- The first block leaves the rectified first layer of the 128-wide branch. The fold is computed operation by operation; the typed views of the called functions' buffers
    are the identity; what is left is the stage, by unfolding its definition. -/
theorem blkA_out (V : Valuation τ sig (Elt Ideal)) :
    after blkA V (Proc.devRef .tc main_v19)
      = RefSpec.hidden128 (V (Proc.devRef .tc main_arg0)) (V (Proc.devRef .tc main_arg2)) (V (Proc.devRef .tc main_arg3)) (V (Proc.devRef .tc main_arg4)) (V (Proc.devRef .tc main_arg5)) (V (Proc.devRef .tc main_arg6)) := by
  simp only [blkA]
  after_results_simp
  simp only [ofBuf_toBuf, toBuf_main_arg2, ofBuf_main_arg2, toBuf_main_arg0, ofBuf_main_arg0, toBuf_main_v18, ofBuf_main_v18, toBuf_main_v19, ofBuf_main_v19, toBuf_main_arg1, ofBuf_main_arg1, toBuf_main_v57, ofBuf_main_v57, toBuf_main_v58, ofBuf_main_v58, toBuf_main_v82, ofBuf_main_v82, toBuf_main_v0, ofBuf_main_v0, toBuf_main_v20, ofBuf_main_v20, toBuf_main_v39, ofBuf_main_v39, toBuf_main_v59, ofBuf_main_v59, toBuf_main_v83, ofBuf_main_v83]
  rfl

set_option maxRecDepth 8192 in
set_option maxHeartbeats 4000000 in
/-- The second block leaves the second layer of the 128-wide branch, of the first layer's buffer. The fold is computed operation by operation; the typed views of the called functions' buffers
    are the identity; what is left is the stage, by unfolding its definition. -/
theorem blkB_out (V : Valuation τ sig (Elt Ideal)) :
    after blkB V (Proc.devRef .tc main_v38)
      = RefSpec.second (V (Proc.devRef .tc main_v19)) (V (Proc.devRef .tc main_arg2)) (V (Proc.devRef .tc main_arg3)) (V (Proc.devRef .tc main_arg7)) (V (Proc.devRef .tc main_arg8)) (V (Proc.devRef .tc main_arg9)) := by
  simp only [blkB]
  after_results_simp
  simp only [ofBuf_toBuf, toBuf_main_arg2, ofBuf_main_arg2, toBuf_main_arg0, ofBuf_main_arg0, toBuf_main_v18, ofBuf_main_v18, toBuf_main_v19, ofBuf_main_v19, toBuf_main_arg1, ofBuf_main_arg1, toBuf_main_v57, ofBuf_main_v57, toBuf_main_v58, ofBuf_main_v58, toBuf_main_v82, ofBuf_main_v82, toBuf_main_v0, ofBuf_main_v0, toBuf_main_v20, ofBuf_main_v20, toBuf_main_v39, ofBuf_main_v39, toBuf_main_v59, ofBuf_main_v59, toBuf_main_v83, ofBuf_main_v83]
  rfl

set_option maxRecDepth 8192 in
set_option maxHeartbeats 4000000 in
/-- The third block leaves the rectified first layer of the 64-wide branch. The fold is computed operation by operation; the typed views of the called functions' buffers
    are the identity; what is left is the stage, by unfolding its definition. -/
theorem blkC_out (V : Valuation τ sig (Elt Ideal)) :
    after blkC V (Proc.devRef .tc main_v58)
      = RefSpec.hidden64 (V (Proc.devRef .tc main_arg1)) (V (Proc.devRef .tc main_arg2)) (V (Proc.devRef .tc main_arg3)) (V (Proc.devRef .tc main_arg10)) (V (Proc.devRef .tc main_arg11)) (V (Proc.devRef .tc main_arg12)) := by
  simp only [blkC]
  after_results_simp
  simp only [ofBuf_toBuf, toBuf_main_arg2, ofBuf_main_arg2, toBuf_main_arg0, ofBuf_main_arg0, toBuf_main_v18, ofBuf_main_v18, toBuf_main_v19, ofBuf_main_v19, toBuf_main_arg1, ofBuf_main_arg1, toBuf_main_v57, ofBuf_main_v57, toBuf_main_v58, ofBuf_main_v58, toBuf_main_v82, ofBuf_main_v82, toBuf_main_v0, ofBuf_main_v0, toBuf_main_v20, ofBuf_main_v20, toBuf_main_v39, ofBuf_main_v39, toBuf_main_v59, ofBuf_main_v59, toBuf_main_v83, ofBuf_main_v83]
  rfl

set_option maxRecDepth 8192 in
set_option maxHeartbeats 4000000 in
/-- The fourth block leaves the second layer of the 64-wide branch, of the first layer's buffer. The fold is computed operation by operation; the typed views of the called functions' buffers
    are the identity; what is left is the stage, by unfolding its definition. -/
theorem blkD_out (V : Valuation τ sig (Elt Ideal)) :
    after blkD V (Proc.devRef .tc main_v77)
      = RefSpec.second (V (Proc.devRef .tc main_v58)) (V (Proc.devRef .tc main_arg2)) (V (Proc.devRef .tc main_arg3)) (V (Proc.devRef .tc main_arg13)) (V (Proc.devRef .tc main_arg14)) (V (Proc.devRef .tc main_arg15)) := by
  simp only [blkD]
  after_results_simp
  simp only [ofBuf_toBuf, toBuf_main_arg2, ofBuf_main_arg2, toBuf_main_arg0, ofBuf_main_arg0, toBuf_main_v18, ofBuf_main_v18, toBuf_main_v19, ofBuf_main_v19, toBuf_main_arg1, ofBuf_main_arg1, toBuf_main_v57, ofBuf_main_v57, toBuf_main_v58, ofBuf_main_v58, toBuf_main_v82, ofBuf_main_v82, toBuf_main_v0, ofBuf_main_v0, toBuf_main_v20, ofBuf_main_v20, toBuf_main_v39, ofBuf_main_v39, toBuf_main_v59, ofBuf_main_v59, toBuf_main_v83, ofBuf_main_v83]
  rfl

set_option maxRecDepth 8192 in
set_option maxHeartbeats 4000000 in
/-- The last block leaves the head, of the two branches' buffers. The fold is computed operation by operation; the typed views of the called functions' buffers
    are the identity; what is left is the stage, by unfolding its definition. -/
theorem blkE_out (V : Valuation τ sig (Elt Ideal)) :
    after blkE V (Proc.devRef .tc main_v87)
      = RefSpec.head (V (Proc.devRef .tc main_v38)) (V (Proc.devRef .tc main_v77)) (V (Proc.devRef .tc main_arg16)) (V (Proc.devRef .tc main_arg17)) (V (Proc.devRef .tc main_arg18)) (V (Proc.devRef .tc main_arg19)) := by
  simp only [blkE]
  after_results_simp
  simp only [ofBuf_toBuf, toBuf_main_arg2, ofBuf_main_arg2, toBuf_main_arg0, ofBuf_main_arg0, toBuf_main_v18, ofBuf_main_v18, toBuf_main_v19, ofBuf_main_v19, toBuf_main_arg1, ofBuf_main_arg1, toBuf_main_v57, ofBuf_main_v57, toBuf_main_v58, ofBuf_main_v58, toBuf_main_v82, ofBuf_main_v82, toBuf_main_v0, ofBuf_main_v0, toBuf_main_v20, ofBuf_main_v20, toBuf_main_v39, ofBuf_main_v39, toBuf_main_v59, ofBuf_main_v59, toBuf_main_v83, ofBuf_main_v83]
  rfl

/-- The result buffer after the whole line: the network applied to the twenty arguments' contents. Read from the last
    block back to the first: each block's written buffer is its stage of the buffers it reads, every other buffer
    read passes through the block. -/
theorem after_ops_out (V : Valuation τ sig (Elt Ideal)) :
    after ops V (Proc.devRef .tc main_v87)
      = RefSpec.net (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19)) := by
  simp only [ops, after_append']
  rw [blkE_out]
  rw [blkD_out,
    blkD_keep _ (by decide : main_v38 ∉ blkD_W),
    blkD_keep _ (by decide : main_arg16 ∉ blkD_W),
    blkD_keep _ (by decide : main_arg17 ∉ blkD_W),
    blkD_keep _ (by decide : main_arg18 ∉ blkD_W),
    blkD_keep _ (by decide : main_arg19 ∉ blkD_W)]
  rw [blkC_out,
    blkC_keep _ (by decide : main_v38 ∉ blkC_W),
    blkC_keep _ (by decide : main_arg2 ∉ blkC_W),
    blkC_keep _ (by decide : main_arg3 ∉ blkC_W),
    blkC_keep _ (by decide : main_arg13 ∉ blkC_W),
    blkC_keep _ (by decide : main_arg14 ∉ blkC_W),
    blkC_keep _ (by decide : main_arg15 ∉ blkC_W),
    blkC_keep _ (by decide : main_arg16 ∉ blkC_W),
    blkC_keep _ (by decide : main_arg17 ∉ blkC_W),
    blkC_keep _ (by decide : main_arg18 ∉ blkC_W),
    blkC_keep _ (by decide : main_arg19 ∉ blkC_W)]
  rw [blkB_out,
    blkB_keep _ (by decide : main_arg1 ∉ blkB_W),
    blkB_keep _ (by decide : main_arg2 ∉ blkB_W),
    blkB_keep _ (by decide : main_arg3 ∉ blkB_W),
    blkB_keep _ (by decide : main_arg10 ∉ blkB_W),
    blkB_keep _ (by decide : main_arg11 ∉ blkB_W),
    blkB_keep _ (by decide : main_arg12 ∉ blkB_W),
    blkB_keep _ (by decide : main_arg13 ∉ blkB_W),
    blkB_keep _ (by decide : main_arg14 ∉ blkB_W),
    blkB_keep _ (by decide : main_arg15 ∉ blkB_W),
    blkB_keep _ (by decide : main_arg16 ∉ blkB_W),
    blkB_keep _ (by decide : main_arg17 ∉ blkB_W),
    blkB_keep _ (by decide : main_arg18 ∉ blkB_W),
    blkB_keep _ (by decide : main_arg19 ∉ blkB_W)]
  rw [blkA_out,
    blkA_keep _ (by decide : main_arg1 ∉ blkA_W),
    blkA_keep _ (by decide : main_arg2 ∉ blkA_W),
    blkA_keep _ (by decide : main_arg3 ∉ blkA_W),
    blkA_keep _ (by decide : main_arg7 ∉ blkA_W),
    blkA_keep _ (by decide : main_arg8 ∉ blkA_W),
    blkA_keep _ (by decide : main_arg9 ∉ blkA_W),
    blkA_keep _ (by decide : main_arg10 ∉ blkA_W),
    blkA_keep _ (by decide : main_arg11 ∉ blkA_W),
    blkA_keep _ (by decide : main_arg12 ∉ blkA_W),
    blkA_keep _ (by decide : main_arg13 ∉ blkA_W),
    blkA_keep _ (by decide : main_arg14 ∉ blkA_W),
    blkA_keep _ (by decide : main_arg15 ∉ blkA_W),
    blkA_keep _ (by decide : main_arg16 ∉ blkA_W),
    blkA_keep _ (by decide : main_arg17 ∉ blkA_W),
    blkA_keep _ (by decide : main_arg18 ∉ blkA_W),
    blkA_keep _ (by decide : main_arg19 ∉ blkA_W)]
  rfl

/-- A buffer none of the five blocks writes is unchanged by the whole line. -/
theorem after_ops_keep (V : Valuation τ sig (Elt F)) {r : Ref sig .tc}
    (hA : r ∉ blkA_W) (hB : r ∉ blkB_W) (hC : r ∉ blkC_W) (hD : r ∉ blkD_W) (hE : r ∉ blkE_W) :
    after ops V (Proc.devRef .tc r) = V (Proc.devRef .tc r) := by
  simp only [ops, after_append']
  rw [blkE_keep _ hE, blkD_keep _ hD, blkC_keep _ hC, blkB_keep _ hB, blkA_keep _ hA]

/-- On every device, over the extended reals, from any memory with zero counters: every weakly fair execution of the
    reference's @main terminates with the result buffer at the network of the twenty arguments' launch contents, and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
        = RefSpec.net (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
            (m ((c.tc : Thread nD τ).loc main_arg18))
            (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v87).trans (after_ops_out (launchContents m c)),
      (h c main_arg0).trans (after_ops_keep _ (by decide) (by decide) (by decide) (by decide) (by decide)),
      (h c main_arg1).trans (after_ops_keep _ (by decide) (by decide) (by decide) (by decide) (by decide)),
      (h c main_arg2).trans (after_ops_keep _ (by decide) (by decide) (by decide) (by decide) (by decide)),
      (h c main_arg3).trans (after_ops_keep _ (by decide) (by decide) (by decide) (by decide) (by decide)),
      (h c main_arg4).trans (after_ops_keep _ (by decide) (by decide) (by decide) (by decide) (by decide)),
      (h c main_arg5).trans (after_ops_keep _ (by decide) (by decide) (by decide) (by decide) (by decide)),
      (h c main_arg6).trans (after_ops_keep _ (by decide) (by decide) (by decide) (by decide) (by decide)),
      (h c main_arg7).trans (after_ops_keep _ (by decide) (by decide) (by decide) (by decide) (by decide)),
      (h c main_arg8).trans (after_ops_keep _ (by decide) (by decide) (by decide) (by decide) (by decide)),
      (h c main_arg9).trans (after_ops_keep _ (by decide) (by decide) (by decide) (by decide) (by decide)),
      (h c main_arg10).trans (after_ops_keep _ (by decide) (by decide) (by decide) (by decide) (by decide)),
      (h c main_arg11).trans (after_ops_keep _ (by decide) (by decide) (by decide) (by decide) (by decide)),
      (h c main_arg12).trans (after_ops_keep _ (by decide) (by decide) (by decide) (by decide) (by decide)),
      (h c main_arg13).trans (after_ops_keep _ (by decide) (by decide) (by decide) (by decide) (by decide)),
      (h c main_arg14).trans (after_ops_keep _ (by decide) (by decide) (by decide) (by decide) (by decide)),
      (h c main_arg15).trans (after_ops_keep _ (by decide) (by decide) (by decide) (by decide) (by decide)),
      (h c main_arg16).trans (after_ops_keep _ (by decide) (by decide) (by decide) (by decide) (by decide)),
      (h c main_arg17).trans (after_ops_keep _ (by decide) (by decide) (by decide) (by decide) (by decide)),
      (h c main_arg18).trans (after_ops_keep _ (by decide) (by decide) (by decide) (by decide) (by decide)),
      (h c main_arg19).trans (after_ops_keep _ (by decide) (by decide) (by decide) (by decide) (by decide))⟩)
    (run_raw m ρ)

end Cert.RefRun

end
-- ==== Proof.lean ====
/-
  The certificate: the kernel program and the reference network compute the same function over the extended reals.

  Both programs run from any memory of which the precondition holds (every float input finite, every source word of an
  edge naming a node, counted from the start or from the end), terminate without a fault and leave their arguments
  unchanged.  The reference's result is the network of its arguments: per branch a rectified layer and a plain layer of
  the form X·Wself + (neighbour mean of X)·Wneigh + b, then a two-layer dense head over the two 32-wide results joined
  side by side.  The kernel program computes the same network in three launches over blocks of rows, with two changes
  of arrangement: it multiplies neighbour sums by the reciprocal of the clamped in-degree where the reference divides by
  the clamped degree — equal at every extended real, the degree being at least one — and it projects the hidden rows
  through the second layer's neighbour weights before summing them over the edges where the reference sums first —
  equal because every entry involved is a real number (the inputs are finite and every gathered row exists), so the
  projection, a finite sum of products, distributes over the finite sum along the edges.  The head's product against
  the joined array is the sum of the two products against the two halves of its weight matrix.  Changes of float format
  are the identity over the extended reals, and no operation was rewritten when the kernel program was idealized.
-/
import proofs.«107267_j23845658427621_2_alg».proof.Proof.Assemble
import proofs.«107267_j23845658427621_2_alg».proof.Proof.KerValue
import proofs.«107267_j23845658427621_2_alg».proof.Proof.RefRunValue

noncomputable section

namespace Cert.Proof

/-- Every claim of the certificate, from the two runs: the kernel program's and the reference's results are the same
    network of the same arguments. -/
theorem claim : Cert.Claim :=
  Cert.Assemble.claim_of (fun m ρ hpre => Cert.KerValue.run m ρ hpre) (fun m' ρ' => Cert.RefRun.run m' ρ')

end Cert.Proof

end
